-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x1 : Shape := ⟨2, ![100000, 1]⟩
abbrev S128x128 : Shape := ⟨2, ![128, 128]⟩
abbrev S1x128 : Shape := ⟨2, ![1, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part3 {F : FTy → Type} [FloatOps F] (main_arg13 : FVec F S128 .f32) (main_arg14 : FVec F S128x128 .f32) (main_arg15 : FVec F S128 .f32) (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  let main_v53 : FVec F S128 .f32 := Host.absf main_arg13
  let main_cst_20 : FVec F S_ .f32 := constant S_ .f32 0x7F800000#32
  let main_v54 : FVec F S128 .f32 := broadcastInDim S128 ![] bcast_S_S128 main_cst_20
  let main_v55 : IVec S128 1 := cmpf .olt main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  let main_v58 : FVec F S128x128 .f32 := Host.absf main_arg14
  let main_cst_22 : FVec F S_ .f32 := constant S_ .f32 0x7F800000#32
  let main_v59 : FVec F S128x128 .f32 := broadcastInDim S128x128 ![] bcast_S_S128x128 main_cst_22
  let main_v60 : IVec S128x128 1 := cmpf .olt main_v58 main_v59
  let main_c_23 : IVec S_ 1 := constantI S_ 1 1#1
  let main_v61 : IVec S_ 1 := (fun x v => Host.reduce IntOp.andi x v reducesTo_S128x128_S_d0_1 h_S_) main_v60 main_c_23
  let main_v62 : IVec S_ 1 := andi main_v57 main_v61
  let main_v63 : FVec F S128 .f32 := Host.absf main_arg15
  let main_cst_24 : FVec F S_ .f32 := constant S_ .f32 0x7F800000#32
  let main_v64 : FVec F S128 .f32 := broadcastInDim S128 ![] bcast_S_S128 main_cst_24
  let main_v65 : IVec S128 1 := cmpf .olt main_v63 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v62 main_v66
  main_v67

def fn_part2 {F : FTy → Type} [FloatOps F] (main_arg9 : FVec F S_ .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S128x128 .f32 := Host.absf main_arg10
  let main_cst_14 : FVec F S_ .f32 := constant S_ .f32 0x7F800000#32
  let main_v39 : FVec F S128x128 .f32 := broadcastInDim S128x128 ![] bcast_S_S128x128 main_cst_14
  let main_v40 : IVec S128x128 1 := cmpf .olt main_v38 main_v39
  let main_c_15 : IVec S_ 1 := constantI S_ 1 1#1
  let main_v41 : IVec S_ 1 := (fun x v => Host.reduce IntOp.andi x v reducesTo_S128x128_S_d0_1 h_S_) main_v40 main_c_15
  let main_v42 : IVec S_ 1 := andi main_v37 main_v41
  let main_v43 : FVec F S128 .f32 := Host.absf main_arg11
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S128 .f32 := Host.absf main_arg12
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_arg13 main_arg14 main_arg15 main_v47 main_v50

def fn_part1 {F : FTy → Type} [FloatOps F] (main_arg6 : FVec F S128 .f32) (main_arg7 : FVec F S128 .f32) (main_arg8 : FVec F S128 .f32) (main_arg9 : FVec F S_ .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x1600000 32) (main_arg2 : IVec S100000x1 32) (main_arg3 : FVec F S128x128 .f32) (main_arg4 : FVec F S1x128 .f32) (main_arg5 : FVec F S128x128 .f32) (main_arg6 : FVec F S128 .f32) (main_arg7 : FVec F S128 .f32) (main_arg8 : FVec F S128 .f32) (main_arg9 : FVec F S_ .f32) (main_arg10 : FVec F S128x128 .f32) (main_arg11 : FVec F S128 .f32) (main_arg12 : FVec F S128 .f32) (main_arg13 : FVec F S128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S100000x1 : Shape := ⟨2, ![100000, 1]⟩
abbrev S128x128 : Shape := ⟨2, ![128, 128]⟩
abbrev S1x128 : Shape := ⟨2, ![1, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S4000x128 : Shape := ⟨2, ![4000, 128]⟩
abbrev S4000x1 : Shape := ⟨2, ![4000, 1]⟩
abbrev S1700000x128 : Shape := ⟨2, ![1700000, 128]⟩
abbrev S1x1 : Shape := ⟨2, ![1, 1]⟩
abbrev S4000 : Shape := ⟨1, ![4000]⟩

abbrev nBuf : Space → Nat
  | .hbm => 111
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x1, .i32⟩
  | .hbm, ⟨3, _⟩ => ⟨S128x128, .f32⟩
  | .hbm, ⟨4, _⟩ => ⟨S1x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S100000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S100000, .i32⟩
  | .hbm, ⟨23, _⟩ => ⟨S1700000, .i32⟩
  | .hbm, ⟨24, _⟩ => ⟨S_, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S_, .i32⟩
  | .hbm, ⟨61, _⟩ => ⟨S100000x1, .i32⟩
  | .hbm, ⟨62, _⟩ => ⟨S100000x1, .i1⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x1, .f32⟩
  | .hbm, ⟨108, _⟩ => ⟨S100000x128, .f32⟩
  | .hbm, ⟨109, _⟩ => ⟨S1x128, .f32⟩
  | .hbm, ⟨110, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x1, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x1, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x1 : S_.BroadcastsInDim S100000x1 (![] : Fin 0 → Fin S100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S4000x1_S4000x128 : S4000x1.Broadcasts S4000x128
  shapeCasts_S4000x128_S4000x128 : S4000x128.ShapeCasts S4000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S_S1x1 : S_.ShapeCasts S1x1
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .f32 = 32 ∨ (Rect.block (s := S100000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v74) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x1 : Shape := ⟨2, ![100000, 1]⟩
abbrev S128x128 : Shape := ⟨2, ![128, 128]⟩
abbrev S1x128 : Shape := ⟨2, ![1, 128]⟩
abbrev S128 : Shape := ⟨1, ![128]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 227
  | .vmem => 0
  | .smem => 0
  | _ => 0

abbrev hbmTy0_0 (i : Nat) : BufTy := match i % 128 with
  | 0 => ⟨S100000x128, .f32⟩
  | 1 => ⟨S2x1600000, .i32⟩
  | 2 => ⟨S100000x1, .i32⟩
  | 3 => ⟨S128x128, .f32⟩
  | 4 => ⟨S1x128, .f32⟩
  | 5 => ⟨S128x128, .f32⟩
  | 6 => ⟨S128, .f32⟩
  | 7 => ⟨S128, .f32⟩
  | 8 => ⟨S128, .f32⟩
  | 9 => ⟨S_, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S100000x128, .f32⟩
  | 17 => ⟨S100000, .i32⟩
  | 18 => ⟨S_, .i32⟩
  | 19 => ⟨S100000, .i32⟩
  | 20 => ⟨S100000, .i1⟩
  | 21 => ⟨S100000x1, .i1⟩
  | 22 => ⟨S100000x128, .i1⟩
  | 23 => ⟨S100000x128, .f32⟩
  | 24 => ⟨S100000x128, .f32⟩
  | 25 => ⟨S1x1600000, .i32⟩
  | 26 => ⟨S1600000, .i32⟩
  | 27 => ⟨S100000, .i32⟩
  | 28 => ⟨S1700000, .i32⟩
  | 29 => ⟨S1x1600000, .i32⟩
  | 30 => ⟨S1600000, .i32⟩
  | 31 => ⟨S100000, .i32⟩
  | 32 => ⟨S1700000, .i32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S100000x128, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x128, .f32⟩
  | 79 => ⟨S1700000x1, .f32⟩
  | 80 => ⟨S1700000x128, .f32⟩
  | 81 => ⟨S1700000x128, .f32⟩
  | 82 => ⟨S_, .f32⟩
  | 83 => ⟨S100000x128, .f32⟩
  | 84 => ⟨S1700000x1, .i32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S100000x128, .f32⟩
  | 98 => ⟨S_, .f32⟩
  | 99 => ⟨S100000, .f32⟩
  | 100 => ⟨S100000x1, .f32⟩
  | 101 => ⟨S_, .f32⟩
  | 102 => ⟨S100000x1, .f32⟩
  | 103 => ⟨S100000x1, .f32⟩
  | 104 => ⟨S100000x128, .f32⟩
  | 105 => ⟨S100000x128, .f32⟩
  | 106 => ⟨S_, .f32⟩
  | 107 => ⟨S100000x1, .f32⟩
  | 108 => ⟨S100000x1, .f32⟩
  | 109 => ⟨S100000x1, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .i1⟩
  | 121 => ⟨S100000x128, .f32⟩
  | 122 => ⟨S100000x128, .f32⟩
  | 123 => ⟨S100000x128, .f32⟩
  | 124 => ⟨S1x1600000, .i32⟩
  | 125 => ⟨S1600000, .i32⟩
  | 126 => ⟨S100000, .i32⟩
  | 127 => ⟨S1700000, .i32⟩
  | _ => ⟨S100000x128, .f32⟩

abbrev hbmTy0_1 (i : Nat) : BufTy := match i % 128 with
  | 0 => ⟨S1x1600000, .i32⟩
  | 1 => ⟨S1600000, .i32⟩
  | 2 => ⟨S100000, .i32⟩
  | 3 => ⟨S1700000, .i32⟩
  | 4 => ⟨S_, .f32⟩
  | 5 => ⟨S1700000, .f32⟩
  | 6 => ⟨S_, .f32⟩
  | 7 => ⟨S100000, .f32⟩
  | 8 => ⟨S1700000x1, .i32⟩
  | 9 => ⟨S100000, .f32⟩
  | 10 => ⟨S_, .f32⟩
  | 11 => ⟨S100000, .f32⟩
  | 12 => ⟨S100000, .i1⟩
  | 13 => ⟨S_, .f32⟩
  | 14 => ⟨S100000, .f32⟩
  | 15 => ⟨S100000, .f32⟩
  | 16 => ⟨S100000, .f32⟩
  | 17 => ⟨S_, .f32⟩
  | 18 => ⟨S_, .f32⟩
  | 19 => ⟨S100000, .f32⟩
  | 20 => ⟨S100000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S100000x128, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000x128, .f32⟩
  | 50 => ⟨S1700000x1, .f32⟩
  | 51 => ⟨S1700000x128, .f32⟩
  | 52 => ⟨S1700000x128, .f32⟩
  | 53 => ⟨S_, .f32⟩
  | 54 => ⟨S100000x128, .f32⟩
  | 55 => ⟨S1700000x1, .i32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S100000x128, .f32⟩
  | 69 => ⟨S_, .f32⟩
  | 70 => ⟨S100000, .f32⟩
  | 71 => ⟨S100000x1, .f32⟩
  | 72 => ⟨S_, .f32⟩
  | 73 => ⟨S100000x1, .f32⟩
  | 74 => ⟨S100000x1, .f32⟩
  | 75 => ⟨S100000x128, .f32⟩
  | 76 => ⟨S100000x128, .f32⟩
  | 77 => ⟨S_, .f32⟩
  | 78 => ⟨S100000x1, .f32⟩
  | 79 => ⟨S100000x1, .f32⟩
  | 80 => ⟨S100000x1, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .i1⟩
  | 92 => ⟨S100000x128, .f32⟩
  | 93 => ⟨S100000x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_v0 : Ref sig .tc := ⟨.hbm, 22, rfl⟩
abbrev main_call0_v1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_8 : Ref sig .tc := ⟨.hbm, 70, rfl⟩
abbrev main_v40 : Ref sig .tc := ⟨.hbm, 71, rfl⟩
abbrev main_v41 : Ref sig .tc := ⟨.hbm, 72, rfl⟩
abbrev main_c_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_17 : Ref sig .tc := ⟨.hbm, 132, rfl⟩
abbrev main_v93 : Ref sig .tc := ⟨.hbm, 133, rfl⟩
abbrev main_cst_18 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_19 : Ref sig .tc := ⟨.hbm, 138, rfl⟩
abbrev main_v97 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_21 : Ref sig .tc := ⟨.hbm, 145, rfl⟩
abbrev main_call3_v0 : Ref sig .tc := ⟨.hbm, 146, rfl⟩
abbrev main_call3_v1 : Ref sig .tc := ⟨.hbm, 147, rfl⟩
abbrev main_v102 : Ref sig .tc := ⟨.hbm, 148, rfl⟩
abbrev main_c_22 : Ref sig .tc := ⟨.hbm, 149, rfl⟩
abbrev main_v103 : Ref sig .tc := ⟨.hbm, 150, rfl⟩
abbrev main_v104 : Ref sig .tc := ⟨.hbm, 151, rfl⟩
abbrev main_c_23 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_26 : Ref sig .tc := ⟨.hbm, 169, rfl⟩
abbrev main_v119 : Ref sig .tc := ⟨.hbm, 170, rfl⟩
abbrev main_v120 : Ref sig .tc := ⟨.hbm, 171, rfl⟩
abbrev main_c_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_29 : Ref sig .tc := ⟨.hbm, 188, rfl⟩
abbrev main_v135 : Ref sig .tc := ⟨.hbm, 189, rfl⟩
abbrev main_v136 : Ref sig .tc := ⟨.hbm, 190, rfl⟩
abbrev main_cst_30 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_v143 : Ref sig .tc := ⟨.hbm, 199, rfl⟩
abbrev main_cst_32 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_33 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_34 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.GcnRun.lean ====
/-
  The idealized kernel program's run, with its result array named.

  The program is six launches among stretches of host operations.  Its frame proof follows the memory through the
  twelve segments: after the last one every buffer holds what the fold of the segments leaves in it.  The frame
  claim keeps only the sixteen argument arrays of that; here the same run is stated once more keeping the result
  array as well, at the fold's contents, so that the values can be read off the fold.
-/
import proofs.«150129_j46978352284504_1_alg».proof.Proof.Gen.KernelIdeal.Frame

set_option maxRecDepth 16384

noncomputable section

namespace Cert.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result array holds what
    the fold of the twelve segments leaves there, and the sixteen argument arrays are as launched. -/
theorem run_named : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.GcnRun

end
-- ==== Proof.GcnSpec.lean ====
/-
  The mathematics of the graph network, as functions on the extended reals.

  A node feature matrix has 100000 rows (nodes) and 128 columns (features).  Every dense stage acts on one row at a
  time: a product with a 128 x 128 weight matrix, the encoder's choice between that product and a decoder token, the
  normalisation of a row by its own mean and variance followed by the leaky rectifier, and the output projection
  with its bias.  The stages are stated here index by index over explicit row and column coordinates, so that a
  block of 4000 rows computed on its own and the whole array computed at once can both be compared with them.
-/
import Idealize.ShloMosaic.PureOps.Ideal
import Idealize.ShloMosaic.Lib.ValueIdx

noncomputable section

open scoped BigOperators

namespace Cert.GcnSpec

open Idealize.ShloMosaic Idealize.ShloMosaic.ValueIdx

/-- The four float words the two programs share, read as extended reals: 0, 1, 128 and the variance offset. -/
abbrev zeroW : EReal := Ideal.ofBits .f32 0x00000000#32
abbrev oneW : EReal := Ideal.ofBits .f32 0x3F800000#32
abbrev c128W : EReal := Ideal.ofBits .f32 0x43000000#32
abbrev epsW : EReal := Ideal.ofBits .f32 0x3727C5AC#32

/-- A row times a column of the weight matrix. -/
def dotRow (h w : Fin 128 → EReal) : EReal := ∑ k : Fin 128, h k * w k

/-- The encoder's entry in the blended form: `m * dec + (1 - m) * y`, with `m` the 0/1 mask of the row. -/
def blend (m dec y : EReal) : EReal := m * dec + (oneW - m) * y

/-- One entry of a normalised, scaled, shifted and rectified row: `h` is the row (bias already added), `gq`, `beq`
    the scale and shift of column `q`, `a` the slope on the negative side. -/
def lnCore (h : Fin 128 → EReal) (gq beq a : EReal) (q : Fin 128) : EReal :=
  let mu := Ideal.div (∑ k : Fin 128, h k) c128W
  let var := Ideal.div (∑ k : Fin 128, (h k - mu) * (h k - mu)) c128W
  let n := (h q - mu) * Ideal.rsqrt (var + epsW) * gq + beq
  Scalar.select (FloatOps.cmpf (F := Ideal) (φ := .f32) .oge n zeroW) n (a * n)

/-! ## The stages as functions of whole arrays

  `x`, `h`, `agg` are node feature matrices; `w` a weight matrix; `dec`, `b`, `g`, `be` one-row matrices; `mk` the
  one-column 0/1 mask; `a` the one-entry slope. -/

/-- Feature matrix times weight matrix. -/
def MM (h : (⟨2, ![100000, 128]⟩ : Shape).Idx → EReal) (w : (⟨2, ![128, 128]⟩ : Shape).Idx → EReal) :
    (⟨2, ![100000, 128]⟩ : Shape).Idx → EReal :=
  fun i => dotRow (fun k => h (ix2 (n0 := 100000) (n1 := 128) (i 0) k)) (fun k => w (ix2 (n0 := 128) (n1 := 128) k (i 1)))

/-- The encoder: the decoder token on masked rows, the product elsewhere, in the blended form. -/
def ENC (x : (⟨2, ![100000, 128]⟩ : Shape).Idx → EReal) (w : (⟨2, ![128, 128]⟩ : Shape).Idx → EReal)
    (mk : (⟨2, ![100000, 1]⟩ : Shape).Idx → EReal) (dec : (⟨2, ![1, 128]⟩ : Shape).Idx → EReal) :
    (⟨2, ![100000, 128]⟩ : Shape).Idx → EReal :=
  fun i => blend (mk (ix2 (n0 := 100000) (n1 := 1) (i 0) 0)) (dec (ix2 (n0 := 1) (n1 := 128) 0 (i 1)))
    (dotRow (fun k => x (ix2 (n0 := 100000) (n1 := 128) (i 0) k)) (fun k => w (ix2 (n0 := 128) (n1 := 128) k (i 1))))

/-- Bias, row normalisation, scale and shift, leaky rectifier. -/
def LN (agg : (⟨2, ![100000, 128]⟩ : Shape).Idx → EReal) (b g be : (⟨2, ![1, 128]⟩ : Shape).Idx → EReal)
    (a : (⟨2, ![1, 1]⟩ : Shape).Idx → EReal) : (⟨2, ![100000, 128]⟩ : Shape).Idx → EReal :=
  fun i => lnCore (fun k => agg (ix2 (n0 := 100000) (n1 := 128) (i 0) k) + b (ix2 (n0 := 1) (n1 := 128) 0 k))
    (g (ix2 (n0 := 1) (n1 := 128) 0 (i 1))) (be (ix2 (n0 := 1) (n1 := 128) 0 (i 1))) (a (ix2 (n0 := 1) (n1 := 1) 0 0)) (i 1)

/-- The output projection with its bias row. -/
def OUT (h : (⟨2, ![100000, 128]⟩ : Shape).Idx → EReal) (w : (⟨2, ![128, 128]⟩ : Shape).Idx → EReal)
    (b : (⟨2, ![1, 128]⟩ : Shape).Idx → EReal) : (⟨2, ![100000, 128]⟩ : Shape).Idx → EReal :=
  fun i => dotRow (fun k => h (ix2 (n0 := 100000) (n1 := 128) (i 0) k)) (fun k => w (ix2 (n0 := 128) (n1 := 128) k (i 1)))
    + b (ix2 (n0 := 1) (n1 := 128) 0 (i 1))

end Cert.GcnSpec

end
-- ==== Proof.GcnBlocks0.lean ====
/-
  Launch 0 of the program: the encoder, 4000 rows at a time.

  Point t of the 25 reads rows 4000 t .. 4000 t + 3999 of the input features and of the one-column 0/1 mask, the
  whole encoder weight matrix and the one-row decoder token, and writes the same rows of the result: on each row the
  mask blends the decoder token with the row's product with the weights.  A row of the block is a row of the whole
  arrays, so the block is the restriction of the whole-array function, and the 25 blocks cover every row.
-/
import proofs.«150129_j46978352284504_1_alg».proof.Proof.Gen.KernelIdeal.Frame
import proofs.«150129_j46978352284504_1_alg».proof.Proof.GcnSpec
import Idealize.ShloMosaic.Lib.Pipeline.Value
import Idealize.ShloMosaic.Lib.ValueIdx

set_option maxRecDepth 16384

noncomputable section

namespace Cert.GcnBlocks0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- Where the five windows' blocks sit at grid point t. -/
theorem block_origin : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The payload hypothesis: an entry of the body's result blends the token's entry with the row's product. -/
abbrev PayENC : Prop := ∀ (x0 : Vec Ideal S4000x128 .f32) (x1 : Vec Ideal S128x128 .f32) (x2 : Vec Ideal S4000x1 .f32)
    (x3 : Vec Ideal S1x128 .f32) (p : Fin 4000) (q : Fin 128),
    k0_pay1 (F := Ideal) x0 x1 x2 x3 (ix2 p q)
      = blend (x2 (ix2 p 0)) (x3 (ix2 0 q)) (dotRow (fun k => x0 (ix2 p k)) (fun k => x1 (ix2 k q)))

set_option maxHeartbeats 4000000 in
/-- What point t writes back is block t of the whole-array function. -/
theorem flushed_eq (hpay : PayENC) (c : Dev nD) (t : Fin cfg0.N) :
    (dat0 V c).flushed 4 t = ((cfg0.win 4).blk t).view.read (Elt Ideal)
      (ENC (V c main_arg0) (V c main_arg3) (V c main_v35) (V c main_arg4)) := by
  show (cfg0.win 4).cut (grid0.coords t) ((dat0 V c).after 4 t) = _
  rw [after0_4]
  unfold out0_4
  rw [View.canon_unit_zero zero_off]
  simp only [View.ld_unit_zero (S := S4000x128) zero_off, View.ld_unit_zero (S := S128x128) zero_off, View.ld_unit_zero (S := S4000x1) zero_off, View.ld_unit_zero (S := S1x128) zero_off]
  obtain ⟨e0, e1, e2, e3, e4, e5, e6, e7, e8, e9⟩ := block_origin t
  funext j
  obtain ⟨p, q, rfl⟩ : ∃ (p : Fin 4000) (q : Fin 128), j = ix2 p q := ⟨j 0, j 1, eq_ix2 j⟩
  refine (hpay _ _ _ _ p q).trans ?_
  show blend (V c main_v35 (((cfg0.win 2).blk t).view.emb (ix2 p 0))) (V c main_arg4 (((cfg0.win 3).blk t).view.emb (ix2 0 q)))
      (dotRow (fun k => V c main_arg0 (((cfg0.win 0).blk t).view.emb (ix2 p k))) (fun k => V c main_arg3 (((cfg0.win 1).blk t).view.emb (ix2 k q))))
    = blend (V c main_v35 (ix2 (n0 := 100000) (n1 := 1) ((((cfg0.win 4).blk t).view.emb (ix2 p q)) 0) 0))
      (V c main_arg4 (ix2 (n0 := 1) (n1 := 128) 0 ((((cfg0.win 4).blk t).view.emb (ix2 p q)) 1)))
      (dotRow (fun k => V c main_arg0 (ix2 (n0 := 100000) (n1 := 128) ((((cfg0.win 4).blk t).view.emb (ix2 p q)) 0) k))
        (fun k => V c main_arg3 (ix2 (n0 := 128) (n1 := 128) k ((((cfg0.win 4).blk t).view.emb (ix2 p q)) 1))))
  have hrow : ∀ k : Fin 128, ((cfg0.win 0).blk t).view.emb (ix2 p k)
      = ix2 (n0 := 100000) (n1 := 128) ((((cfg0.win 4).blk t).view.emb (ix2 p q)) 0) k := fun k => by
    funext a; apply Fin.ext
    match a with
    | ⟨0, _⟩ => show win0_0.index t (0 : Fin 2) * 4000 + 1 * p.val = win0_4.index t (0 : Fin 2) * 4000 + 1 * p.val; omega
    | ⟨1, _⟩ => show win0_0.index t (1 : Fin 2) * 128 + 1 * k.val = k.val; omega
  have hw : ∀ k : Fin 128, ((cfg0.win 1).blk t).view.emb (ix2 k q)
      = ix2 (n0 := 128) (n1 := 128) k ((((cfg0.win 4).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_4.index t (1 : Fin 2) * 128 + 1 * q.val; omega
  have hm : ((cfg0.win 2).blk t).view.emb (ix2 p 0)
      = ix2 (n0 := 100000) (n1 := 1) ((((cfg0.win 4).blk t).view.emb (ix2 p q)) 0) 0 := by
    funext a; apply Fin.ext
    match a with
    | ⟨0, _⟩ => show win0_2.index t (0 : Fin 2) * 4000 + 1 * p.val = win0_4.index t (0 : Fin 2) * 4000 + 1 * p.val; omega
    | ⟨1, _⟩ => show win0_2.index t (1 : Fin 2) * 1 + 1 * 0 = 0; omega
  have hd : ((cfg0.win 3).blk t).view.emb (ix2 0 q)
      = ix2 (n0 := 1) (n1 := 128) 0 ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  simp only [hrow, hw, hm, hd]

/-- An index of the result array is in point t's block iff its row is among the block's 4000 rows. -/
theorem mem_blk (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v36).slice (win0_4.rect t)).set ↔ _
  rw [View.set_slice_whole, Rect.mem_set_unit]
  exact Iff.rfl

/-- Every index lies in the block of the point its row falls in: row r belongs to point r / 4000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  refine ⟨⟨(i 0).val / 4000, by show (i 0).val / 4000 < 25; omega⟩, flush0_4 _, ?_⟩
  rw [mem_blk]
  obtain ⟨e0, e1, e2, e3, e4, e5, e6, e7, e8, e9⟩ := block_origin ⟨(i 0).val / 4000, by show (i 0).val / 4000 < 25; omega⟩
  intro a
  match a with
  | ⟨0, _⟩ => show win0_4.index _ (0 : Fin 2) * 4000 ≤ (i 0).val ∧ (i 0).val < win0_4.index _ (0 : Fin 2) * 4000 + 4000; rw [e8]; show (i 0).val / 4000 * 4000 ≤ (i 0).val ∧ (i 0).val < (i 0).val / 4000 * 4000 + 4000; omega
  | ⟨1, _⟩ => show win0_4.index _ (1 : Fin 2) * 128 ≤ (i 1).val ∧ (i 1).val < win0_4.index _ (1 : Fin 2) * 128 + 128; rw [e9]; omega

/-- After the launch the result array is the whole-array encoder. -/
theorem final (hpay : PayENC) (c : Dev nD) :
    (dat0 V c).arrAt 4 cfg0.N = ENC (V c main_arg0) (V c main_arg3) (V c main_v35) (V c main_arg4) :=
  (dat0 V c).arrAt_eq_of_cover 4 _ (fun t _ => flushed_eq V hpay c t) cover

end Cert.GcnBlocks0

end
-- ==== Proof.GcnBlocks1.lean ====
/-
  Launch 1 of the program: a feature matrix times a 128 x 128 weight matrix, 4000 rows at a time.

  The grid has 25 points; point t reads rows 4000 t .. 4000 t + 3999 of the feature matrix and the whole weight
  matrix, and writes the same rows of the result.  Each entry of the block it writes is the row of the block times
  the column of the weights; a row of the block is a row of the whole matrix, so the block is the restriction of
  the whole product to those rows, and the 25 blocks cover every row.
-/
import proofs.«150129_j46978352284504_1_alg».proof.Proof.Gen.KernelIdeal.Frame
import proofs.«150129_j46978352284504_1_alg».proof.Proof.GcnSpec
import Idealize.ShloMosaic.Lib.Pipeline.Value
import Idealize.ShloMosaic.Lib.ValueIdx

set_option maxRecDepth 16384

noncomputable section

namespace Cert.GcnBlocks1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- Where the three windows' blocks sit at grid point t: rows from 4000 t for the features and the result, the
    whole of the weights. -/
theorem block_origin : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The payload hypothesis: an entry of the body's product is its row times its column. -/
abbrev PayMM : Prop := ∀ (x0 : Vec Ideal S4000x128 .f32) (x1 : Vec Ideal S128x128 .f32) (p : Fin 4000) (q : Fin 128),
    k1_pay1 (F := Ideal) x0 x1 (ix2 p q) = dotRow (fun k => x0 (ix2 p k)) (fun k => x1 (ix2 k q))

/-- What point t writes back is block t of the whole product. -/
theorem flushed_eq (hpay : PayMM) (c : Dev nD) (t : Fin cfg1.N) :
    (dat1 V c).flushed 2 t = ((cfg1.win 2).blk t).view.read (Elt Ideal) (MM (V c main_v36) (V c main_arg5)) := by
  show (cfg1.win 2).cut (grid1.coords t) ((dat1 V c).after 2 t) = _
  rw [after1_2]
  unfold out1_2
  rw [View.canon_unit_zero zero_off]
  simp only [View.ld_unit_zero (S := S4000x128) zero_off, View.ld_unit_zero (S := S128x128) zero_off]
  obtain ⟨e0, e1, e2, e3, e4, e5⟩ := block_origin t
  funext j
  obtain ⟨p, q, rfl⟩ : ∃ (p : Fin 4000) (q : Fin 128), j = ix2 p q := ⟨j 0, j 1, eq_ix2 j⟩
  refine (hpay _ _ p q).trans ?_
  show dotRow (fun k => V c main_v36 (((cfg1.win 0).blk t).view.emb (ix2 p k))) (fun k => V c main_arg5 (((cfg1.win 1).blk t).view.emb (ix2 k q)))
    = dotRow (fun k => V c main_v36 (ix2 (n0 := 100000) (n1 := 128) ((((cfg1.win 2).blk t).view.emb (ix2 p q)) 0) k))
        (fun k => V c main_arg5 (ix2 (n0 := 128) (n1 := 128) k ((((cfg1.win 2).blk t).view.emb (ix2 p q)) 1)))
  have hl : ∀ k : Fin 128, ((cfg1.win 0).blk t).view.emb (ix2 p k)
      = ix2 (n0 := 100000) (n1 := 128) ((((cfg1.win 2).blk t).view.emb (ix2 p q)) 0) k := fun k => by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * k.val = k.val; omega
  have hr : ∀ k : Fin 128, ((cfg1.win 1).blk t).view.emb (ix2 k q)
      = ix2 (n0 := 128) (n1 := 128) k ((((cfg1.win 2).blk t).view.emb (ix2 p q)) 1) := fun k => by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  simp only [hl, hr]

/-- An index of the result array is in point t's block iff its row is among the block's 4000 rows. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v37).slice (win1_2.rect t)).set ↔ _
  rw [View.set_slice_whole, Rect.mem_set_unit]
  exact Iff.rfl

/-- Every index lies in the block of the point its row falls in: row r belongs to point r / 4000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 4000, by show (i 0).val / 4000 < 25; omega⟩, flush1_2 _, ?_⟩
  rw [mem_blk]
  obtain ⟨e0, e1, e2, e3, e4, e5⟩ := block_origin ⟨(i 0).val / 4000, by show (i 0).val / 4000 < 25; omega⟩
  intro a
  match a with
  | ⟨0, _⟩ => show win1_2.index _ (0 : Fin 2) * 4000 ≤ (i 0).val ∧ (i 0).val < win1_2.index _ (0 : Fin 2) * 4000 + 4000; rw [e4]; show (i 0).val / 4000 * 4000 ≤ (i 0).val ∧ (i 0).val < (i 0).val / 4000 * 4000 + 4000; omega
  | ⟨1, _⟩ => show win1_2.index _ (1 : Fin 2) * 128 ≤ (i 1).val ∧ (i 1).val < win1_2.index _ (1 : Fin 2) * 128 + 128; rw [e5]; omega

/-- After the launch the result array is the whole product. -/
theorem final (hpay : PayMM) (c : Dev nD) :
    (dat1 V c).arrAt 2 cfg1.N = MM (V c main_v36) (V c main_arg5) :=
  (dat1 V c).arrAt_eq_of_cover 2 (MM (V c main_v36) (V c main_arg5)) (fun t _ => flushed_eq V hpay c t) cover

end Cert.GcnBlocks1

end
-- ==== Proof.GcnBlocks2.lean ====
/-
  Launch 2 of the program: bias, row normalisation, scale and shift, leaky rectifier, 4000 rows at a time.

  Point t of the 25 reads rows 4000 t .. 4000 t + 3999 of the aggregated features and the whole of the four small
  operands (bias, scale, shift as one-row matrices, the slope as a one-entry matrix), and writes the same rows of
  the result.  An entry of the block depends on its own row of the block only (through the row's mean and
  variance), and a row of the block is a row of the whole matrix: the block is the restriction of the whole-array
  function to those rows, and the 25 blocks cover every row.
-/
import proofs.«150129_j46978352284504_1_alg».proof.Proof.Gen.KernelIdeal.Frame
import proofs.«150129_j46978352284504_1_alg».proof.Proof.GcnSpec
import Idealize.ShloMosaic.Lib.Pipeline.Value
import Idealize.ShloMosaic.Lib.ValueIdx

set_option maxRecDepth 16384

noncomputable section

namespace Cert.GcnBlocks2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- Where the six windows' blocks sit at grid point t: rows from 4000 t for the features and the result, the
    whole of each small operand. -/
theorem block_origin : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The payload hypothesis: an entry of the body's result is the normalised, scaled, shifted, rectified entry of
    its row. -/
abbrev PayLN : Prop := ∀ (x0 : Vec Ideal S4000x128 .f32) (x1 x2 x3 : Vec Ideal S1x128 .f32) (x4 : Vec Ideal S1x1 .f32)
    (p : Fin 4000) (q : Fin 128),
    k2_pay1 (F := Ideal) x0 x1 x2 x3 x4 (ix2 p q)
      = lnCore (fun k => x0 (ix2 p k) + x1 (ix2 0 k)) (x2 (ix2 0 q)) (x3 (ix2 0 q)) (x4 (ix2 0 0)) q

/-- The row function respects equal rows, parameters and column. -/
theorem lnCore_congr {h h' : Fin 128 → EReal} {g g' be be' a a' : EReal} {q q' : Fin 128} (hh : ∀ k, h k = h' k)
    (hg : g = g') (hbe : be = be') (ha : a = a') (hq : q = q') : lnCore h g be a q = lnCore h' g' be' a' q' := by
  subst hg hbe ha hq
  rw [funext hh]

set_option maxHeartbeats 4000000 in
/-- What point t writes back is block t of the whole-array function. -/
theorem flushed_eq (hpay : PayLN) (c : Dev nD) (t : Fin cfg2.N) :
    (dat2 V c).flushed 5 t = ((cfg2.win 5).blk t).view.read (Elt Ideal)
      (LN (V c main_v50) (V c main_v51) (V c main_v52) (V c main_v53) (V c main_v54)) := by
  show (cfg2.win 5).cut (grid2.coords t) ((dat2 V c).after 5 t) = _
  rw [after2_5]
  unfold out2_5
  rw [View.canon_unit_zero zero_off]
  simp only [View.ld_unit_zero (S := S4000x128) zero_off, View.ld_unit_zero (S := S1x128) zero_off, View.ld_unit_zero (S := S1x1) zero_off]
  obtain ⟨e0, e1, e2, e3, e4, e5, e6, e7, e8, e9, e10, e11⟩ := block_origin t
  funext j
  obtain ⟨p, q, rfl⟩ : ∃ (p : Fin 4000) (q : Fin 128), j = ix2 p q := ⟨j 0, j 1, eq_ix2 j⟩
  refine (hpay _ _ _ _ _ p q).trans ?_
  have hrow : ∀ k : Fin 128, ((cfg2.win 0).blk t).view.emb (ix2 p k)
      = ix2 (n0 := 100000) (n1 := 128) ((((cfg2.win 5).blk t).view.emb (ix2 p q)) 0) k := fun k => by
    funext a; apply Fin.ext
    match a with
    | ⟨0, _⟩ => show win2_0.index t (0 : Fin 2) * 4000 + 1 * p.val = win2_5.index t (0 : Fin 2) * 4000 + 1 * p.val; omega
    | ⟨1, _⟩ => show win2_0.index t (1 : Fin 2) * 128 + 1 * k.val = k.val; omega
  have hcol : (((cfg2.win 5).blk t).view.emb (ix2 p q)) 1 = q := by
    apply Fin.ext
    show win2_5.index t (1 : Fin 2) * 128 + 1 * q.val = q.val; omega
  have hb : ∀ k : Fin 128, ((cfg2.win 1).blk t).view.emb (ix2 0 k) = ix2 (n0 := 1) (n1 := 128) 0 k := fun k => by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hg : ((cfg2.win 2).blk t).view.emb (ix2 0 q) = ix2 (n0 := 1) (n1 := 128) 0 ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  have hbe : ((cfg2.win 3).blk t).view.emb (ix2 0 q) = ix2 (n0 := 1) (n1 := 128) 0 ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  have ha : ((cfg2.win 4).blk t).view.emb (ix2 0 0) = ix2 (n0 := 1) (n1 := 1) 0 0 := by
    funext a; apply Fin.ext
    match a with
    | ⟨0, _⟩ => show win2_4.index t (0 : Fin 2) * 1 + 1 * 0 = 0; omega
    | ⟨1, _⟩ => show win2_4.index t (1 : Fin 2) * 1 + 1 * 0 = 0; omega
  exact lnCore_congr
    (fun k => congrArg₂ (fun u v : EReal => u + v) (congrArg (V c main_v50) (hrow k)) (congrArg (V c main_v51) (hb k)))
    (congrArg (V c main_v52) hg) (congrArg (V c main_v53) hbe) (congrArg (V c main_v54) ha) hcol.symm

/-- An index of the result array is in point t's block iff its row is among the block's 4000 rows. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v55).slice (win2_5.rect t)).set ↔ _
  rw [View.set_slice_whole, Rect.mem_set_unit]
  exact Iff.rfl

/-- Every index lies in the block of the point its row falls in: row r belongs to point r / 4000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 4000, by show (i 0).val / 4000 < 25; omega⟩, flush2_5 _, ?_⟩
  rw [mem_blk]
  obtain ⟨e0, e1, e2, e3, e4, e5, e6, e7, e8, e9, e10, e11⟩ := block_origin ⟨(i 0).val / 4000, by show (i 0).val / 4000 < 25; omega⟩
  intro a
  match a with
  | ⟨0, _⟩ => show win2_5.index _ (0 : Fin 2) * 4000 ≤ (i 0).val ∧ (i 0).val < win2_5.index _ (0 : Fin 2) * 4000 + 4000; rw [e10]; show (i 0).val / 4000 * 4000 ≤ (i 0).val ∧ (i 0).val < (i 0).val / 4000 * 4000 + 4000; omega
  | ⟨1, _⟩ => show win2_5.index _ (1 : Fin 2) * 128 ≤ (i 1).val ∧ (i 1).val < win2_5.index _ (1 : Fin 2) * 128 + 128; rw [e11]; omega

/-- After the launch the result array is the whole-array function of the five operands. -/
theorem final (hpay : PayLN) (c : Dev nD) :
    (dat2 V c).arrAt 5 cfg2.N = LN (V c main_v50) (V c main_v51) (V c main_v52) (V c main_v53) (V c main_v54) :=
  (dat2 V c).arrAt_eq_of_cover 5 _ (fun t _ => flushed_eq V hpay c t) cover

end Cert.GcnBlocks2

end
-- ==== Proof.GcnBlocks3.lean ====
/-
  Launch 3 of the program: a feature matrix times a 128 x 128 weight matrix, 4000 rows at a time.

  The grid has 25 points; point t reads rows 4000 t .. 4000 t + 3999 of the feature matrix and the whole weight
  matrix, and writes the same rows of the result.  Each entry of the block it writes is the row of the block times
  the column of the weights; a row of the block is a row of the whole matrix, so the block is the restriction of
  the whole product to those rows, and the 25 blocks cover every row.
-/
import proofs.«150129_j46978352284504_1_alg».proof.Proof.Gen.KernelIdeal.Frame
import proofs.«150129_j46978352284504_1_alg».proof.Proof.GcnSpec
import Idealize.ShloMosaic.Lib.Pipeline.Value
import Idealize.ShloMosaic.Lib.ValueIdx

set_option maxRecDepth 16384

noncomputable section

namespace Cert.GcnBlocks3

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- Where the three windows' blocks sit at grid point t: rows from 4000 t for the features and the result, the
    whole of the weights. -/
theorem block_origin : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The payload hypothesis: an entry of the body's product is its row times its column. -/
abbrev PayMM : Prop := ∀ (x0 : Vec Ideal S4000x128 .f32) (x1 : Vec Ideal S128x128 .f32) (p : Fin 4000) (q : Fin 128),
    k3_pay1 (F := Ideal) x0 x1 (ix2 p q) = dotRow (fun k => x0 (ix2 p k)) (fun k => x1 (ix2 k q))

/-- What point t writes back is block t of the whole product. -/
theorem flushed_eq (hpay : PayMM) (c : Dev nD) (t : Fin cfg3.N) :
    (dat3 V c).flushed 2 t = ((cfg3.win 2).blk t).view.read (Elt Ideal) (MM (V c main_v55) (V c main_arg10)) := by
  show (cfg3.win 2).cut (grid3.coords t) ((dat3 V c).after 2 t) = _
  rw [after3_2]
  unfold out3_2
  rw [View.canon_unit_zero zero_off]
  simp only [View.ld_unit_zero (S := S4000x128) zero_off, View.ld_unit_zero (S := S128x128) zero_off]
  obtain ⟨e0, e1, e2, e3, e4, e5⟩ := block_origin t
  funext j
  obtain ⟨p, q, rfl⟩ : ∃ (p : Fin 4000) (q : Fin 128), j = ix2 p q := ⟨j 0, j 1, eq_ix2 j⟩
  refine (hpay _ _ p q).trans ?_
  show dotRow (fun k => V c main_v55 (((cfg3.win 0).blk t).view.emb (ix2 p k))) (fun k => V c main_arg10 (((cfg3.win 1).blk t).view.emb (ix2 k q)))
    = dotRow (fun k => V c main_v55 (ix2 (n0 := 100000) (n1 := 128) ((((cfg3.win 2).blk t).view.emb (ix2 p q)) 0) k))
        (fun k => V c main_arg10 (ix2 (n0 := 128) (n1 := 128) k ((((cfg3.win 2).blk t).view.emb (ix2 p q)) 1)))
  have hl : ∀ k : Fin 128, ((cfg3.win 0).blk t).view.emb (ix2 p k)
      = ix2 (n0 := 100000) (n1 := 128) ((((cfg3.win 2).blk t).view.emb (ix2 p q)) 0) k := fun k => by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 128 + 1 * k.val = k.val; omega
  have hr : ∀ k : Fin 128, ((cfg3.win 1).blk t).view.emb (ix2 k q)
      = ix2 (n0 := 128) (n1 := 128) k ((((cfg3.win 2).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  simp only [hl, hr]

/-- An index of the result array is in point t's block iff its row is among the block's 4000 rows. -/
theorem mem_blk (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v56).slice (win3_2.rect t)).set ↔ _
  rw [View.set_slice_whole, Rect.mem_set_unit]
  exact Iff.rfl

/-- Every index lies in the block of the point its row falls in: row r belongs to point r / 4000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  refine ⟨⟨(i 0).val / 4000, by show (i 0).val / 4000 < 25; omega⟩, flush3_2 _, ?_⟩
  rw [mem_blk]
  obtain ⟨e0, e1, e2, e3, e4, e5⟩ := block_origin ⟨(i 0).val / 4000, by show (i 0).val / 4000 < 25; omega⟩
  intro a
  match a with
  | ⟨0, _⟩ => show win3_2.index _ (0 : Fin 2) * 4000 ≤ (i 0).val ∧ (i 0).val < win3_2.index _ (0 : Fin 2) * 4000 + 4000; rw [e4]; show (i 0).val / 4000 * 4000 ≤ (i 0).val ∧ (i 0).val < (i 0).val / 4000 * 4000 + 4000; omega
  | ⟨1, _⟩ => show win3_2.index _ (1 : Fin 2) * 128 ≤ (i 1).val ∧ (i 1).val < win3_2.index _ (1 : Fin 2) * 128 + 128; rw [e5]; omega

/-- After the launch the result array is the whole product. -/
theorem final (hpay : PayMM) (c : Dev nD) :
    (dat3 V c).arrAt 2 cfg3.N = MM (V c main_v55) (V c main_arg10) :=
  (dat3 V c).arrAt_eq_of_cover 2 (MM (V c main_v55) (V c main_arg10)) (fun t _ => flushed_eq V hpay c t) cover

end Cert.GcnBlocks3

end
-- ==== Proof.GcnBlocks4.lean ====
/-
  Launch 4 of the program: bias, row normalisation, scale and shift, leaky rectifier, 4000 rows at a time.

  Point t of the 25 reads rows 4000 t .. 4000 t + 3999 of the aggregated features and the whole of the four small
  operands (bias, scale, shift as one-row matrices, the slope as a one-entry matrix), and writes the same rows of
  the result.  An entry of the block depends on its own row of the block only (through the row's mean and
  variance), and a row of the block is a row of the whole matrix: the block is the restriction of the whole-array
  function to those rows, and the 25 blocks cover every row.
-/
import proofs.«150129_j46978352284504_1_alg».proof.Proof.Gen.KernelIdeal.Frame
import proofs.«150129_j46978352284504_1_alg».proof.Proof.GcnSpec
import Idealize.ShloMosaic.Lib.Pipeline.Value
import Idealize.ShloMosaic.Lib.ValueIdx

set_option maxRecDepth 16384

noncomputable section

namespace Cert.GcnBlocks4

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- Where the six windows' blocks sit at grid point t: rows from 4000 t for the features and the result, the
    whole of each small operand. -/
theorem block_origin : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The payload hypothesis: an entry of the body's result is the normalised, scaled, shifted, rectified entry of
    its row. -/
abbrev PayLN : Prop := ∀ (x0 : Vec Ideal S4000x128 .f32) (x1 x2 x3 : Vec Ideal S1x128 .f32) (x4 : Vec Ideal S1x1 .f32)
    (p : Fin 4000) (q : Fin 128),
    k4_pay1 (F := Ideal) x0 x1 x2 x3 x4 (ix2 p q)
      = lnCore (fun k => x0 (ix2 p k) + x1 (ix2 0 k)) (x2 (ix2 0 q)) (x3 (ix2 0 q)) (x4 (ix2 0 0)) q

/-- The row function respects equal rows, parameters and column. -/
theorem lnCore_congr {h h' : Fin 128 → EReal} {g g' be be' a a' : EReal} {q q' : Fin 128} (hh : ∀ k, h k = h' k)
    (hg : g = g') (hbe : be = be') (ha : a = a') (hq : q = q') : lnCore h g be a q = lnCore h' g' be' a' q' := by
  subst hg hbe ha hq
  rw [funext hh]

set_option maxHeartbeats 4000000 in
/-- What point t writes back is block t of the whole-array function. -/
theorem flushed_eq (hpay : PayLN) (c : Dev nD) (t : Fin cfg4.N) :
    (dat4 V c).flushed 5 t = ((cfg4.win 5).blk t).view.read (Elt Ideal)
      (LN (V c main_v69) (V c main_v70) (V c main_v71) (V c main_v72) (V c main_v73)) := by
  show (cfg4.win 5).cut (grid4.coords t) ((dat4 V c).after 5 t) = _
  rw [after4_5]
  unfold out4_5
  rw [View.canon_unit_zero zero_off]
  simp only [View.ld_unit_zero (S := S4000x128) zero_off, View.ld_unit_zero (S := S1x128) zero_off, View.ld_unit_zero (S := S1x1) zero_off]
  obtain ⟨e0, e1, e2, e3, e4, e5, e6, e7, e8, e9, e10, e11⟩ := block_origin t
  funext j
  obtain ⟨p, q, rfl⟩ : ∃ (p : Fin 4000) (q : Fin 128), j = ix2 p q := ⟨j 0, j 1, eq_ix2 j⟩
  refine (hpay _ _ _ _ _ p q).trans ?_
  have hrow : ∀ k : Fin 128, ((cfg4.win 0).blk t).view.emb (ix2 p k)
      = ix2 (n0 := 100000) (n1 := 128) ((((cfg4.win 5).blk t).view.emb (ix2 p q)) 0) k := fun k => by
    funext a; apply Fin.ext
    match a with
    | ⟨0, _⟩ => show win4_0.index t (0 : Fin 2) * 4000 + 1 * p.val = win4_5.index t (0 : Fin 2) * 4000 + 1 * p.val; omega
    | ⟨1, _⟩ => show win4_0.index t (1 : Fin 2) * 128 + 1 * k.val = k.val; omega
  have hcol : (((cfg4.win 5).blk t).view.emb (ix2 p q)) 1 = q := by
    apply Fin.ext
    show win4_5.index t (1 : Fin 2) * 128 + 1 * q.val = q.val; omega
  have hb : ∀ k : Fin 128, ((cfg4.win 1).blk t).view.emb (ix2 0 k) = ix2 (n0 := 1) (n1 := 128) 0 k := fun k => by
    funext a; apply Fin.ext
    match a with
    | ⟨0, _⟩ => show win4_1.index t (0 : Fin 2) * 1 + 1 * 0 = 0; omega
    | ⟨1, _⟩ => show win4_1.index t (1 : Fin 2) * 128 + 1 * k.val = k.val; omega
  have hg : ((cfg4.win 2).blk t).view.emb (ix2 0 q) = ix2 (n0 := 1) (n1 := 128) 0 ((((cfg4.win 5).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_5.index t (1 : Fin 2) * 128 + 1 * q.val; omega
  have hbe : ((cfg4.win 3).blk t).view.emb (ix2 0 q) = ix2 (n0 := 1) (n1 := 128) 0 ((((cfg4.win 5).blk t).view.emb (ix2 p q)) 1) := by
    funext a; apply Fin.ext
    match a with
    | ⟨0, _⟩ => show win4_3.index t (0 : Fin 2) * 1 + 1 * 0 = 0; omega
    | ⟨1, _⟩ => show win4_3.index t (1 : Fin 2) * 128 + 1 * q.val = win4_5.index t (1 : Fin 2) * 128 + 1 * q.val; omega
  have ha : ((cfg4.win 4).blk t).view.emb (ix2 0 0) = ix2 (n0 := 1) (n1 := 1) 0 0 := by
    funext a; apply Fin.ext
    match a with
    | ⟨0, _⟩ => show win4_4.index t (0 : Fin 2) * 1 + 1 * 0 = 0; omega
    | ⟨1, _⟩ => show win4_4.index t (1 : Fin 2) * 1 + 1 * 0 = 0; omega
  exact lnCore_congr
    (fun k => congrArg₂ (fun u v : EReal => u + v) (congrArg (V c main_v69) (hrow k)) (congrArg (V c main_v70) (hb k)))
    (congrArg (V c main_v71) hg) (congrArg (V c main_v72) hbe) (congrArg (V c main_v73) ha) hcol.symm

/-- An index of the result array is in point t's block iff its row is among the block's 4000 rows. -/
theorem mem_blk (t : Fin cfg4.N) (i : S100000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v74).slice (win4_5.rect t)).set ↔ _
  rw [View.set_slice_whole, Rect.mem_set_unit]
  exact Iff.rfl

/-- Every index lies in the block of the point its row falls in: row r belongs to point r / 4000. -/
theorem cover (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  refine ⟨⟨(i 0).val / 4000, by show (i 0).val / 4000 < 25; omega⟩, flush4_5 _, ?_⟩
  rw [mem_blk]
  obtain ⟨e0, e1, e2, e3, e4, e5, e6, e7, e8, e9, e10, e11⟩ := block_origin ⟨(i 0).val / 4000, by show (i 0).val / 4000 < 25; omega⟩
  intro a
  match a with
  | ⟨0, _⟩ => show win4_5.index _ (0 : Fin 2) * 4000 ≤ (i 0).val ∧ (i 0).val < win4_5.index _ (0 : Fin 2) * 4000 + 4000; rw [e10]; show (i 0).val / 4000 * 4000 ≤ (i 0).val ∧ (i 0).val < (i 0).val / 4000 * 4000 + 4000; omega
  | ⟨1, _⟩ => show win4_5.index _ (1 : Fin 2) * 128 ≤ (i 1).val ∧ (i 1).val < win4_5.index _ (1 : Fin 2) * 128 + 128; rw [e11]; omega

/-- After the launch the result array is the whole-array function of the five operands. -/
theorem final (hpay : PayLN) (c : Dev nD) :
    (dat4 V c).arrAt 5 cfg4.N = LN (V c main_v69) (V c main_v70) (V c main_v71) (V c main_v72) (V c main_v73) :=
  (dat4 V c).arrAt_eq_of_cover 5 _ (fun t _ => flushed_eq V hpay c t) cover

end Cert.GcnBlocks4

end
-- ==== Proof.GcnBlocks5.lean ====
/-
  Launch 5 of the program: the output projection with its bias, 4000 rows at a time.

  Point t of the 25 reads rows 4000 t .. 4000 t + 3999 of the features, the whole weight matrix and the one-row
  bias, and writes the same rows of the result: each entry is its row times the weights' column plus the bias entry
  of that column.  The block is the restriction of the whole-array function to those rows; the 25 blocks cover
  every row.
-/
import proofs.«150129_j46978352284504_1_alg».proof.Proof.Gen.KernelIdeal.Frame
import proofs.«150129_j46978352284504_1_alg».proof.Proof.GcnSpec
import Idealize.ShloMosaic.Lib.Pipeline.Value
import Idealize.ShloMosaic.Lib.ValueIdx

set_option maxRecDepth 16384

noncomputable section

namespace Cert.GcnBlocks5

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- Where the four windows' blocks sit at grid point t. -/
theorem block_origin : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The payload hypothesis: an entry of the body's result is its row times its column plus the bias entry. -/
abbrev PayOUT : Prop := ∀ (x0 : Vec Ideal S4000x128 .f32) (x1 : Vec Ideal S128x128 .f32) (x2 : Vec Ideal S1x128 .f32)
    (p : Fin 4000) (q : Fin 128),
    k5_pay1 (F := Ideal) x0 x1 x2 (ix2 p q) = dotRow (fun k => x0 (ix2 p k)) (fun k => x1 (ix2 k q)) + x2 (ix2 0 q)

set_option maxHeartbeats 4000000 in
/-- What point t writes back is block t of the whole-array function. -/
theorem flushed_eq (hpay : PayOUT) (c : Dev nD) (t : Fin cfg5.N) :
    (dat5 V c).flushed 3 t = ((cfg5.win 3).blk t).view.read (Elt Ideal)
      (OUT (V c main_v74) (V c main_arg14) (V c main_v75)) := by
  show (cfg5.win 3).cut (grid5.coords t) ((dat5 V c).after 3 t) = _
  rw [after5_3]
  unfold out5_3
  rw [View.canon_unit_zero zero_off]
  simp only [View.ld_unit_zero (S := S4000x128) zero_off, View.ld_unit_zero (S := S128x128) zero_off, View.ld_unit_zero (S := S1x128) zero_off]
  obtain ⟨e0, e1, e2, e3, e4, e5, e6, e7⟩ := block_origin t
  funext j
  obtain ⟨p, q, rfl⟩ : ∃ (p : Fin 4000) (q : Fin 128), j = ix2 p q := ⟨j 0, j 1, eq_ix2 j⟩
  refine (hpay _ _ _ p q).trans ?_
  show dotRow (fun k => V c main_v74 (((cfg5.win 0).blk t).view.emb (ix2 p k))) (fun k => V c main_arg14 (((cfg5.win 1).blk t).view.emb (ix2 k q)))
      + (V c main_v75 (((cfg5.win 2).blk t).view.emb (ix2 0 q)) : EReal)
    = dotRow (fun k => V c main_v74 (ix2 (n0 := 100000) (n1 := 128) ((((cfg5.win 3).blk t).view.emb (ix2 p q)) 0) k))
        (fun k => V c main_arg14 (ix2 (n0 := 128) (n1 := 128) k ((((cfg5.win 3).blk t).view.emb (ix2 p q)) 1)))
      + (V c main_v75 (ix2 (n0 := 1) (n1 := 128) 0 ((((cfg5.win 3).blk t).view.emb (ix2 p q)) 1)) : EReal)
  have hrow : ∀ k : Fin 128, ((cfg5.win 0).blk t).view.emb (ix2 p k)
      = ix2 (n0 := 100000) (n1 := 128) ((((cfg5.win 3).blk t).view.emb (ix2 p q)) 0) k := fun k => by
    funext a; apply Fin.ext
    match a with
    | ⟨0, _⟩ => show win5_0.index t (0 : Fin 2) * 4000 + 1 * p.val = win5_3.index t (0 : Fin 2) * 4000 + 1 * p.val; omega
    | ⟨1, _⟩ => show win5_0.index t (1 : Fin 2) * 128 + 1 * k.val = k.val; omega
  have hw : ∀ k : Fin 128, ((cfg5.win 1).blk t).view.emb (ix2 k q)
      = ix2 (n0 := 128) (n1 := 128) k ((((cfg5.win 3).blk t).view.emb (ix2 p q)) 1) := fun k => by
    funext a; apply Fin.ext
    match a with
    | ⟨0, _⟩ => show win5_1.index t (0 : Fin 2) * 128 + 1 * k.val = k.val; omega
    | ⟨1, _⟩ => show win5_1.index t (1 : Fin 2) * 128 + 1 * q.val = win5_3.index t (1 : Fin 2) * 128 + 1 * q.val; omega
  have hb : ((cfg5.win 2).blk t).view.emb (ix2 0 q)
      = ix2 (n0 := 1) (n1 := 128) 0 ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  simp only [hrow, hw, hb]

/-- An index of the result array is in point t's block iff its row is among the block's 4000 rows. -/
theorem mem_blk (t : Fin cfg5.N) (i : S100000x128.Idx) :
    i ∈ ((cfg5.win 3).blk t).view.set ↔ ∀ a : Fin 2, win5_3.index t a * S4000x128.size a ≤ (i a).val ∧ (i a).val < win5_3.index t a * S4000x128.size a + S4000x128.size a := by
  show i ∈ ((View.whole main_v76).slice (win5_3.rect t)).set ↔ _
  rw [View.set_slice_whole, Rect.mem_set_unit]
  exact Iff.rfl

/-- Every index lies in the block of the point its row falls in: row r belongs to point r / 4000. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  refine ⟨⟨(i 0).val / 4000, by show (i 0).val / 4000 < 25; omega⟩, flush5_3 _, ?_⟩
  rw [mem_blk]
  obtain ⟨e0, e1, e2, e3, e4, e5, e6, e7⟩ := block_origin ⟨(i 0).val / 4000, by show (i 0).val / 4000 < 25; omega⟩
  intro a
  match a with
  | ⟨0, _⟩ => show win5_3.index _ (0 : Fin 2) * 4000 ≤ (i 0).val ∧ (i 0).val < win5_3.index _ (0 : Fin 2) * 4000 + 4000; rw [e6]; show (i 0).val / 4000 * 4000 ≤ (i 0).val ∧ (i 0).val < (i 0).val / 4000 * 4000 + 4000; omega
  | ⟨1, _⟩ => show win5_3.index _ (1 : Fin 2) * 128 ≤ (i 1).val ∧ (i 1).val < win5_3.index _ (1 : Fin 2) * 128 + 128; rw [e7]; omega

/-- After the launch the result array is the whole-array projection. -/
theorem final (hpay : PayOUT) (c : Dev nD) :
    (dat5 V c).arrAt 3 cfg5.N = OUT (V c main_v74) (V c main_arg14) (V c main_v75) :=
  (dat5 V c).arrAt_eq_of_cover 3 _ (fun t _ => flushed_eq V hpay c t) cover

end Cert.GcnBlocks5

end
-- ==== Proof.GcnPayload.lean ====
/-
  The kernels' block payloads read at an index, over the extended reals.

  Each dense kernel computes, from the blocks it has loaded, one 4000 x 128 block that it stores.  Here each such
  block is read at a row `p` and a column `q` and found to be the corresponding stage of the network applied to
  that row: a row of the block against a column of the weight matrix, the encoder's blend, the normalised and
  rectified row, the output projection with its bias.
-/
import proofs.«150129_j46978352284504_1_alg».proof.Proof.Gen.KernelIdeal.Skeleton
import proofs.«150129_j46978352284504_1_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GcnPayload

open Cert.KernelIdeal Cert.KernelIdeal.Gen Cert.GcnSpec Idealize.ShloMosaic Idealize.ShloMosaic.ValueIdx

/-- The kernels' one contraction: rows of a 4000 x 128 block against a 128 x 128 weight matrix. -/
abbrev D : DotDims S4000x128 S128x128 S4000x128 := dot_S4000x128_S128x128_S4000x128_1_0_0_1_n_n

/-- The left operand's row coordinate is the output's. -/
theorem lhs_row (i : S4000x128.Idx) (c : D.contr.Idx) : (D.lhsIdx i c 0).val = (i 0).val := by
  unfold DotDims.lhsIdx
  rw [dif_neg (show ¬(0 : Fin S4000x128.rank) ∈ D.lhsBatch by decide),
    dif_pos (show (0 : Fin S4000x128.rank) ∈ D.lhsNonContracting by decide)]
  rfl

/-- The right operand's column coordinate is the output's. -/
theorem rhs_col (i : S4000x128.Idx) (c : D.contr.Idx) : (D.rhsIdx i c 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- The left operand's index at output entry `(p, q)` and contraction coordinate `k` is `(p, k)`. -/
theorem lhsIdx_eq (p : Fin 4000) (q : Fin 128) (k : Fin 128) :
    D.lhsIdx (ix2 p q) ((contrEquiv1 D 128 rfl rfl).symm k) = ix2 p k := by
  have hk := contrEquiv1_symm_val D 128 rfl rfl k
  exact funext fun a => Fin.ext (by
    match a with
    | ⟨0, _⟩ => exact lhs_row _ _
    | ⟨1, _⟩ => exact (D.lhsIdx_val_of_single rfl (ix2 p q) _).trans hk)

/-- The right operand's index at output entry `(p, q)` and contraction coordinate `k` is `(k, q)`. -/
theorem rhsIdx_eq (p : Fin 4000) (q : Fin 128) (k : Fin 128) :
    D.rhsIdx (ix2 p q) ((contrEquiv1 D 128 rfl rfl).symm k) = ix2 k q := by
  have hk := contrEquiv1_symm_val D 128 rfl rfl k
  exact funext fun a => Fin.ext (by
    match a with
    | ⟨0, _⟩ => exact (D.rhsIdx_val_of_single rfl (ix2 p q) _).trans hk
    | ⟨1, _⟩ => exact rhs_col _ _)

/-- A product into a zero accumulator, read at `(p, q)`: the sum over the shared axis. -/
theorem matmul_zero_apply (a : FVec Ideal S4000x128 .bf16) (b : FVec Ideal S128x128 .bf16) (p : Fin 4000) (q : Fin 128) :
    matmul D none a b (constant S4000x128 .f32 0x00000000#32) (ix2 p q)
      = ∑ k : Fin 128, a (ix2 p k) * b (ix2 k q) := by
  show FloatOps.matmul D none a b (constant S4000x128 .f32 0x00000000#32) (ix2 p q) = _
  rw [Ideal.matmul_constant_zero_apply, ← Equiv.sum_comp (contrEquiv1 D 128 rfl rfl).symm]
  refine Finset.sum_congr rfl fun k _ => ?_
  rw [lhsIdx_eq, rhsIdx_eq]

/-- The feature product's block: the block's rows against the weight matrix's columns. -/
theorem pay_mm (x0 : Vec Ideal S4000x128 .f32) (x1 : Vec Ideal S128x128 .f32) (p : Fin 4000) (q : Fin 128) :
    k1_pay1 (F := Ideal) x0 x1 (ix2 p q) = dotRow (fun k => x0 (ix2 p k)) (fun k => x1 (ix2 k q)) := by
  unfold k1_pay1 dotRow
  rw [matmul_zero_apply]
  refine Finset.sum_congr rfl fun k _ => ?_
  rw [truncf_apply, truncf_apply, shapeCast_self]

/-- The second feature product's block is the same function of its operands. -/
theorem pay_mm3 (x0 : Vec Ideal S4000x128 .f32) (x1 : Vec Ideal S128x128 .f32) (p : Fin 4000) (q : Fin 128) :
    k3_pay1 (F := Ideal) x0 x1 (ix2 p q) = dotRow (fun k => x0 (ix2 p k)) (fun k => x1 (ix2 k q)) :=
  pay_mm x0 x1 p q

/-! ## Columns: a vector as a one-column matrix, a one-column matrix spread over the columns -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the columns reads at row `p` and summand `k`. -/
theorem lift_eq (p : Fin 4000) (k : Fin 128) :
    reduces_S4000x128_S4000.lift (ix1 p) k = ix2 p k :=
  funext fun a => Fin.ext (by
    match a with
    | ⟨0, _⟩ => rfl
    | ⟨1, _⟩ => rfl)

/-- A sum over the columns, read at row `p`. -/
theorem rowSum_apply (src : FVec Ideal S4000x128 .f32) (hφ : FTy.f32 = FTy.f32 ∨ FTy.f32 = FTy.bf16)
    (hacc : (0x00000000#32 : BitVec 32) = 0x00000000#32) (p : Fin 4000) :
    multiReduction .add [1] S4000 src 0x00000000#32 reduces_S4000x128_S4000 hφ hacc (ix1 p)
      = ∑ k : Fin 128, src (ix2 p k) :=
  (Ideal.multiReduction_add_single src 0x00000000#32 reduces_S4000x128_S4000 hφ hacc (ix1 p)).trans
    (Finset.sum_congr rfl fun k _ => congrArg src (lift_eq p k))

/-- The output projection's block: the product plus the bias row. -/
theorem pay_out (x0 : Vec Ideal S4000x128 .f32) (x1 : Vec Ideal S128x128 .f32) (x2 : Vec Ideal S1x128 .f32)
    (p : Fin 4000) (q : Fin 128) :
    k5_pay1 (F := Ideal) x0 x1 x2 (ix2 p q)
      = dotRow (fun k => x0 (ix2 p k)) (fun k => x1 (ix2 k q)) + x2 (ix2 0 q) := by
  unfold k5_pay1
  rw [addf_apply, broadcastTo_1b_ab_apply, shapeCast_self x2]
  exact congrArg (· + x2 (ix2 0 q)) (pay_mm x0 x1 p q)

/-- The encoder's block: the decoder token on masked rows, the product elsewhere, blended by the 0/1 mask. -/
theorem pay_enc (x0 : Vec Ideal S4000x128 .f32) (x1 : Vec Ideal S128x128 .f32) (x2 : Vec Ideal S4000x1 .f32)
    (x3 : Vec Ideal S1x128 .f32) (p : Fin 4000) (q : Fin 128) :
    k0_pay1 (F := Ideal) x0 x1 x2 x3 (ix2 p q)
      = blend (x2 (ix2 p 0)) (x3 (ix2 0 q)) (dotRow (fun k => x0 (ix2 p k)) (fun k => x1 (ix2 k q))) := by
  unfold k0_pay1 blend dotRow
  rw [shapeCast_self x2, shapeCast_self x3, addf_apply, mulf_apply, mulf_apply, broadcastTo_a1_ab_apply,
    broadcastTo_a1_ab_apply, broadcastTo_1b_ab_apply, subf_apply, broadcast_apply, matmul_zero_apply]
  rfl

/-- The reciprocal square root is taken entry by entry. -/
theorem rsqrt_apply {s : Shape} (a : FVec Ideal s .f32) (i : s.Idx) : rsqrt a i = Ideal.rsqrt (a i) := rfl

/-- The one entry of a 1 x 1 block. -/
theorem extract00 {α : Type} (x : S1x1.Idx → α) (h : ∀ a, (![0, 0] : Fin 2 → Nat) a < S1x1.size a) :
    extractAt ![0, 0] x h = x (ix2 0 0) :=
  congrArg x (funext fun a => by
    match a with
    | ⟨0, _⟩ => rfl
    | ⟨1, _⟩ => rfl)

/-- The normalisation's block: the bias added, the row centred and scaled by its own mean and variance, then the
    scale, the shift and the leaky rectifier. -/
theorem pay_ln (x0 : Vec Ideal S4000x128 .f32) (x1 x2 x3 : Vec Ideal S1x128 .f32) (x4 : Vec Ideal S1x1 .f32)
    (p : Fin 4000) (q : Fin 128) :
    k2_pay1 (F := Ideal) x0 x1 x2 x3 x4 (ix2 p q)
      = lnCore (fun k => x0 (ix2 p k) + x1 (ix2 0 k)) (x2 (ix2 0 q)) (x3 (ix2 0 q)) (x4 (ix2 0 0)) q := by
  unfold k2_pay1
  have h5 : ∀ k : Fin 128, addf (F := Ideal) (φ := .f32) (shapeCast S4000x128 x0 shapeCasts_S4000x128_S4000x128)
      (broadcastTo S4000x128 (shapeCast S1x128 x1 shapeCasts_S1x128_S1x128) broadcasts_S1x128_S4000x128) (ix2 p k)
      = x0 (ix2 p k) + x1 (ix2 0 k) := fun k => by
    rw [addf_apply, shapeCast_self x0, broadcastTo_1b_ab_apply, shapeCast_self x1]
  rw [show (fun k : Fin 128 => x0 (ix2 p k) + x1 (ix2 0 k)) = fun k => (addf (F := Ideal) (φ := .f32) (shapeCast S4000x128 x0 shapeCasts_S4000x128_S4000x128)
      (broadcastTo S4000x128 (shapeCast S1x128 x1 shapeCasts_S1x128_S1x128) broadcasts_S1x128_S4000x128)) (ix2 p k)
      from funext fun k => (h5 k).symm]
  clear h5
  generalize addf (F := Ideal) (φ := .f32) (shapeCast S4000x128 x0 shapeCasts_S4000x128_S4000x128)
      (broadcastTo S4000x128 (shapeCast S1x128 x1 shapeCasts_S1x128_S1x128) broadcasts_S1x128_S4000x128) = v5
  unfold lnCore
  simp only [select_apply, cmpf_apply, mulf_apply, addf_apply, subf_apply, divf_apply, rsqrt_apply, broadcast_apply,
    broadcastTo_1b_ab_apply, broadcastTo_a1_ab_apply, shapeCast_a_a1_apply, rowSum_apply, shapeCast_self, extract00]
  rw [rowSum_apply v5, rowSum_apply]
  simp only [mulf_apply, subf_apply, divf_apply, broadcast_apply, broadcastTo_a1_ab_apply, shapeCast_a_a1_apply]
  rw [rowSum_apply v5]
  rfl

/-- The second normalisation's block is the same function of its operands. -/
theorem pay_ln4 (x0 : Vec Ideal S4000x128 .f32) (x1 x2 x3 : Vec Ideal S1x128 .f32) (x4 : Vec Ideal S1x1 .f32)
    (p : Fin 4000) (q : Fin 128) :
    k4_pay1 (F := Ideal) x0 x1 x2 x3 x4 (ix2 p q)
      = lnCore (fun k => x0 (ix2 p k) + x1 (ix2 0 k)) (x2 (ix2 0 q)) (x3 (ix2 0 q)) (x4 (ix2 0 0)) q :=
  pay_ln x0 x1 x2 x3 x4 p q

end Cert.GcnPayload

end
-- ==== Proof.GcnHost.lean ====
/-
  The host operations of the kernel's program between its launches, stage by stage.

  Before the first launch the program prepares the graph: the source and target node of every edge (the given edges
  followed by one self-loop per node), the degree of every node and from it the symmetric edge weights, and the 0/1 row
  mask of the encoder.  After a matrix product it aggregates: it gathers the product's rows at the edge sources, scales
  them by the edge weights and adds them into the rows of the edge targets; and it lays the one-dimensional parameters
  out as one-row matrices for the next launch.  Each of these is the same composition of the same operations as in the
  reference program, so each buffer is identified with the reference's stage of the same name by unfolding both.
  The statements are over an arbitrary assignment `U` of contents to the buffers before the stretch.
-/
import proofs.«150129_j46978352284504_1_alg».proof.Proof.Gen.KernelIdeal.Launch
import proofs.«150129_j46978352284504_1_alg».proof.Proof.RefReadP
import Idealize.ShloMosaic.Lib.StableHlo.Run
import Idealize.ShloMosaic.Lib.ValueLayout
import Idealize.ShloMosaic.PureOps.Ideal

set_option maxRecDepth 16384

noncomputable section

namespace Cert.GcnHost

open Cert.KernelIdeal Cert.KernelIdeal.Gen
open Idealize.ShloMosaic Idealize.ShloMosaic.TcCoe Idealize.SL.Sem Idealize.ShloMosaic.StableHlo Idealize.ShloMosaic.ValueIdx

variable (U : Valuation τ sig (Elt Ideal))

/-! ## The graph preparation (the three stretches before the first launch) -/

set_option maxHeartbeats 8000000 in
/-- The edge sources: the first row of the edge list, then every node once. -/
theorem prep_src : after hostOps0_2 (after hostOps0_1 (after hostOps0 U)) (Proc.devRef .tc main_v3)
    = Cert.ReferenceIdeal.ReadP.val_main_v9 (F := Ideal) (U (Proc.devRef .tc main_arg1)) := by
  after_results_simp <;> rfl

set_option maxHeartbeats 8000000 in
/-- The edge targets: the second row of the edge list, then every node once. -/
theorem prep_dst : after hostOps0_2 (after hostOps0_1 (after hostOps0 U)) (Proc.devRef .tc main_v7)
    = Cert.ReferenceIdeal.ReadP.val_main_v13 (F := Ideal) (U (Proc.devRef .tc main_arg1)) := by
  after_results_simp <;> rfl

set_option maxHeartbeats 16000000 in
/-- The edge weights: the product of the inverse square roots of the degrees of an edge's two ends. -/
theorem prep_norm : after hostOps0_2 (after hostOps0_1 (after hostOps0 U)) (Proc.devRef .tc main_v32)
    = Cert.ReferenceIdeal.ReadP.val_main_v38 (F := Ideal) (U (Proc.devRef .tc main_arg1)) := by
  -- the first stretch: the two ends of every edge, which nodes have a positive degree, the inverse square roots
  have a3 : after hostOps0 U (Proc.devRef .tc main_v3) = Cert.ReferenceIdeal.ReadP.val_main_v9 (F := Ideal) (U (Proc.devRef .tc main_arg1)) := by
    after_results_simp <;> rfl
  have a7 : after hostOps0 U (Proc.devRef .tc main_v7) = Cert.ReferenceIdeal.ReadP.val_main_v13 (F := Ideal) (U (Proc.devRef .tc main_arg1)) := by
    after_results_simp <;> rfl
  have a13 : after hostOps0 U (Proc.devRef .tc main_v13) = Cert.ReferenceIdeal.ReadP.val_main_v19 (F := Ideal) (U (Proc.devRef .tc main_arg1)) := by
    after_results_simp <;> rfl
  have a16 : after hostOps0 U (Proc.devRef .tc main_v16) = Cert.ReferenceIdeal.ReadP.val_main_v22 (F := Ideal) (U (Proc.devRef .tc main_arg1)) := by
    after_results_simp <;> rfl
  have ac : after hostOps0 U (Proc.devRef .tc main_cst_3) = Cert.ReferenceIdeal.ReadP.val_main_cst_3 (F := Ideal) := by
    after_results_simp <;> rfl
  generalize after hostOps0 U = V0 at a3 a7 a13 a16 ac ⊢
  -- the second stretch: zero where the degree is zero
  have b3 : after hostOps0_1 V0 (Proc.devRef .tc main_v3) = Cert.ReferenceIdeal.ReadP.val_main_v9 (F := Ideal) (U (Proc.devRef .tc main_arg1)) := by
    after_results_simp
    exact a3
  have b7 : after hostOps0_1 V0 (Proc.devRef .tc main_v7) = Cert.ReferenceIdeal.ReadP.val_main_v13 (F := Ideal) (U (Proc.devRef .tc main_arg1)) := by
    after_results_simp
    exact a7
  have b17 : after hostOps0_1 V0 (Proc.devRef .tc main_v17) = Cert.ReferenceIdeal.ReadP.val_main_v23 (F := Ideal) (U (Proc.devRef .tc main_arg1)) := by
    after_results_simp
    simp only [TRef.ofBuf, TRef.toBuf, cast_eq]
    rw [a13, a16, ac]
    rfl
  generalize after hostOps0_1 V0 = V1 at b3 b7 b17 ⊢
  -- the third stretch: the two gathers and their product
  after_results_simp
  rw [b3, b7, b17]
  rfl

set_option maxHeartbeats 8000000 in
/-- The encoder's row mask: 1 where the mask entry is 0, else 0. -/
theorem prep_mask : after hostOps0_2 (after hostOps0_1 (after hostOps0 U)) (Proc.devRef .tc main_v35)
    = uitofp (F := Ideal) .f32 (cmpi .eq (U (Proc.devRef .tc main_arg2)) (broadcastInDim S100000x1 ![] bcast_S_S100000x1 (constantI S_ 32 0#32))) := by
  after_results_simp <;> rfl

set_option maxHeartbeats 8000000 in
/-- The preparation writes no argument array. -/
theorem prep_arg0 : after hostOps0_2 (after hostOps0_1 (after hostOps0 U)) (Proc.devRef .tc main_arg0) = U (Proc.devRef .tc main_arg0) := by
  after_results_simp <;> rfl

set_option maxHeartbeats 8000000 in
/-- The preparation writes no argument array. -/
theorem prep_arg3 : after hostOps0_2 (after hostOps0_1 (after hostOps0 U)) (Proc.devRef .tc main_arg3) = U (Proc.devRef .tc main_arg3) := by
  after_results_simp <;> rfl

set_option maxHeartbeats 8000000 in
/-- The preparation writes no argument array. -/
theorem prep_arg4 : after hostOps0_2 (after hostOps0_1 (after hostOps0 U)) (Proc.devRef .tc main_arg4) = U (Proc.devRef .tc main_arg4) := by
  after_results_simp <;> rfl

set_option maxHeartbeats 8000000 in
/-- The preparation writes no argument array. -/
theorem prep_arg5 : after hostOps0_2 (after hostOps0_1 (after hostOps0 U)) (Proc.devRef .tc main_arg5) = U (Proc.devRef .tc main_arg5) := by
  after_results_simp <;> rfl

set_option maxHeartbeats 8000000 in
/-- The preparation writes no argument array. -/
theorem prep_arg6 : after hostOps0_2 (after hostOps0_1 (after hostOps0 U)) (Proc.devRef .tc main_arg6) = U (Proc.devRef .tc main_arg6) := by
  after_results_simp <;> rfl

set_option maxHeartbeats 8000000 in
/-- The preparation writes no argument array. -/
theorem prep_arg7 : after hostOps0_2 (after hostOps0_1 (after hostOps0 U)) (Proc.devRef .tc main_arg7) = U (Proc.devRef .tc main_arg7) := by
  after_results_simp <;> rfl

set_option maxHeartbeats 8000000 in
/-- The preparation writes no argument array. -/
theorem prep_arg8 : after hostOps0_2 (after hostOps0_1 (after hostOps0 U)) (Proc.devRef .tc main_arg8) = U (Proc.devRef .tc main_arg8) := by
  after_results_simp <;> rfl

set_option maxHeartbeats 8000000 in
/-- The preparation writes no argument array. -/
theorem prep_arg9 : after hostOps0_2 (after hostOps0_1 (after hostOps0 U)) (Proc.devRef .tc main_arg9) = U (Proc.devRef .tc main_arg9) := by
  after_results_simp <;> rfl

set_option maxHeartbeats 8000000 in
/-- The preparation writes no argument array. -/
theorem prep_arg10 : after hostOps0_2 (after hostOps0_1 (after hostOps0 U)) (Proc.devRef .tc main_arg10) = U (Proc.devRef .tc main_arg10) := by
  after_results_simp <;> rfl

set_option maxHeartbeats 8000000 in
/-- The preparation writes no argument array. -/
theorem prep_arg11 : after hostOps0_2 (after hostOps0_1 (after hostOps0 U)) (Proc.devRef .tc main_arg11) = U (Proc.devRef .tc main_arg11) := by
  after_results_simp <;> rfl

set_option maxHeartbeats 8000000 in
/-- The preparation writes no argument array. -/
theorem prep_arg12 : after hostOps0_2 (after hostOps0_1 (after hostOps0 U)) (Proc.devRef .tc main_arg12) = U (Proc.devRef .tc main_arg12) := by
  after_results_simp <;> rfl

set_option maxHeartbeats 8000000 in
/-- The preparation writes no argument array. -/
theorem prep_arg13 : after hostOps0_2 (after hostOps0_1 (after hostOps0 U)) (Proc.devRef .tc main_arg13) = U (Proc.devRef .tc main_arg13) := by
  after_results_simp <;> rfl

set_option maxHeartbeats 8000000 in
/-- The preparation writes no argument array. -/
theorem prep_arg14 : after hostOps0_2 (after hostOps0_1 (after hostOps0 U)) (Proc.devRef .tc main_arg14) = U (Proc.devRef .tc main_arg14) := by
  after_results_simp <;> rfl

set_option maxHeartbeats 8000000 in
/-- The preparation writes no argument array. -/
theorem prep_arg15 : after hostOps0_2 (after hostOps0_1 (after hostOps0 U)) (Proc.devRef .tc main_arg15) = U (Proc.devRef .tc main_arg15) := by
  after_results_simp <;> rfl

/-! ## The aggregation and the parameter rows before the two normalisation launches -/

section Layer
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000x1, .i32⟩ : BufTy).Contents (Elt Ideal)) (x3 : (⟨Cert.ReferenceIdeal.S128x128, .f32⟩ : BufTy).Contents (Elt Ideal))
  (x4 : (⟨Cert.ReferenceIdeal.S1x128, .f32⟩ : BufTy).Contents (Elt Ideal)) (x5 : (⟨Cert.ReferenceIdeal.S128x128, .f32⟩ : BufTy).Contents (Elt Ideal))
  (x6 x7 x8 : (⟨Cert.ReferenceIdeal.S128, .f32⟩ : BufTy).Contents (Elt Ideal)) (x9 : (⟨Cert.ReferenceIdeal.S_, .f32⟩ : BufTy).Contents (Elt Ideal))
  (x10 : (⟨Cert.ReferenceIdeal.S128x128, .f32⟩ : BufTy).Contents (Elt Ideal))

set_option maxHeartbeats 16000000 in
/-- First layer: gather the product's rows at the sources, scale by the edge weights, add into the targets' rows. -/
theorem agg1 (h37 : U (Proc.devRef .tc main_v37) = Cert.ReferenceIdeal.ReadP.val_main_v39 (F := Ideal) x0 x2 x3 x4 x5)
    (h3 : U (Proc.devRef .tc main_v3) = Cert.ReferenceIdeal.ReadP.val_main_v9 (F := Ideal) x1)
    (h7 : U (Proc.devRef .tc main_v7) = Cert.ReferenceIdeal.ReadP.val_main_v13 (F := Ideal) x1)
    (h32 : U (Proc.devRef .tc main_v32) = Cert.ReferenceIdeal.ReadP.val_main_v38 (F := Ideal) x1) :
    after hostOps2 U (Proc.devRef .tc main_v50) = Cert.ReferenceIdeal.ReadP.val_main_v52 (F := Ideal) x0 x1 x2 x3 x4 x5 := by
  after_results_simp
  rw [h37, h3, h7, h32]
  rfl

set_option maxHeartbeats 16000000 in
/-- Second layer: the same aggregation of the second product. -/
theorem agg2 (h56 : U (Proc.devRef .tc main_v56) = Cert.ReferenceIdeal.ReadP.val_main_v118 (F := Ideal) x0 x1 x2 x3 x4 x5 x6 x7 x8 x9 x10)
    (h3 : U (Proc.devRef .tc main_v3) = Cert.ReferenceIdeal.ReadP.val_main_v9 (F := Ideal) x1)
    (h7 : U (Proc.devRef .tc main_v7) = Cert.ReferenceIdeal.ReadP.val_main_v13 (F := Ideal) x1)
    (h32 : U (Proc.devRef .tc main_v32) = Cert.ReferenceIdeal.ReadP.val_main_v38 (F := Ideal) x1) :
    after hostOps4 U (Proc.devRef .tc main_v69) = Cert.ReferenceIdeal.ReadP.val_main_v131 (F := Ideal) x0 x1 x2 x3 x4 x5 x6 x7 x8 x9 x10 := by
  after_results_simp
  rw [h56, h3, h7, h32]
  rfl

end Layer

set_option maxHeartbeats 8000000 in
/-- A one-dimensional parameter laid out as a one-row matrix: entry (0, k) is entry k. -/
theorem row_v51 (k : Fin 128) : after hostOps2 U (Proc.devRef .tc main_v51) (ix2 (n0 := 1) (n1 := 128) 0 k) = U (Proc.devRef .tc main_arg6) (ix1 k) := by
  have e : after hostOps2 U (Proc.devRef .tc main_v51) = shapeCast S1x128 (U (Proc.devRef .tc main_arg6)) shapeCasts_S128_S1x128 := by
    after_results_simp <;> rfl
  rw [e]
  exact shapeCast_a_1a_apply _ _ 0 k

set_option maxHeartbeats 8000000 in
/-- A one-dimensional parameter laid out as a one-row matrix: entry (0, k) is entry k. -/
theorem row_v52 (k : Fin 128) : after hostOps2 U (Proc.devRef .tc main_v52) (ix2 (n0 := 1) (n1 := 128) 0 k) = U (Proc.devRef .tc main_arg7) (ix1 k) := by
  have e : after hostOps2 U (Proc.devRef .tc main_v52) = shapeCast S1x128 (U (Proc.devRef .tc main_arg7)) shapeCasts_S128_S1x128 := by
    after_results_simp <;> rfl
  rw [e]
  exact shapeCast_a_1a_apply _ _ 0 k

set_option maxHeartbeats 8000000 in
/-- A one-dimensional parameter laid out as a one-row matrix: entry (0, k) is entry k. -/
theorem row_v53 (k : Fin 128) : after hostOps2 U (Proc.devRef .tc main_v53) (ix2 (n0 := 1) (n1 := 128) 0 k) = U (Proc.devRef .tc main_arg8) (ix1 k) := by
  have e : after hostOps2 U (Proc.devRef .tc main_v53) = shapeCast S1x128 (U (Proc.devRef .tc main_arg8)) shapeCasts_S128_S1x128 := by
    after_results_simp <;> rfl
  rw [e]
  exact shapeCast_a_1a_apply _ _ 0 k

set_option maxHeartbeats 8000000 in
/-- A one-dimensional parameter laid out as a one-row matrix: entry (0, k) is entry k. -/
theorem row_v70 (k : Fin 128) : after hostOps4 U (Proc.devRef .tc main_v70) (ix2 (n0 := 1) (n1 := 128) 0 k) = U (Proc.devRef .tc main_arg11) (ix1 k) := by
  have e : after hostOps4 U (Proc.devRef .tc main_v70) = shapeCast S1x128 (U (Proc.devRef .tc main_arg11)) shapeCasts_S128_S1x128 := by
    after_results_simp <;> rfl
  rw [e]
  exact shapeCast_a_1a_apply _ _ 0 k

set_option maxHeartbeats 8000000 in
/-- A one-dimensional parameter laid out as a one-row matrix: entry (0, k) is entry k. -/
theorem row_v71 (k : Fin 128) : after hostOps4 U (Proc.devRef .tc main_v71) (ix2 (n0 := 1) (n1 := 128) 0 k) = U (Proc.devRef .tc main_arg12) (ix1 k) := by
  have e : after hostOps4 U (Proc.devRef .tc main_v71) = shapeCast S1x128 (U (Proc.devRef .tc main_arg12)) shapeCasts_S128_S1x128 := by
    after_results_simp <;> rfl
  rw [e]
  exact shapeCast_a_1a_apply _ _ 0 k

set_option maxHeartbeats 8000000 in
/-- A one-dimensional parameter laid out as a one-row matrix: entry (0, k) is entry k. -/
theorem row_v72 (k : Fin 128) : after hostOps4 U (Proc.devRef .tc main_v72) (ix2 (n0 := 1) (n1 := 128) 0 k) = U (Proc.devRef .tc main_arg13) (ix1 k) := by
  have e : after hostOps4 U (Proc.devRef .tc main_v72) = shapeCast S1x128 (U (Proc.devRef .tc main_arg13)) shapeCasts_S128_S1x128 := by
    after_results_simp <;> rfl
  rw [e]
  exact shapeCast_a_1a_apply _ _ 0 k

set_option maxHeartbeats 8000000 in
/-- The bias of the output projection as a one-row matrix. -/
theorem row_v75 (k : Fin 128) : after hostOps5 U (Proc.devRef .tc main_v75) (ix2 (n0 := 1) (n1 := 128) 0 k) = U (Proc.devRef .tc main_arg15) (ix1 k) := by
  have e : after hostOps5 U (Proc.devRef .tc main_v75) = shapeCast S1x128 (U (Proc.devRef .tc main_arg15)) shapeCasts_S128_S1x128 := by
    after_results_simp <;> rfl
  rw [e]
  exact shapeCast_a_1a_apply _ _ 0 k

set_option maxHeartbeats 8000000 in
/-- The slope as a one-entry matrix. -/
theorem slope_v54 : after hostOps2 U (Proc.devRef .tc main_v54) (ix2 (n0 := 1) (n1 := 1) 0 0) = U (Proc.devRef .tc main_arg9) ix0 := by
  have e : after hostOps2 U (Proc.devRef .tc main_v54) = shapeCast S1x1 (U (Proc.devRef .tc main_arg9)) shapeCasts_S_S1x1 := by
    after_results_simp <;> rfl
  rw [e]
  exact shapeCast_apply _ _ _ _ (by rw [Shape.rowMajor_val_two]; rfl)

set_option maxHeartbeats 8000000 in
/-- The slope as a one-entry matrix. -/
theorem slope_v73 : after hostOps4 U (Proc.devRef .tc main_v73) (ix2 (n0 := 1) (n1 := 1) 0 0) = U (Proc.devRef .tc main_arg9) ix0 := by
  have e : after hostOps4 U (Proc.devRef .tc main_v73) = shapeCast S1x1 (U (Proc.devRef .tc main_arg9)) shapeCasts_S_S1x1 := by
    after_results_simp <;> rfl
  rw [e]
  exact shapeCast_apply _ _ _ _ (by rw [Shape.rowMajor_val_two]; rfl)

/-! ## What a stretch leaves alone -/

set_option maxHeartbeats 8000000 in
/-- This stretch does not write this buffer. -/
theorem keep2_v3 : after hostOps2 U (Proc.devRef .tc main_v3) = U (Proc.devRef .tc main_v3) := by
  after_results_simp <;> rfl

set_option maxHeartbeats 8000000 in
/-- This stretch does not write this buffer. -/
theorem keep2_v7 : after hostOps2 U (Proc.devRef .tc main_v7) = U (Proc.devRef .tc main_v7) := by
  after_results_simp <;> rfl

set_option maxHeartbeats 8000000 in
/-- This stretch does not write this buffer. -/
theorem keep2_v32 : after hostOps2 U (Proc.devRef .tc main_v32) = U (Proc.devRef .tc main_v32) := by
  after_results_simp <;> rfl

set_option maxHeartbeats 8000000 in
/-- This stretch does not write this buffer. -/
theorem keep2_arg9 : after hostOps2 U (Proc.devRef .tc main_arg9) = U (Proc.devRef .tc main_arg9) := by
  after_results_simp <;> rfl

set_option maxHeartbeats 8000000 in
/-- This stretch does not write this buffer. -/
theorem keep2_arg10 : after hostOps2 U (Proc.devRef .tc main_arg10) = U (Proc.devRef .tc main_arg10) := by
  after_results_simp <;> rfl

set_option maxHeartbeats 8000000 in
/-- This stretch does not write this buffer. -/
theorem keep2_arg11 : after hostOps2 U (Proc.devRef .tc main_arg11) = U (Proc.devRef .tc main_arg11) := by
  after_results_simp <;> rfl

set_option maxHeartbeats 8000000 in
/-- This stretch does not write this buffer. -/
theorem keep2_arg12 : after hostOps2 U (Proc.devRef .tc main_arg12) = U (Proc.devRef .tc main_arg12) := by
  after_results_simp <;> rfl

set_option maxHeartbeats 8000000 in
/-- This stretch does not write this buffer. -/
theorem keep2_arg13 : after hostOps2 U (Proc.devRef .tc main_arg13) = U (Proc.devRef .tc main_arg13) := by
  after_results_simp <;> rfl

set_option maxHeartbeats 8000000 in
/-- This stretch does not write this buffer. -/
theorem keep2_arg14 : after hostOps2 U (Proc.devRef .tc main_arg14) = U (Proc.devRef .tc main_arg14) := by
  after_results_simp <;> rfl

set_option maxHeartbeats 8000000 in
/-- This stretch does not write this buffer. -/
theorem keep2_arg15 : after hostOps2 U (Proc.devRef .tc main_arg15) = U (Proc.devRef .tc main_arg15) := by
  after_results_simp <;> rfl

set_option maxHeartbeats 8000000 in
/-- This stretch does not write this buffer. -/
theorem keep4_arg14 : after hostOps4 U (Proc.devRef .tc main_arg14) = U (Proc.devRef .tc main_arg14) := by
  after_results_simp <;> rfl

set_option maxHeartbeats 8000000 in
/-- This stretch does not write this buffer. -/
theorem keep4_arg15 : after hostOps4 U (Proc.devRef .tc main_arg15) = U (Proc.devRef .tc main_arg15) := by
  after_results_simp <;> rfl

set_option maxHeartbeats 8000000 in
/-- This stretch does not write this buffer. -/
theorem keep5_v74 : after hostOps5 U (Proc.devRef .tc main_v74) = U (Proc.devRef .tc main_v74) := by
  after_results_simp <;> rfl

set_option maxHeartbeats 8000000 in
/-- This stretch does not write this buffer. -/
theorem keep5_arg14 : after hostOps5 U (Proc.devRef .tc main_arg14) = U (Proc.devRef .tc main_arg14) := by
  after_results_simp <;> rfl

end Cert.GcnHost

end
-- ==== Proof.GcnRef.lean ====
/-
  The reference program read one entry at a time.

  The reference computes the graph network on whole arrays.  Each dense stage of it, read at a row `r` and a column
  `q`, is one of the row-wise functions of the shared vocabulary: a row times a column of a weight matrix, the
  encoder's choice between that product and the decoder token, the normalisation of a row followed by the leaky
  rectifier, and the output projection with its bias.  The neighbourhood sums between the stages are left as they
  are: the statements below speak of the array that enters a stage and the array that leaves it.
-/
import proofs.«150129_j46978352284504_1_alg».proof.Proof.RefReadP
import proofs.«150129_j46978352284504_1_alg».proof.Proof.GcnSpec
import Idealize.ShloMosaic.PureOps.Ideal
import Idealize.ShloMosaic.PureOps.Ideal.Laws
import Idealize.ShloMosaic.Lib.ValueIdx

noncomputable section

open scoped BigOperators

namespace Cert.GcnRef

open Cert.ReferenceIdeal Cert.ReferenceIdeal.Gen Cert.ReferenceIdeal.ReadP Cert.GcnSpec
open Idealize.ShloMosaic Idealize.ShloMosaic.TcCoe Idealize.SL.Sem Idealize.ShloMosaic.StableHlo Idealize.ShloMosaic.ValueIdx

/-! ## The operands of the three products with a weight matrix, at explicit coordinates -/

theorem lidx39_ix2 (r : Fin 100000) (q k : Fin 128) :
    lidx_main_v39 (ix2 (n0 := 100000) (n1 := 128) r q) k = (ix2 (n0 := 100000) (n1 := 128) r k) :=
  funext fun a => Fin.ext (by match a with | ⟨0, _⟩ => rfl | ⟨1, _⟩ => rfl)

theorem ridx39_ix2 (r : Fin 100000) (q k : Fin 128) :
    ridx_main_v39 (ix2 (n0 := 100000) (n1 := 128) r q) k = (ix2 (n0 := 128) (n1 := 128) k q) :=
  funext fun a => Fin.ext (by match a with | ⟨0, _⟩ => rfl | ⟨1, _⟩ => rfl)

theorem lidx118_ix2 (r : Fin 100000) (q k : Fin 128) :
    lidx_main_v118 (ix2 (n0 := 100000) (n1 := 128) r q) k = (ix2 (n0 := 100000) (n1 := 128) r k) :=
  funext fun a => Fin.ext (by match a with | ⟨0, _⟩ => rfl | ⟨1, _⟩ => rfl)

theorem ridx118_ix2 (r : Fin 100000) (q k : Fin 128) :
    ridx_main_v118 (ix2 (n0 := 100000) (n1 := 128) r q) k = (ix2 (n0 := 128) (n1 := 128) k q) :=
  funext fun a => Fin.ext (by match a with | ⟨0, _⟩ => rfl | ⟨1, _⟩ => rfl)

theorem lidx164_ix2 (r : Fin 100000) (q k : Fin 128) :
    lidx_main_v164 (ix2 (n0 := 100000) (n1 := 128) r q) k = (ix2 (n0 := 100000) (n1 := 128) r k) :=
  funext fun a => Fin.ext (by match a with | ⟨0, _⟩ => rfl | ⟨1, _⟩ => rfl)

theorem ridx164_ix2 (r : Fin 100000) (q k : Fin 128) :
    ridx_main_v164 (ix2 (n0 := 100000) (n1 := 128) r q) k = (ix2 (n0 := 128) (n1 := 128) k q) :=
  funext fun a => Fin.ext (by match a with | ⟨0, _⟩ => rfl | ⟨1, _⟩ => rfl)

theorem lidx0_ix2 (r : Fin 100000) (q k : Fin 128) :
    lidx_main_v0 (ix2 (n0 := 100000) (n1 := 128) r q) k = (ix2 (n0 := 100000) (n1 := 128) r k) :=
  funext fun a => Fin.ext (by match a with | ⟨0, _⟩ => rfl | ⟨1, _⟩ => rfl)

theorem ridx0_ix2 (r : Fin 100000) (q k : Fin 128) :
    ridx_main_v0 (ix2 (n0 := 100000) (n1 := 128) r q) k = (ix2 (n0 := 128) (n1 := 128) k q) :=
  funext fun a => Fin.ext (by match a with | ⟨0, _⟩ => rfl | ⟨1, _⟩ => rfl)

variable (x0 : (⟨S100000x128, .f32⟩ : BufTy).Contents (Elt Ideal)) (x1 : (⟨S2x1600000, .i32⟩ : BufTy).Contents (Elt Ideal))
  (x2 : (⟨S100000x1, .i32⟩ : BufTy).Contents (Elt Ideal)) (x3 : (⟨S128x128, .f32⟩ : BufTy).Contents (Elt Ideal))
  (x4 : (⟨S1x128, .f32⟩ : BufTy).Contents (Elt Ideal)) (x5 : (⟨S128x128, .f32⟩ : BufTy).Contents (Elt Ideal))
  (x6 x7 x8 : (⟨S128, .f32⟩ : BufTy).Contents (Elt Ideal)) (x9 : (⟨S_, .f32⟩ : BufTy).Contents (Elt Ideal))
  (x10 : (⟨S128x128, .f32⟩ : BufTy).Contents (Elt Ideal)) (x11 x12 x13 : (⟨S128, .f32⟩ : BufTy).Contents (Elt Ideal))
  (x14 : (⟨S128x128, .f32⟩ : BufTy).Contents (Elt Ideal)) (x15 : (⟨S128, .f32⟩ : BufTy).Contents (Elt Ideal))

/-! ## The products with the weight matrices -/

/-- The first layer's product: the encoded row times a column of the first layer's weight. -/
theorem ref_mm1 (r : Fin 100000) (q : Fin 128) :
    val_main_v39 (F := Ideal) x0 x2 x3 x4 x5 (ix2 (n0 := 100000) (n1 := 128) r q)
      = dotRow (fun k => val_main_v5 (F := Ideal) x0 x2 x3 x4 (ix2 (n0 := 100000) (n1 := 128) r k))
          (fun k => x5 (ix2 (n0 := 128) (n1 := 128) k q)) := by
  rw [val_main_v39_apply]
  unfold dotRow
  refine Finset.sum_congr rfl fun k _ => ?_
  rw [lidx39_ix2, ridx39_ix2]

/-- The second layer's product: the first layer's row times a column of the second layer's weight. -/
theorem ref_mm2 (r : Fin 100000) (q : Fin 128) :
    val_main_v118 (F := Ideal) x0 x1 x2 x3 x4 x5 x6 x7 x8 x9 x10 (ix2 (n0 := 100000) (n1 := 128) r q)
      = dotRow (fun k => val_main_v84 (F := Ideal) x0 x1 x2 x3 x4 x5 x6 x7 x8 x9 (ix2 (n0 := 100000) (n1 := 128) r k))
          (fun k => x10 (ix2 (n0 := 128) (n1 := 128) k q)) := by
  rw [val_main_v118_apply]
  unfold dotRow
  refine Finset.sum_congr rfl fun k _ => ?_
  rw [lidx118_ix2, ridx118_ix2]

/-- The output projection: the second layer's row times a column of the output weight, plus the output bias. -/
theorem ref_out (r : Fin 100000) (q : Fin 128) :
    val_main_v167 (F := Ideal) x0 x1 x2 x3 x4 x5 x6 x7 x8 x9 x10 x11 x12 x13 x14 x15 (ix2 (n0 := 100000) (n1 := 128) r q)
      = dotRow (fun k => val_main_v163 (F := Ideal) x0 x1 x2 x3 x4 x5 x6 x7 x8 x9 x10 x11 x12 x13 (ix2 (n0 := 100000) (n1 := 128) r k))
          (fun k => x14 (ix2 (n0 := 128) (n1 := 128) k q)) + x15 (ix1 (n := 128) q) := by
  rw [val_main_v167_apply, val_main_v164_apply, val_main_v166_apply, val_main_v165_apply, Ideal.addf_def]
  unfold dotRow
  refine congrArg₂ (· + ·) (Finset.sum_congr rfl fun k _ => ?_) (congrArg x15 (funext fun a => Fin.ext (by match a with | ⟨0, _⟩ => rfl)))
  rw [lidx164_ix2, ridx164_ix2]

/-! ## Layer 1: bias, normalisation of a row, scale and shift, leaky rectifier -/

/-- The bias row, repeated down the rows, read at an entry. -/
theorem bias_at_1 (r : Fin 100000) (k : Fin 128) :
    val_main_v54 (F := Ideal) x6 (ix2 (n0 := 100000) (n1 := 128) r k) = x6 (ix1 (n := 128) k) := by
  rw [val_main_v54_apply, val_main_v53_apply]
  exact congrArg x6 (funext fun a => Fin.ext (by match a with | ⟨0, _⟩ => rfl))

/-- The scale row, repeated down the rows, read at an entry. -/
theorem scale_at_1 (r : Fin 100000) (k : Fin 128) :
    val_main_v75 (F := Ideal) x7 (ix2 (n0 := 100000) (n1 := 128) r k) = x7 (ix1 (n := 128) k) := by
  rw [val_main_v75_apply, val_main_v74_apply]
  exact congrArg x7 (funext fun a => Fin.ext (by match a with | ⟨0, _⟩ => rfl))

/-- The shift row, repeated down the rows, read at an entry. -/
theorem shift_at_1 (r : Fin 100000) (k : Fin 128) :
    val_main_v78 (F := Ideal) x8 (ix2 (n0 := 100000) (n1 := 128) r k) = x8 (ix1 (n := 128) k) := by
  rw [val_main_v78_apply, val_main_v77_apply]
  exact congrArg x8 (funext fun a => Fin.ext (by match a with | ⟨0, _⟩ => rfl))

/-- The row that is normalised: the neighbourhood sum plus the bias. -/
theorem h_at_1 (r : Fin 100000) (k : Fin 128) :
    val_main_v55 (F := Ideal) x0 x1 x2 x3 x4 x5 x6 (ix2 (n0 := 100000) (n1 := 128) r k) = val_main_v52 (F := Ideal) x0 x1 x2 x3 x4 x5 (ix2 (n0 := 100000) (n1 := 128) r k) + x6 (ix1 (n := 128) k) := by
  rw [val_main_v55_apply, bias_at_1, Ideal.addf_def]

/-- The mean of a row: its sum divided by 128. -/
theorem mu_at_1 (r : Fin 100000) :
    val_main_v59 (F := Ideal) x0 x1 x2 x3 x4 x5 x6 (ix2 (n0 := 100000) (n1 := 1) r 0) = Ideal.div (∑ k : Fin 128, val_main_v55 (F := Ideal) x0 x1 x2 x3 x4 x5 x6 (ix2 (n0 := 100000) (n1 := 128) r k)) c128W := by
  rw [val_main_v59_apply, val_main_v57_apply, val_main_v56_apply, val_main_v58_apply, val_main_cst_12_apply, val_main_cst_11_apply, Ideal.hostDivf_def, Ideal.ofBits_def,
    Ideal.ofBits_def, Ideal.ofBits_zero_f32, zero_add]
  refine congrArg (fun s => Ideal.div s c128W) (Finset.sum_congr rfl fun k _ => ?_)
  exact congrArg (val_main_v55 (F := Ideal) x0 x1 x2 x3 x4 x5 x6) (funext fun a => Fin.ext (by match a with | ⟨0, _⟩ => rfl | ⟨1, _⟩ => rfl))

/-- A centred entry, as the variance uses it. -/
theorem cen_at_1 (r : Fin 100000) (k : Fin 128) :
    val_main_v61 (F := Ideal) x0 x1 x2 x3 x4 x5 x6 (ix2 (n0 := 100000) (n1 := 128) r k) = val_main_v55 (F := Ideal) x0 x1 x2 x3 x4 x5 x6 (ix2 (n0 := 100000) (n1 := 128) r k) - val_main_v59 (F := Ideal) x0 x1 x2 x3 x4 x5 x6 (ix2 (n0 := 100000) (n1 := 1) r 0) := by
  rw [val_main_v61_apply, val_main_v60_apply, Ideal.subf_def]
  exact congrArg (fun j => val_main_v55 (F := Ideal) x0 x1 x2 x3 x4 x5 x6 (ix2 (n0 := 100000) (n1 := 128) r k) - val_main_v59 (F := Ideal) x0 x1 x2 x3 x4 x5 x6 j) (funext fun a => Fin.ext (by match a with | ⟨0, _⟩ => rfl | ⟨1, _⟩ => rfl))

/-- A centred entry, as the normalised value uses it. -/
theorem cen2_at_1 (r : Fin 100000) (k : Fin 128) :
    val_main_v68 (F := Ideal) x0 x1 x2 x3 x4 x5 x6 (ix2 (n0 := 100000) (n1 := 128) r k) = val_main_v55 (F := Ideal) x0 x1 x2 x3 x4 x5 x6 (ix2 (n0 := 100000) (n1 := 128) r k) - val_main_v59 (F := Ideal) x0 x1 x2 x3 x4 x5 x6 (ix2 (n0 := 100000) (n1 := 1) r 0) := by
  rw [val_main_v68_apply, val_main_v67_apply, Ideal.subf_def]
  exact congrArg (fun j => val_main_v55 (F := Ideal) x0 x1 x2 x3 x4 x5 x6 (ix2 (n0 := 100000) (n1 := 128) r k) - val_main_v59 (F := Ideal) x0 x1 x2 x3 x4 x5 x6 j) (funext fun a => Fin.ext (by match a with | ⟨0, _⟩ => rfl | ⟨1, _⟩ => rfl))

/-- The variance of a row: the sum of the squared centred entries divided by 128. -/
theorem var_at_1 (r : Fin 100000) :
    val_main_v66 (F := Ideal) x0 x1 x2 x3 x4 x5 x6 (ix2 (n0 := 100000) (n1 := 1) r 0) = Ideal.div (∑ k : Fin 128, (val_main_v55 (F := Ideal) x0 x1 x2 x3 x4 x5 x6 (ix2 (n0 := 100000) (n1 := 128) r k) - val_main_v59 (F := Ideal) x0 x1 x2 x3 x4 x5 x6 (ix2 (n0 := 100000) (n1 := 1) r 0)) * (val_main_v55 (F := Ideal) x0 x1 x2 x3 x4 x5 x6 (ix2 (n0 := 100000) (n1 := 128) r k) - val_main_v59 (F := Ideal) x0 x1 x2 x3 x4 x5 x6 (ix2 (n0 := 100000) (n1 := 1) r 0))) c128W := by
  rw [val_main_v66_apply, val_main_v64_apply, val_main_v63_apply, val_main_v65_apply, val_main_cst_14_apply, val_main_cst_13_apply, Ideal.hostDivf_def, Ideal.ofBits_def,
    Ideal.ofBits_def, Ideal.ofBits_zero_f32, zero_add]
  refine congrArg (fun s => Ideal.div s c128W) (Finset.sum_congr rfl fun k _ => ?_)
  have e : idx_main_v63 (idx_main_v64 (ix2 (n0 := 100000) (n1 := 1) r 0)) k = (ix2 (n0 := 100000) (n1 := 128) r k) :=
    funext fun a => Fin.ext (by match a with | ⟨0, _⟩ => rfl | ⟨1, _⟩ => rfl)
  rw [e, val_main_v62_apply, cen_at_1, Ideal.mulf_def]

/-- The reciprocal square root of the offset variance, repeated along the row. -/
theorem rs_at_1 (r : Fin 100000) (q : Fin 128) :
    val_main_v72 (F := Ideal) x0 x1 x2 x3 x4 x5 x6 (ix2 (n0 := 100000) (n1 := 128) r q) = Ideal.rsqrt (val_main_v66 (F := Ideal) x0 x1 x2 x3 x4 x5 x6 (ix2 (n0 := 100000) (n1 := 1) r 0) + epsW) := by
  have e : idx_main_v72 (ix2 (n0 := 100000) (n1 := 128) r q) = (ix2 (n0 := 100000) (n1 := 1) r 0) :=
    funext fun a => Fin.ext (by match a with | ⟨0, _⟩ => rfl | ⟨1, _⟩ => rfl)
  rw [val_main_v72_apply, e, val_main_v71_apply, val_main_v70_apply, val_main_v69_apply, val_main_cst_15_apply, Ideal.hostUnary_rsqrt_def, Ideal.addf_def, Ideal.ofBits_def]

/-- The normalised, scaled and shifted entry. -/
theorem aff_at_1 (r : Fin 100000) (q : Fin 128) :
    val_main_v79 (F := Ideal) x0 x1 x2 x3 x4 x5 x6 x7 x8 (ix2 (n0 := 100000) (n1 := 128) r q)
      = (val_main_v55 (F := Ideal) x0 x1 x2 x3 x4 x5 x6 (ix2 (n0 := 100000) (n1 := 128) r q) - val_main_v59 (F := Ideal) x0 x1 x2 x3 x4 x5 x6 (ix2 (n0 := 100000) (n1 := 1) r 0)) * Ideal.rsqrt (val_main_v66 (F := Ideal) x0 x1 x2 x3 x4 x5 x6 (ix2 (n0 := 100000) (n1 := 1) r 0) + epsW) * x7 (ix1 (n := 128) q) + x8 (ix1 (n := 128) q) := by
  rw [val_main_v79_apply, val_main_v76_apply, val_main_v73_apply, cen2_at_1, rs_at_1, scale_at_1, shift_at_1, Ideal.addf_def, Ideal.mulf_def,
    Ideal.mulf_def]

/-- Layer 1 of the reference, read at an entry, is the row-wise normalisation and rectifier of the shared vocabulary. -/
theorem ref_ln1 (r : Fin 100000) (q : Fin 128) :
    val_main_v84 (F := Ideal) x0 x1 x2 x3 x4 x5 x6 x7 x8 x9 (ix2 (n0 := 100000) (n1 := 128) r q)
      = lnCore (fun k => val_main_v52 (F := Ideal) x0 x1 x2 x3 x4 x5 (ix2 (n0 := 100000) (n1 := 128) r k) + x6 (ix1 (n := 128) k))
          (x7 (ix1 (n := 128) q)) (x8 (ix1 (n := 128) q)) (x9 ix0) q := by
  rw [val_main_v84_apply, val_main_v81_apply, val_main_v83_apply, val_main_v82_apply, val_main_v80_apply, val_main_cst_16_apply, aff_at_1, var_at_1, mu_at_1]
  simp only [h_at_1]
  rfl

/-! ## Layer 2: bias, normalisation of a row, scale and shift, leaky rectifier -/

/-- The bias row, repeated down the rows, read at an entry. -/
theorem bias_at_2 (r : Fin 100000) (k : Fin 128) :
    val_main_v133 (F := Ideal) x11 (ix2 (n0 := 100000) (n1 := 128) r k) = x11 (ix1 (n := 128) k) := by
  rw [val_main_v133_apply, val_main_v132_apply]
  exact congrArg x11 (funext fun a => Fin.ext (by match a with | ⟨0, _⟩ => rfl))

/-- The scale row, repeated down the rows, read at an entry. -/
theorem scale_at_2 (r : Fin 100000) (k : Fin 128) :
    val_main_v154 (F := Ideal) x12 (ix2 (n0 := 100000) (n1 := 128) r k) = x12 (ix1 (n := 128) k) := by
  rw [val_main_v154_apply, val_main_v153_apply]
  exact congrArg x12 (funext fun a => Fin.ext (by match a with | ⟨0, _⟩ => rfl))

/-- The shift row, repeated down the rows, read at an entry. -/
theorem shift_at_2 (r : Fin 100000) (k : Fin 128) :
    val_main_v157 (F := Ideal) x13 (ix2 (n0 := 100000) (n1 := 128) r k) = x13 (ix1 (n := 128) k) := by
  rw [val_main_v157_apply, val_main_v156_apply]
  exact congrArg x13 (funext fun a => Fin.ext (by match a with | ⟨0, _⟩ => rfl))

/-- The row that is normalised: the neighbourhood sum plus the bias. -/
theorem h_at_2 (r : Fin 100000) (k : Fin 128) :
    val_main_v134 (F := Ideal) x0 x1 x2 x3 x4 x5 x6 x7 x8 x9 x10 x11 (ix2 (n0 := 100000) (n1 := 128) r k) = val_main_v131 (F := Ideal) x0 x1 x2 x3 x4 x5 x6 x7 x8 x9 x10 (ix2 (n0 := 100000) (n1 := 128) r k) + x11 (ix1 (n := 128) k) := by
  rw [val_main_v134_apply, bias_at_2, Ideal.addf_def]

/-- The mean of a row: its sum divided by 128. -/
theorem mu_at_2 (r : Fin 100000) :
    val_main_v138 (F := Ideal) x0 x1 x2 x3 x4 x5 x6 x7 x8 x9 x10 x11 (ix2 (n0 := 100000) (n1 := 1) r 0) = Ideal.div (∑ k : Fin 128, val_main_v134 (F := Ideal) x0 x1 x2 x3 x4 x5 x6 x7 x8 x9 x10 x11 (ix2 (n0 := 100000) (n1 := 128) r k)) c128W := by
  rw [val_main_v138_apply, val_main_v136_apply, val_main_v135_apply, val_main_v137_apply, val_main_cst_30_apply, val_main_cst_29_apply, Ideal.hostDivf_def, Ideal.ofBits_def,
    Ideal.ofBits_def, Ideal.ofBits_zero_f32, zero_add]
  refine congrArg (fun s => Ideal.div s c128W) (Finset.sum_congr rfl fun k _ => ?_)
  exact congrArg (val_main_v134 (F := Ideal) x0 x1 x2 x3 x4 x5 x6 x7 x8 x9 x10 x11) (funext fun a => Fin.ext (by match a with | ⟨0, _⟩ => rfl | ⟨1, _⟩ => rfl))

/-- A centred entry, as the variance uses it. -/
theorem cen_at_2 (r : Fin 100000) (k : Fin 128) :
    val_main_v140 (F := Ideal) x0 x1 x2 x3 x4 x5 x6 x7 x8 x9 x10 x11 (ix2 (n0 := 100000) (n1 := 128) r k) = val_main_v134 (F := Ideal) x0 x1 x2 x3 x4 x5 x6 x7 x8 x9 x10 x11 (ix2 (n0 := 100000) (n1 := 128) r k) - val_main_v138 (F := Ideal) x0 x1 x2 x3 x4 x5 x6 x7 x8 x9 x10 x11 (ix2 (n0 := 100000) (n1 := 1) r 0) := by
  rw [val_main_v140_apply, val_main_v139_apply, Ideal.subf_def]
  exact congrArg (fun j => val_main_v134 (F := Ideal) x0 x1 x2 x3 x4 x5 x6 x7 x8 x9 x10 x11 (ix2 (n0 := 100000) (n1 := 128) r k) - val_main_v138 (F := Ideal) x0 x1 x2 x3 x4 x5 x6 x7 x8 x9 x10 x11 j) (funext fun a => Fin.ext (by match a with | ⟨0, _⟩ => rfl | ⟨1, _⟩ => rfl))

/-- A centred entry, as the normalised value uses it. -/
theorem cen2_at_2 (r : Fin 100000) (k : Fin 128) :
    val_main_v147 (F := Ideal) x0 x1 x2 x3 x4 x5 x6 x7 x8 x9 x10 x11 (ix2 (n0 := 100000) (n1 := 128) r k) = val_main_v134 (F := Ideal) x0 x1 x2 x3 x4 x5 x6 x7 x8 x9 x10 x11 (ix2 (n0 := 100000) (n1 := 128) r k) - val_main_v138 (F := Ideal) x0 x1 x2 x3 x4 x5 x6 x7 x8 x9 x10 x11 (ix2 (n0 := 100000) (n1 := 1) r 0) := by
  rw [val_main_v147_apply, val_main_v146_apply, Ideal.subf_def]
  exact congrArg (fun j => val_main_v134 (F := Ideal) x0 x1 x2 x3 x4 x5 x6 x7 x8 x9 x10 x11 (ix2 (n0 := 100000) (n1 := 128) r k) - val_main_v138 (F := Ideal) x0 x1 x2 x3 x4 x5 x6 x7 x8 x9 x10 x11 j) (funext fun a => Fin.ext (by match a with | ⟨0, _⟩ => rfl | ⟨1, _⟩ => rfl))

/-- The variance of a row: the sum of the squared centred entries divided by 128. -/
theorem var_at_2 (r : Fin 100000) :
    val_main_v145 (F := Ideal) x0 x1 x2 x3 x4 x5 x6 x7 x8 x9 x10 x11 (ix2 (n0 := 100000) (n1 := 1) r 0) = Ideal.div (∑ k : Fin 128, (val_main_v134 (F := Ideal) x0 x1 x2 x3 x4 x5 x6 x7 x8 x9 x10 x11 (ix2 (n0 := 100000) (n1 := 128) r k) - val_main_v138 (F := Ideal) x0 x1 x2 x3 x4 x5 x6 x7 x8 x9 x10 x11 (ix2 (n0 := 100000) (n1 := 1) r 0)) * (val_main_v134 (F := Ideal) x0 x1 x2 x3 x4 x5 x6 x7 x8 x9 x10 x11 (ix2 (n0 := 100000) (n1 := 128) r k) - val_main_v138 (F := Ideal) x0 x1 x2 x3 x4 x5 x6 x7 x8 x9 x10 x11 (ix2 (n0 := 100000) (n1 := 1) r 0))) c128W := by
  rw [val_main_v145_apply, val_main_v143_apply, val_main_v142_apply, val_main_v144_apply, val_main_cst_32_apply, val_main_cst_31_apply, Ideal.hostDivf_def, Ideal.ofBits_def,
    Ideal.ofBits_def, Ideal.ofBits_zero_f32, zero_add]
  refine congrArg (fun s => Ideal.div s c128W) (Finset.sum_congr rfl fun k _ => ?_)
  have e : idx_main_v142 (idx_main_v143 (ix2 (n0 := 100000) (n1 := 1) r 0)) k = (ix2 (n0 := 100000) (n1 := 128) r k) :=
    funext fun a => Fin.ext (by match a with | ⟨0, _⟩ => rfl | ⟨1, _⟩ => rfl)
  rw [e, val_main_v141_apply, cen_at_2, Ideal.mulf_def]

/-- The reciprocal square root of the offset variance, repeated along the row. -/
theorem rs_at_2 (r : Fin 100000) (q : Fin 128) :
    val_main_v151 (F := Ideal) x0 x1 x2 x3 x4 x5 x6 x7 x8 x9 x10 x11 (ix2 (n0 := 100000) (n1 := 128) r q) = Ideal.rsqrt (val_main_v145 (F := Ideal) x0 x1 x2 x3 x4 x5 x6 x7 x8 x9 x10 x11 (ix2 (n0 := 100000) (n1 := 1) r 0) + epsW) := by
  have e : idx_main_v151 (ix2 (n0 := 100000) (n1 := 128) r q) = (ix2 (n0 := 100000) (n1 := 1) r 0) :=
    funext fun a => Fin.ext (by match a with | ⟨0, _⟩ => rfl | ⟨1, _⟩ => rfl)
  rw [val_main_v151_apply, e, val_main_v150_apply, val_main_v149_apply, val_main_v148_apply, val_main_cst_33_apply, Ideal.hostUnary_rsqrt_def, Ideal.addf_def, Ideal.ofBits_def]

/-- The normalised, scaled and shifted entry. -/
theorem aff_at_2 (r : Fin 100000) (q : Fin 128) :
    val_main_v158 (F := Ideal) x0 x1 x2 x3 x4 x5 x6 x7 x8 x9 x10 x11 x12 x13 (ix2 (n0 := 100000) (n1 := 128) r q)
      = (val_main_v134 (F := Ideal) x0 x1 x2 x3 x4 x5 x6 x7 x8 x9 x10 x11 (ix2 (n0 := 100000) (n1 := 128) r q) - val_main_v138 (F := Ideal) x0 x1 x2 x3 x4 x5 x6 x7 x8 x9 x10 x11 (ix2 (n0 := 100000) (n1 := 1) r 0)) * Ideal.rsqrt (val_main_v145 (F := Ideal) x0 x1 x2 x3 x4 x5 x6 x7 x8 x9 x10 x11 (ix2 (n0 := 100000) (n1 := 1) r 0) + epsW) * x12 (ix1 (n := 128) q) + x13 (ix1 (n := 128) q) := by
  rw [val_main_v158_apply, val_main_v155_apply, val_main_v152_apply, cen2_at_2, rs_at_2, scale_at_2, shift_at_2, Ideal.addf_def, Ideal.mulf_def,
    Ideal.mulf_def]

/-- Layer 2 of the reference, read at an entry, is the row-wise normalisation and rectifier of the shared vocabulary. -/
theorem ref_ln2 (r : Fin 100000) (q : Fin 128) :
    val_main_v163 (F := Ideal) x0 x1 x2 x3 x4 x5 x6 x7 x8 x9 x10 x11 x12 x13 (ix2 (n0 := 100000) (n1 := 128) r q)
      = lnCore (fun k => val_main_v131 (F := Ideal) x0 x1 x2 x3 x4 x5 x6 x7 x8 x9 x10 (ix2 (n0 := 100000) (n1 := 128) r k) + x11 (ix1 (n := 128) k))
          (x12 (ix1 (n := 128) q)) (x13 (ix1 (n := 128) q)) (x9 ix0) q := by
  rw [val_main_v163_apply, val_main_v160_apply, val_main_v162_apply, val_main_v161_apply, val_main_v159_apply, val_main_cst_34_apply, aff_at_2, var_at_2, mu_at_2]
  simp only [h_at_2]
  rfl

/-! ## The encoder: the decoder token on the rows whose mask entry is zero, the product with the encoder weight elsewhere -/

/-- The float word of one is one. -/
theorem oneW_eq : oneW = 1 := by
  show Ideal.ofBits .f32 0x3F800000#32 = 1
  simp [Ideal.ofBits, Ideal.ieee]
  exact_mod_cast (by norm_num : (8388608 : ℝ) * (2 ^ 23)⁻¹ = 1)

theorem one_sub_one : (1 : EReal) - 1 = 0 := by
  rw [← EReal.coe_one, ← EReal.coe_sub, sub_self, EReal.coe_zero]

/-- With the mask at one the blend is the decoder token, whatever the product is: on the extended reals `0 * y = 0`. -/
theorem blend_one (d y : EReal) : blend 1 d y = d := by
  unfold blend
  rw [oneW_eq, one_sub_one, one_mul, zero_mul, add_zero]

/-- With the mask at zero the blend is the product. -/
theorem blend_zero (d y : EReal) : blend 0 d y = y := by
  unfold blend
  rw [oneW_eq, sub_zero, one_mul, zero_mul, zero_add]

/-- A selection on the comparison of a word with zero. -/
theorem select_eq_zero (a : BitVec 32) (d y : EReal) :
    Scalar.select (IntOp.cmpi .eq a 0#32) d y = if a = 0#32 then d else y := by
  by_cases h : a = 0#32
  · rw [if_pos h, h]; rfl
  · rw [if_neg h]
    have hb : (a == 0#32) = false := beq_eq_false_iff_ne.mpr h
    simp [Scalar.select, IntOp.cmpi, hb]

/-- The 0/1 mask computed from the integer mask column — one where the entry is zero — read at a row. The statement
    holds for any proof `hb` of the shape fact, so it applies to either program's spelling of the broadcast. -/
theorem mask_at (hb : (⟨0, ![]⟩ : Shape).BroadcastsInDim (⟨2, ![100000, 1]⟩ : Shape) (![] : Fin 0 → Fin 2))
    (m : IVec (⟨2, ![100000, 1]⟩ : Shape) 32) (r : Fin 100000) :
    uitofp (F := Ideal) .f32 (cmpi .eq m (broadcastInDim (⟨2, ![100000, 1]⟩ : Shape) ![] hb (constantI (⟨0, ![]⟩ : Shape) 32 0#32)))
        (ix2 (n0 := 100000) (n1 := 1) r 0)
      = if m (ix2 (n0 := 100000) (n1 := 1) r 0) = 0#32 then (1 : EReal) else 0 := by
  show (((IntOp.cmpi .eq (m (ix2 (n0 := 100000) (n1 := 1) r 0)) 0#32).toNat : ℝ) : EReal) = _
  by_cases h : m (ix2 (n0 := 100000) (n1 := 1) r 0) = 0#32
  · rw [if_pos h, h]; simp [IntOp.cmpi]
  · rw [if_neg h]; simp [IntOp.cmpi, h]

/-- The encoder of the reference, read at an entry, in the blended form: `mk` is any 0/1 mask column that is one exactly
    on the rows whose integer mask entry is zero. -/
theorem ref_enc (mk : (⟨2, ![100000, 1]⟩ : Shape).Idx → EReal)
    (hmk : ∀ r : Fin 100000, mk (ix2 (n0 := 100000) (n1 := 1) r 0) = if x2 (ix2 (n0 := 100000) (n1 := 1) r 0) = 0#32 then (1 : EReal) else 0)
    (r : Fin 100000) (q : Fin 128) :
    val_main_v5 (F := Ideal) x0 x2 x3 x4 (ix2 (n0 := 100000) (n1 := 128) r q)
      = blend (mk (ix2 (n0 := 100000) (n1 := 1) r 0)) (x4 (ix2 (n0 := 1) (n1 := 128) 0 q))
          (dotRow (fun k => x0 (ix2 (n0 := 100000) (n1 := 128) r k)) (fun k => x3 (ix2 (n0 := 128) (n1 := 128) k q))) := by
  have hsel : val_main_call0_v0 (F := Ideal) x2 (ix2 (n0 := 100000) (n1 := 128) r q) = IntOp.cmpi .eq (x2 (ix2 (n0 := 100000) (n1 := 1) r 0)) 0#32 := by
    rw [val_main_call0_v0_apply, val_main_v4_apply, val_main_v3_apply, val_main_v1_apply, val_main_v2_apply, val_main_c_apply]
    exact congrArg (fun j => IntOp.cmpi .eq (x2 j) 0#32) (funext fun a => Fin.ext (by
      match a with
      | ⟨0, _⟩ => exact Nat.div_one _
      | ⟨1, _⟩ => rfl))
  have hdec : val_main_call0_v1 (F := Ideal) x4 (ix2 (n0 := 100000) (n1 := 128) r q) = x4 (ix2 (n0 := 1) (n1 := 128) 0 q) := by
    rw [val_main_call0_v1_apply]
    exact congrArg x4 (funext fun a => Fin.ext (by match a with | ⟨0, _⟩ => rfl | ⟨1, _⟩ => rfl))
  have hdot : val_main_v0 (F := Ideal) x0 x3 (ix2 (n0 := 100000) (n1 := 128) r q)
      = dotRow (fun k => x0 (ix2 (n0 := 100000) (n1 := 128) r k)) (fun k => x3 (ix2 (n0 := 128) (n1 := 128) k q)) := by
    rw [val_main_v0_apply]
    unfold dotRow
    refine Finset.sum_congr rfl fun k _ => ?_
    rw [lidx0_ix2, ridx0_ix2]
  rw [val_main_v5_apply, hsel, hdec, hdot, hmk r, select_eq_zero]
  by_cases h : x2 (ix2 (n0 := 100000) (n1 := 1) r 0) = 0#32
  · rw [if_pos h, if_pos h, blend_one]
  · rw [if_neg h, if_neg h, blend_zero]

end Cert.GcnRef

end
-- ==== Proof.GcnBridge.lean ====
/-
  The reference program's dense stages are the whole-array stage functions.

  Each dense stage of the reference, as a function on whole arrays, equals the corresponding function of the shared
  vocabulary: the encoder, the two products with the layer weights, the two normalisations with their rectifier, and
  the output projection.  Every equation is the entry-by-entry statement about the reference, read at the two
  coordinates of an arbitrary index.
-/
import proofs.«150129_j46978352284504_1_alg».proof.Proof.GcnRef
import proofs.«150129_j46978352284504_1_alg».proof.Proof.GcnSpec

noncomputable section

open scoped BigOperators

namespace Cert.GcnBridge

open Cert.ReferenceIdeal Cert.ReferenceIdeal.Gen Cert.ReferenceIdeal.ReadP Cert.GcnSpec Cert.GcnRef
open Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S2x1600000, .i32⟩ : BufTy).Contents (Elt Ideal))
  (x2 : (⟨S100000x1, .i32⟩ : BufTy).Contents (Elt Ideal)) (x3 : (⟨S128x128, .f32⟩ : BufTy).Contents (Elt Ideal))
  (x4 : (⟨S1x128, .f32⟩ : BufTy).Contents (Elt Ideal)) (x5 : (⟨S128x128, .f32⟩ : BufTy).Contents (Elt Ideal))
  (x6 x7 x8 : (⟨S128, .f32⟩ : BufTy).Contents (Elt Ideal)) (x9 : (⟨S_, .f32⟩ : BufTy).Contents (Elt Ideal))
  (x10 : (⟨S128x128, .f32⟩ : BufTy).Contents (Elt Ideal)) (x11 x12 x13 : (⟨S128, .f32⟩ : BufTy).Contents (Elt Ideal))
  (x14 : (⟨S128x128, .f32⟩ : BufTy).Contents (Elt Ideal)) (x15 : (⟨S128, .f32⟩ : BufTy).Contents (Elt Ideal))

/-- The encoder of the reference is `ENC`, for any 0/1 mask column that is one exactly on the rows whose integer mask
    entry is zero. -/
theorem enc_eq (mk : (⟨2, ![100000, 1]⟩ : Shape).Idx → EReal)
    (hmk : ∀ r : Fin 100000, mk (ix2 (n0 := 100000) (n1 := 1) r 0) = if x2 (ix2 (n0 := 100000) (n1 := 1) r 0) = 0#32 then (1 : EReal) else 0) :
    ENC x0 x3 mk x4 = val_main_v5 (F := Ideal) x0 x2 x3 x4 := by
  funext i
  obtain ⟨r, q, rfl⟩ : ∃ (r : Fin 100000) (q : Fin 128), i = ix2 (n0 := 100000) (n1 := 128) r q := ⟨i 0, i 1, eq_ix2 i⟩
  exact (ref_enc x0 x2 x3 x4 mk hmk r q).symm

/-- The first layer's product of the reference is `MM` of the encoded features with the first layer's weight. -/
theorem mm1_eq : MM (val_main_v5 (F := Ideal) x0 x2 x3 x4) x5 = val_main_v39 (F := Ideal) x0 x2 x3 x4 x5 := by
  funext i
  obtain ⟨r, q, rfl⟩ : ∃ (r : Fin 100000) (q : Fin 128), i = ix2 (n0 := 100000) (n1 := 128) r q := ⟨i 0, i 1, eq_ix2 i⟩
  exact (ref_mm1 x0 x2 x3 x4 x5 r q).symm

/-- Layer 1's normalisation and rectifier of the reference is `LN` of the neighbourhood sums, for a bias, scale, shift and
    slope that are the program's arguments read as one-row arrays. -/
theorem ln1_eq (b g be : (⟨2, ![1, 128]⟩ : Shape).Idx → EReal) (a : (⟨2, ![1, 1]⟩ : Shape).Idx → EReal)
    (hb : ∀ k : Fin 128, b (ix2 (n0 := 1) (n1 := 128) 0 k) = x6 (ix1 (n := 128) k))
    (hg : ∀ k : Fin 128, g (ix2 (n0 := 1) (n1 := 128) 0 k) = x7 (ix1 (n := 128) k))
    (hbe : ∀ k : Fin 128, be (ix2 (n0 := 1) (n1 := 128) 0 k) = x8 (ix1 (n := 128) k))
    (ha : a (ix2 (n0 := 1) (n1 := 1) 0 0) = x9 ix0) :
    LN (val_main_v52 (F := Ideal) x0 x1 x2 x3 x4 x5) b g be a = val_main_v84 (F := Ideal) x0 x1 x2 x3 x4 x5 x6 x7 x8 x9 := by
  funext i
  obtain ⟨r, q, rfl⟩ : ∃ (r : Fin 100000) (q : Fin 128), i = ix2 (n0 := 100000) (n1 := 128) r q := ⟨i 0, i 1, eq_ix2 i⟩
  have e : (fun k : Fin 128 => val_main_v52 (F := Ideal) x0 x1 x2 x3 x4 x5 (ix2 (n0 := 100000) (n1 := 128) r k) + b (ix2 (n0 := 1) (n1 := 128) 0 k))
      = fun k : Fin 128 => val_main_v52 (F := Ideal) x0 x1 x2 x3 x4 x5 (ix2 (n0 := 100000) (n1 := 128) r k) + x6 (ix1 (n := 128) k) :=
    funext fun k => by rw [hb]
  show lnCore (fun k : Fin 128 => val_main_v52 (F := Ideal) x0 x1 x2 x3 x4 x5 (ix2 (n0 := 100000) (n1 := 128) r k) + b (ix2 (n0 := 1) (n1 := 128) 0 k))
      (g (ix2 (n0 := 1) (n1 := 128) 0 q)) (be (ix2 (n0 := 1) (n1 := 128) 0 q)) (a (ix2 (n0 := 1) (n1 := 1) 0 0)) q = _
  rw [e, hg, hbe, ha, ref_ln1]

/-- The second layer's product of the reference is `MM` of the first layer's output with the second layer's weight. -/
theorem mm2_eq : MM (val_main_v84 (F := Ideal) x0 x1 x2 x3 x4 x5 x6 x7 x8 x9) x10 = val_main_v118 (F := Ideal) x0 x1 x2 x3 x4 x5 x6 x7 x8 x9 x10 := by
  funext i
  obtain ⟨r, q, rfl⟩ : ∃ (r : Fin 100000) (q : Fin 128), i = ix2 (n0 := 100000) (n1 := 128) r q := ⟨i 0, i 1, eq_ix2 i⟩
  exact (ref_mm2 x0 x1 x2 x3 x4 x5 x6 x7 x8 x9 x10 r q).symm

/-- Layer 2's normalisation and rectifier of the reference is `LN` of the neighbourhood sums, for a bias, scale, shift and
    slope that are the program's arguments read as one-row arrays. -/
theorem ln2_eq (b g be : (⟨2, ![1, 128]⟩ : Shape).Idx → EReal) (a : (⟨2, ![1, 1]⟩ : Shape).Idx → EReal)
    (hb : ∀ k : Fin 128, b (ix2 (n0 := 1) (n1 := 128) 0 k) = x11 (ix1 (n := 128) k))
    (hg : ∀ k : Fin 128, g (ix2 (n0 := 1) (n1 := 128) 0 k) = x12 (ix1 (n := 128) k))
    (hbe : ∀ k : Fin 128, be (ix2 (n0 := 1) (n1 := 128) 0 k) = x13 (ix1 (n := 128) k))
    (ha : a (ix2 (n0 := 1) (n1 := 1) 0 0) = x9 ix0) :
    LN (val_main_v131 (F := Ideal) x0 x1 x2 x3 x4 x5 x6 x7 x8 x9 x10) b g be a = val_main_v163 (F := Ideal) x0 x1 x2 x3 x4 x5 x6 x7 x8 x9 x10 x11 x12 x13 := by
  funext i
  obtain ⟨r, q, rfl⟩ : ∃ (r : Fin 100000) (q : Fin 128), i = ix2 (n0 := 100000) (n1 := 128) r q := ⟨i 0, i 1, eq_ix2 i⟩
  have e : (fun k : Fin 128 => val_main_v131 (F := Ideal) x0 x1 x2 x3 x4 x5 x6 x7 x8 x9 x10 (ix2 (n0 := 100000) (n1 := 128) r k) + b (ix2 (n0 := 1) (n1 := 128) 0 k))
      = fun k : Fin 128 => val_main_v131 (F := Ideal) x0 x1 x2 x3 x4 x5 x6 x7 x8 x9 x10 (ix2 (n0 := 100000) (n1 := 128) r k) + x11 (ix1 (n := 128) k) :=
    funext fun k => by rw [hb]
  show lnCore (fun k : Fin 128 => val_main_v131 (F := Ideal) x0 x1 x2 x3 x4 x5 x6 x7 x8 x9 x10 (ix2 (n0 := 100000) (n1 := 128) r k) + b (ix2 (n0 := 1) (n1 := 128) 0 k))
      (g (ix2 (n0 := 1) (n1 := 128) 0 q)) (be (ix2 (n0 := 1) (n1 := 128) 0 q)) (a (ix2 (n0 := 1) (n1 := 1) 0 0)) q = _
  rw [e, hg, hbe, ha, ref_ln2]

/-- The output projection of the reference is `OUT` of the second layer's output, for an output bias that is the
    program's argument read as a one-row array. -/
theorem out_eq (bo : (⟨2, ![1, 128]⟩ : Shape).Idx → EReal) (hbo : ∀ k : Fin 128, bo (ix2 (n0 := 1) (n1 := 128) 0 k) = x15 (ix1 (n := 128) k)) :
    OUT (val_main_v163 (F := Ideal) x0 x1 x2 x3 x4 x5 x6 x7 x8 x9 x10 x11 x12 x13) x14 bo = val_main_v167 (F := Ideal) x0 x1 x2 x3 x4 x5 x6 x7 x8 x9 x10 x11 x12 x13 x14 x15 := by
  funext i
  obtain ⟨r, q, rfl⟩ : ∃ (r : Fin 100000) (q : Fin 128), i = ix2 (n0 := 100000) (n1 := 128) r q := ⟨i 0, i 1, eq_ix2 i⟩
  show dotRow (fun k : Fin 128 => val_main_v163 (F := Ideal) x0 x1 x2 x3 x4 x5 x6 x7 x8 x9 x10 x11 x12 x13 (ix2 (n0 := 100000) (n1 := 128) r k)) (fun k : Fin 128 => x14 (ix2 (n0 := 128) (n1 := 128) k q))
      + bo (ix2 (n0 := 1) (n1 := 128) 0 q) = _
  rw [hbo, ref_out]

end Cert.GcnBridge

end
-- ==== Proof.GcnChain.lean ====
/-
  The idealized kernel program's result array, followed through its twelve segments.

  Each segment boundary's buffer contents are known from the previous boundary's: a stretch of host operations applies
  its operations, a launch replaces its output array by the whole-array function of its input arrays and leaves every
  other buffer alone.  Following the buffers the later segments read — the edge sources, targets and weights, the
  parameters, and the feature matrix as it passes through encoder, product, aggregation and normalisation twice and the
  output projection — the result array ends at the reference program's last stage applied to the argument arrays.
-/
import proofs.«150129_j46978352284504_1_alg».proof.Proof.Gen.KernelIdeal.Frame
import proofs.«150129_j46978352284504_1_alg».proof.Proof.GcnBlocks0
import proofs.«150129_j46978352284504_1_alg».proof.Proof.GcnBlocks1
import proofs.«150129_j46978352284504_1_alg».proof.Proof.GcnBlocks2
import proofs.«150129_j46978352284504_1_alg».proof.Proof.GcnBlocks3
import proofs.«150129_j46978352284504_1_alg».proof.Proof.GcnBlocks4
import proofs.«150129_j46978352284504_1_alg».proof.Proof.GcnBlocks5
import proofs.«150129_j46978352284504_1_alg».proof.Proof.GcnPayload
import proofs.«150129_j46978352284504_1_alg».proof.Proof.GcnHost
import proofs.«150129_j46978352284504_1_alg».proof.Proof.GcnRef
import proofs.«150129_j46978352284504_1_alg».proof.Proof.GcnBridge

set_option maxRecDepth 16384

noncomputable section

namespace Cert.GcnChain

open Cert.KernelIdeal Cert.KernelIdeal.Gen Cert.GcnSpec
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg) (c : Dev nD)

/-! ## After the graph preparation (the first launch's entry) -/

theorem w3_src : W3 m ρ c (Proc.devRef .tc main_v3) = Cert.ReferenceIdeal.ReadP.val_main_v9 (F := Ideal) (m ((c : Thread nD τ).loc main_arg1)) := Cert.GcnHost.prep_src (W0 m ρ c)
theorem w3_dst : W3 m ρ c (Proc.devRef .tc main_v7) = Cert.ReferenceIdeal.ReadP.val_main_v13 (F := Ideal) (m ((c : Thread nD τ).loc main_arg1)) := Cert.GcnHost.prep_dst (W0 m ρ c)
theorem w3_norm : W3 m ρ c (Proc.devRef .tc main_v32) = Cert.ReferenceIdeal.ReadP.val_main_v38 (F := Ideal) (m ((c : Thread nD τ).loc main_arg1)) := Cert.GcnHost.prep_norm (W0 m ρ c)
theorem w3_mask (r : Fin 100000) : W3 m ρ c (Proc.devRef .tc main_v35) (ix2 (n0 := 100000) (n1 := 1) r 0)
    = if (m ((c : Thread nD τ).loc main_arg2)) (ix2 (n0 := 100000) (n1 := 1) r 0) = 0#32 then (1 : EReal) else 0 := by
  rw [show W3 m ρ c (Proc.devRef .tc main_v35) = _ from Cert.GcnHost.prep_mask (W0 m ρ c)]
  exact Cert.GcnRef.mask_at _ _ r
theorem w3_arg0 : W3 m ρ c (Proc.devRef .tc main_arg0) = (m ((c : Thread nD τ).loc main_arg0)) := Cert.GcnHost.prep_arg0 (W0 m ρ c)
theorem w3_arg3 : W3 m ρ c (Proc.devRef .tc main_arg3) = (m ((c : Thread nD τ).loc main_arg3)) := Cert.GcnHost.prep_arg3 (W0 m ρ c)
theorem w3_arg4 : W3 m ρ c (Proc.devRef .tc main_arg4) = (m ((c : Thread nD τ).loc main_arg4)) := Cert.GcnHost.prep_arg4 (W0 m ρ c)
theorem w3_arg5 : W3 m ρ c (Proc.devRef .tc main_arg5) = (m ((c : Thread nD τ).loc main_arg5)) := Cert.GcnHost.prep_arg5 (W0 m ρ c)
theorem w3_arg6 : W3 m ρ c (Proc.devRef .tc main_arg6) = (m ((c : Thread nD τ).loc main_arg6)) := Cert.GcnHost.prep_arg6 (W0 m ρ c)
theorem w3_arg7 : W3 m ρ c (Proc.devRef .tc main_arg7) = (m ((c : Thread nD τ).loc main_arg7)) := Cert.GcnHost.prep_arg7 (W0 m ρ c)
theorem w3_arg8 : W3 m ρ c (Proc.devRef .tc main_arg8) = (m ((c : Thread nD τ).loc main_arg8)) := Cert.GcnHost.prep_arg8 (W0 m ρ c)
theorem w3_arg9 : W3 m ρ c (Proc.devRef .tc main_arg9) = (m ((c : Thread nD τ).loc main_arg9)) := Cert.GcnHost.prep_arg9 (W0 m ρ c)
theorem w3_arg10 : W3 m ρ c (Proc.devRef .tc main_arg10) = (m ((c : Thread nD τ).loc main_arg10)) := Cert.GcnHost.prep_arg10 (W0 m ρ c)
theorem w3_arg11 : W3 m ρ c (Proc.devRef .tc main_arg11) = (m ((c : Thread nD τ).loc main_arg11)) := Cert.GcnHost.prep_arg11 (W0 m ρ c)
theorem w3_arg12 : W3 m ρ c (Proc.devRef .tc main_arg12) = (m ((c : Thread nD τ).loc main_arg12)) := Cert.GcnHost.prep_arg12 (W0 m ρ c)
theorem w3_arg13 : W3 m ρ c (Proc.devRef .tc main_arg13) = (m ((c : Thread nD τ).loc main_arg13)) := Cert.GcnHost.prep_arg13 (W0 m ρ c)
theorem w3_arg14 : W3 m ρ c (Proc.devRef .tc main_arg14) = (m ((c : Thread nD τ).loc main_arg14)) := Cert.GcnHost.prep_arg14 (W0 m ρ c)
theorem w3_arg15 : W3 m ρ c (Proc.devRef .tc main_arg15) = (m ((c : Thread nD τ).loc main_arg15)) := Cert.GcnHost.prep_arg15 (W0 m ρ c)

/-! ## After the encoder launch -/

theorem w4_v36 : W4 m ρ c (Proc.devRef .tc main_v36) = Cert.ReferenceIdeal.ReadP.val_main_v5 (F := Ideal) (m ((c : Thread nD τ).loc main_arg0)) (m ((c : Thread nD τ).loc main_arg2)) (m ((c : Thread nD τ).loc main_arg3)) (m ((c : Thread nD τ).loc main_arg4)) := by
  refine (W4_arr m ρ c 4).trans ((Cert.GcnBlocks0.final (V3 m ρ) Cert.GcnPayload.pay_enc c).trans ?_)
  show ENC (W3 m ρ c (Proc.devRef .tc main_arg0)) (W3 m ρ c (Proc.devRef .tc main_arg3)) (W3 m ρ c (Proc.devRef .tc main_v35)) (W3 m ρ c (Proc.devRef .tc main_arg4)) = _
  rw [w3_arg0, w3_arg3, w3_arg4]
  exact Cert.GcnBridge.enc_eq (m ((c : Thread nD τ).loc main_arg0)) (m ((c : Thread nD τ).loc main_arg2)) (m ((c : Thread nD τ).loc main_arg3)) (m ((c : Thread nD τ).loc main_arg4)) (W3 m ρ c (Proc.devRef .tc main_v35)) (w3_mask m ρ c)
theorem w4_src : W4 m ρ c (Proc.devRef .tc main_v3) = Cert.ReferenceIdeal.ReadP.val_main_v9 (F := Ideal) (m ((c : Thread nD τ).loc main_arg1)) := (W4_of_ne m ρ c main_v3 (by decide)).trans (w3_src m ρ c)
theorem w4_dst : W4 m ρ c (Proc.devRef .tc main_v7) = Cert.ReferenceIdeal.ReadP.val_main_v13 (F := Ideal) (m ((c : Thread nD τ).loc main_arg1)) := (W4_of_ne m ρ c main_v7 (by decide)).trans (w3_dst m ρ c)
theorem w4_norm : W4 m ρ c (Proc.devRef .tc main_v32) = Cert.ReferenceIdeal.ReadP.val_main_v38 (F := Ideal) (m ((c : Thread nD τ).loc main_arg1)) := (W4_of_ne m ρ c main_v32 (by decide)).trans (w3_norm m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)
theorem w4_arg14 : W4 m ρ c (Proc.devRef .tc main_arg14) = (m ((c : Thread nD τ).loc main_arg14)) := (W4_of_ne m ρ c main_arg14 (by decide)).trans (w3_arg14 m ρ c)
theorem w4_arg15 : W4 m ρ c (Proc.devRef .tc main_arg15) = (m ((c : Thread nD τ).loc main_arg15)) := (W4_of_ne m ρ c main_arg15 (by decide)).trans (w3_arg15 m ρ c)

/-! ## After the first product launch -/

theorem w5_v37 : W5 m ρ c (Proc.devRef .tc main_v37) = Cert.ReferenceIdeal.ReadP.val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (W5_arr m ρ c 2).trans ((Cert.GcnBlocks1.final (V4 m ρ) Cert.GcnPayload.pay_mm c).trans ?_)
  show MM (W4 m ρ c (Proc.devRef .tc main_v36)) (W4 m ρ c (Proc.devRef .tc main_arg5)) = _
  rw [w4_v36, w4_arg5]
  exact Cert.GcnBridge.mm1_eq (m ((c : Thread nD τ).loc main_arg0)) (m ((c : Thread nD τ).loc main_arg2)) (m ((c : Thread nD τ).loc main_arg3)) (m ((c : Thread nD τ).loc main_arg4)) (m ((c : Thread nD τ).loc main_arg5))
theorem w5_src : W5 m ρ c (Proc.devRef .tc main_v3) = Cert.ReferenceIdeal.ReadP.val_main_v9 (F := Ideal) (m ((c : Thread nD τ).loc main_arg1)) := (W5_of_ne m ρ c main_v3 (by decide)).trans (w4_src m ρ c)
theorem w5_dst : W5 m ρ c (Proc.devRef .tc main_v7) = Cert.ReferenceIdeal.ReadP.val_main_v13 (F := Ideal) (m ((c : Thread nD τ).loc main_arg1)) := (W5_of_ne m ρ c main_v7 (by decide)).trans (w4_dst m ρ c)
theorem w5_norm : W5 m ρ c (Proc.devRef .tc main_v32) = Cert.ReferenceIdeal.ReadP.val_main_v38 (F := Ideal) (m ((c : Thread nD τ).loc main_arg1)) := (W5_of_ne m ρ c main_v32 (by decide)).trans (w4_norm m ρ c)
theorem w5_arg6 : W5 m ρ c (Proc.devRef .tc main_arg6) = (m ((c : Thread nD τ).loc main_arg6)) := (W5_of_ne m ρ c main_arg6 (by decide)).trans (w4_arg6 m ρ c)
theorem w5_arg7 : W5 m ρ c (Proc.devRef .tc main_arg7) = (m ((c : Thread nD τ).loc main_arg7)) := (W5_of_ne m ρ c main_arg7 (by decide)).trans (w4_arg7 m ρ c)
theorem w5_arg8 : W5 m ρ c (Proc.devRef .tc main_arg8) = (m ((c : Thread nD τ).loc main_arg8)) := (W5_of_ne m ρ c main_arg8 (by decide)).trans (w4_arg8 m ρ c)
theorem w5_arg9 : W5 m ρ c (Proc.devRef .tc main_arg9) = (m ((c : Thread nD τ).loc main_arg9)) := (W5_of_ne m ρ c main_arg9 (by decide)).trans (w4_arg9 m ρ c)
theorem w5_arg10 : W5 m ρ c (Proc.devRef .tc main_arg10) = (m ((c : Thread nD τ).loc main_arg10)) := (W5_of_ne m ρ c main_arg10 (by decide)).trans (w4_arg10 m ρ c)
theorem w5_arg11 : W5 m ρ c (Proc.devRef .tc main_arg11) = (m ((c : Thread nD τ).loc main_arg11)) := (W5_of_ne m ρ c main_arg11 (by decide)).trans (w4_arg11 m ρ c)
theorem w5_arg12 : W5 m ρ c (Proc.devRef .tc main_arg12) = (m ((c : Thread nD τ).loc main_arg12)) := (W5_of_ne m ρ c main_arg12 (by decide)).trans (w4_arg12 m ρ c)
theorem w5_arg13 : W5 m ρ c (Proc.devRef .tc main_arg13) = (m ((c : Thread nD τ).loc main_arg13)) := (W5_of_ne m ρ c main_arg13 (by decide)).trans (w4_arg13 m ρ c)
theorem w5_arg14 : W5 m ρ c (Proc.devRef .tc main_arg14) = (m ((c : Thread nD τ).loc main_arg14)) := (W5_of_ne m ρ c main_arg14 (by decide)).trans (w4_arg14 m ρ c)
theorem w5_arg15 : W5 m ρ c (Proc.devRef .tc main_arg15) = (m ((c : Thread nD τ).loc main_arg15)) := (W5_of_ne m ρ c main_arg15 (by decide)).trans (w4_arg15 m ρ c)

/-! ## After the first aggregation (the first normalisation launch's entry) -/

theorem w6_v50 : W6 m ρ c (Proc.devRef .tc main_v50) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Cert.GcnHost.agg1 (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (w5_v37 m ρ c) (w5_src m ρ c) (w5_dst m ρ c) (w5_norm m ρ c)
theorem w6_src : W6 m ρ c (Proc.devRef .tc main_v3) = Cert.ReferenceIdeal.ReadP.val_main_v9 (F := Ideal) (m ((c : Thread nD τ).loc main_arg1)) := (Cert.GcnHost.keep2_v3 (W5 m ρ c)).trans (w5_src m ρ c)
theorem w6_dst : W6 m ρ c (Proc.devRef .tc main_v7) = Cert.ReferenceIdeal.ReadP.val_main_v13 (F := Ideal) (m ((c : Thread nD τ).loc main_arg1)) := (Cert.GcnHost.keep2_v7 (W5 m ρ c)).trans (w5_dst m ρ c)
theorem w6_norm : W6 m ρ c (Proc.devRef .tc main_v32) = Cert.ReferenceIdeal.ReadP.val_main_v38 (F := Ideal) (m ((c : Thread nD τ).loc main_arg1)) := (Cert.GcnHost.keep2_v32 (W5 m ρ c)).trans (w5_norm m ρ c)
theorem w6_arg9 : W6 m ρ c (Proc.devRef .tc main_arg9) = (m ((c : Thread nD τ).loc main_arg9)) := (Cert.GcnHost.keep2_arg9 (W5 m ρ c)).trans (w5_arg9 m ρ c)
theorem w6_arg10 : W6 m ρ c (Proc.devRef .tc main_arg10) = (m ((c : Thread nD τ).loc main_arg10)) := (Cert.GcnHost.keep2_arg10 (W5 m ρ c)).trans (w5_arg10 m ρ c)
theorem w6_arg11 : W6 m ρ c (Proc.devRef .tc main_arg11) = (m ((c : Thread nD τ).loc main_arg11)) := (Cert.GcnHost.keep2_arg11 (W5 m ρ c)).trans (w5_arg11 m ρ c)
theorem w6_arg12 : W6 m ρ c (Proc.devRef .tc main_arg12) = (m ((c : Thread nD τ).loc main_arg12)) := (Cert.GcnHost.keep2_arg12 (W5 m ρ c)).trans (w5_arg12 m ρ c)
theorem w6_arg13 : W6 m ρ c (Proc.devRef .tc main_arg13) = (m ((c : Thread nD τ).loc main_arg13)) := (Cert.GcnHost.keep2_arg13 (W5 m ρ c)).trans (w5_arg13 m ρ c)
theorem w6_arg14 : W6 m ρ c (Proc.devRef .tc main_arg14) = (m ((c : Thread nD τ).loc main_arg14)) := (Cert.GcnHost.keep2_arg14 (W5 m ρ c)).trans (w5_arg14 m ρ c)
theorem w6_arg15 : W6 m ρ c (Proc.devRef .tc main_arg15) = (m ((c : Thread nD τ).loc main_arg15)) := (Cert.GcnHost.keep2_arg15 (W5 m ρ c)).trans (w5_arg15 m ρ c)

/-! ## After the first normalisation launch -/

theorem w7_v55 : W7 m ρ c (Proc.devRef .tc main_v55) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 5).trans ((Cert.GcnBlocks2.final (V6 m ρ) Cert.GcnPayload.pay_ln c).trans ?_)
  show LN (W6 m ρ c (Proc.devRef .tc main_v50)) (W6 m ρ c (Proc.devRef .tc main_v51)) (W6 m ρ c (Proc.devRef .tc main_v52)) (W6 m ρ c (Proc.devRef .tc main_v53)) (W6 m ρ c (Proc.devRef .tc main_v54)) = _
  rw [w6_v50]
  exact Cert.GcnBridge.ln1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ _ _
    (fun k => (Cert.GcnHost.row_v51 (W5 m ρ c) k).trans (congrFun (w5_arg6 m ρ c) _))
    (fun k => (Cert.GcnHost.row_v52 (W5 m ρ c) k).trans (congrFun (w5_arg7 m ρ c) _))
    (fun k => (Cert.GcnHost.row_v53 (W5 m ρ c) k).trans (congrFun (w5_arg8 m ρ c) _))
    ((Cert.GcnHost.slope_v54 (W5 m ρ c)).trans (congrFun (w5_arg9 m ρ c) _))
theorem w7_src : W7 m ρ c (Proc.devRef .tc main_v3) = Cert.ReferenceIdeal.ReadP.val_main_v9 (F := Ideal) (m ((c : Thread nD τ).loc main_arg1)) := (W7_of_ne m ρ c main_v3 (by decide)).trans (w6_src m ρ c)
theorem w7_dst : W7 m ρ c (Proc.devRef .tc main_v7) = Cert.ReferenceIdeal.ReadP.val_main_v13 (F := Ideal) (m ((c : Thread nD τ).loc main_arg1)) := (W7_of_ne m ρ c main_v7 (by decide)).trans (w6_dst m ρ c)
theorem w7_norm : W7 m ρ c (Proc.devRef .tc main_v32) = Cert.ReferenceIdeal.ReadP.val_main_v38 (F := Ideal) (m ((c : Thread nD τ).loc main_arg1)) := (W7_of_ne m ρ c main_v32 (by decide)).trans (w6_norm m ρ c)
theorem w7_arg9 : W7 m ρ c (Proc.devRef .tc main_arg9) = (m ((c : Thread nD τ).loc main_arg9)) := (W7_of_ne m ρ c main_arg9 (by decide)).trans (w6_arg9 m ρ c)
theorem w7_arg10 : W7 m ρ c (Proc.devRef .tc main_arg10) = (m ((c : Thread nD τ).loc main_arg10)) := (W7_of_ne m ρ c main_arg10 (by decide)).trans (w6_arg10 m ρ c)
theorem w7_arg11 : W7 m ρ c (Proc.devRef .tc main_arg11) = (m ((c : Thread nD τ).loc main_arg11)) := (W7_of_ne m ρ c main_arg11 (by decide)).trans (w6_arg11 m ρ c)
theorem w7_arg12 : W7 m ρ c (Proc.devRef .tc main_arg12) = (m ((c : Thread nD τ).loc main_arg12)) := (W7_of_ne m ρ c main_arg12 (by decide)).trans (w6_arg12 m ρ c)
theorem w7_arg13 : W7 m ρ c (Proc.devRef .tc main_arg13) = (m ((c : Thread nD τ).loc main_arg13)) := (W7_of_ne m ρ c main_arg13 (by decide)).trans (w6_arg13 m ρ c)
theorem w7_arg14 : W7 m ρ c (Proc.devRef .tc main_arg14) = (m ((c : Thread nD τ).loc main_arg14)) := (W7_of_ne m ρ c main_arg14 (by decide)).trans (w6_arg14 m ρ c)
theorem w7_arg15 : W7 m ρ c (Proc.devRef .tc main_arg15) = (m ((c : Thread nD τ).loc main_arg15)) := (W7_of_ne m ρ c main_arg15 (by decide)).trans (w6_arg15 m ρ c)

/-! ## After the second product launch -/

theorem w8_v56 : W8 m ρ c (Proc.devRef .tc main_v56) = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 2).trans ((Cert.GcnBlocks3.final (V7 m ρ) Cert.GcnPayload.pay_mm3 c).trans ?_)
  show MM (W7 m ρ c (Proc.devRef .tc main_v55)) (W7 m ρ c (Proc.devRef .tc main_arg10)) = _
  rw [w7_v55, w7_arg10]
  exact Cert.GcnBridge.mm2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
theorem w8_src : W8 m ρ c (Proc.devRef .tc main_v3) = Cert.ReferenceIdeal.ReadP.val_main_v9 (F := Ideal) (m ((c : Thread nD τ).loc main_arg1)) := (W8_of_ne m ρ c main_v3 (by decide)).trans (w7_src m ρ c)
theorem w8_dst : W8 m ρ c (Proc.devRef .tc main_v7) = Cert.ReferenceIdeal.ReadP.val_main_v13 (F := Ideal) (m ((c : Thread nD τ).loc main_arg1)) := (W8_of_ne m ρ c main_v7 (by decide)).trans (w7_dst m ρ c)
theorem w8_norm : W8 m ρ c (Proc.devRef .tc main_v32) = Cert.ReferenceIdeal.ReadP.val_main_v38 (F := Ideal) (m ((c : Thread nD τ).loc main_arg1)) := (W8_of_ne m ρ c main_v32 (by decide)).trans (w7_norm m ρ c)
theorem w8_arg9 : W8 m ρ c (Proc.devRef .tc main_arg9) = (m ((c : Thread nD τ).loc main_arg9)) := (W8_of_ne m ρ c main_arg9 (by decide)).trans (w7_arg9 m ρ c)
theorem w8_arg11 : W8 m ρ c (Proc.devRef .tc main_arg11) = (m ((c : Thread nD τ).loc main_arg11)) := (W8_of_ne m ρ c main_arg11 (by decide)).trans (w7_arg11 m ρ c)
theorem w8_arg12 : W8 m ρ c (Proc.devRef .tc main_arg12) = (m ((c : Thread nD τ).loc main_arg12)) := (W8_of_ne m ρ c main_arg12 (by decide)).trans (w7_arg12 m ρ c)
theorem w8_arg13 : W8 m ρ c (Proc.devRef .tc main_arg13) = (m ((c : Thread nD τ).loc main_arg13)) := (W8_of_ne m ρ c main_arg13 (by decide)).trans (w7_arg13 m ρ c)
theorem w8_arg14 : W8 m ρ c (Proc.devRef .tc main_arg14) = (m ((c : Thread nD τ).loc main_arg14)) := (W8_of_ne m ρ c main_arg14 (by decide)).trans (w7_arg14 m ρ c)
theorem w8_arg15 : W8 m ρ c (Proc.devRef .tc main_arg15) = (m ((c : Thread nD τ).loc main_arg15)) := (W8_of_ne m ρ c main_arg15 (by decide)).trans (w7_arg15 m ρ c)

/-! ## After the second aggregation and the second normalisation launch -/

theorem w9_v69 : W9 m ρ c (Proc.devRef .tc main_v69) = Cert.ReferenceIdeal.ReadP.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.GcnHost.agg2 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (w8_v56 m ρ c) (w8_src m ρ c) (w8_dst m ρ c) (w8_norm m ρ c)
theorem w9_arg14 : W9 m ρ c (Proc.devRef .tc main_arg14) = (m ((c : Thread nD τ).loc main_arg14)) := (Cert.GcnHost.keep4_arg14 (W8 m ρ c)).trans (w8_arg14 m ρ c)
theorem w9_arg15 : W9 m ρ c (Proc.devRef .tc main_arg15) = (m ((c : Thread nD τ).loc main_arg15)) := (Cert.GcnHost.keep4_arg15 (W8 m ρ c)).trans (w8_arg15 m ρ c)

theorem w10_v74 : W10 m ρ c (Proc.devRef .tc main_v74) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 5).trans ((Cert.GcnBlocks4.final (V9 m ρ) Cert.GcnPayload.pay_ln4 c).trans ?_)
  show LN (W9 m ρ c (Proc.devRef .tc main_v69)) (W9 m ρ c (Proc.devRef .tc main_v70)) (W9 m ρ c (Proc.devRef .tc main_v71)) (W9 m ρ c (Proc.devRef .tc main_v72)) (W9 m ρ c (Proc.devRef .tc main_v73)) = _
  rw [w9_v69]
  exact Cert.GcnBridge.ln2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) _ _ _ _
    (fun k => (Cert.GcnHost.row_v70 (W8 m ρ c) k).trans (congrFun (w8_arg11 m ρ c) _))
    (fun k => (Cert.GcnHost.row_v71 (W8 m ρ c) k).trans (congrFun (w8_arg12 m ρ c) _))
    (fun k => (Cert.GcnHost.row_v72 (W8 m ρ c) k).trans (congrFun (w8_arg13 m ρ c) _))
    ((Cert.GcnHost.slope_v73 (W8 m ρ c)).trans (congrFun (w8_arg9 m ρ c) _))
theorem w10_arg14 : W10 m ρ c (Proc.devRef .tc main_arg14) = (m ((c : Thread nD τ).loc main_arg14)) := (W10_of_ne m ρ c main_arg14 (by decide)).trans (w9_arg14 m ρ c)
theorem w10_arg15 : W10 m ρ c (Proc.devRef .tc main_arg15) = (m ((c : Thread nD τ).loc main_arg15)) := (W10_of_ne m ρ c main_arg15 (by decide)).trans (w9_arg15 m ρ c)

/-! ## The output projection -/

theorem w11_v74 : W11 m ρ c (Proc.devRef .tc main_v74) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := (Cert.GcnHost.keep5_v74 (W10 m ρ c)).trans (w10_v74 m ρ c)
theorem w11_arg14 : W11 m ρ c (Proc.devRef .tc main_arg14) = (m ((c : Thread nD τ).loc main_arg14)) := (Cert.GcnHost.keep5_arg14 (W10 m ρ c)).trans (w10_arg14 m ρ c)

/-- The result array ends at the reference's last stage of the argument arrays. -/
theorem result_eq : W12 m ρ c (Proc.devRef .tc main_v76) = Cert.ReferenceIdeal.ReadP.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 3).trans ((Cert.GcnBlocks5.final (V11 m ρ) Cert.GcnPayload.pay_out c).trans ?_)
  show OUT (W11 m ρ c (Proc.devRef .tc main_v74)) (W11 m ρ c (Proc.devRef .tc main_arg14)) (W11 m ρ c (Proc.devRef .tc main_v75)) = _
  rw [w11_v74, w11_arg14]
  exact Cert.GcnBridge.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) _
    (fun k => (Cert.GcnHost.row_v75 (W10 m ρ c) k).trans (congrFun (w10_arg15 m ρ c) _))

end Cert.GcnChain

end
-- ==== Proof.GcnRefFold.lean ====
/-
  The reference program's result buffer, after its operations have run in order from the launch contents, holds the
  last stage of the network as a function of the sixteen argument buffers: each operation's result buffer holds its
  stage, and the stages compose as the program's operations do.
-/
import proofs.«150129_j46978352284504_1_alg».proof.Proof.RefRunP
import proofs.«150129_j46978352284504_1_alg».proof.Proof.RefReadP
import Idealize.ShloMosaic.Lib.StableHlo.Run

noncomputable section

namespace Cert.GcnRefFold

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The program cut into nine windows

  The cuts fall where a value several later operations read has just been written: the encoder's output and the
  edge lists; the edge weights and the first product; the first aggregation; the first normalised layer; the edge
  lists again; their weights and the second product; the second aggregation; the second normalised layer; the
  output projection.  `pK` is the K-th window's operations, `pK_W` the buffers they write. -/

/-- Window 1: operations 0 to 16 of the program. -/
abbrev p1 : List (HloOp τ sig (Elt F)) :=
  [ binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    reshape main_arg2 main_v1 rfl shapeCasts_S100000x1_S100000,
    nullary main_c (constantI S_ 32 0#32),
    unary main_c main_v2 (broadcastInDim S100000 ![] bcast_S_S100000 : (⟨S_, .i32⟩ : BufTy).Contents (Elt F) → (⟨S100000, .i32⟩ : BufTy).Contents (Elt F)),
    binary main_v1 main_v2 main_v3 (cmpi .eq : (⟨S100000, .i32⟩ : BufTy).Contents (Elt F) → (⟨S100000, .i32⟩ : BufTy).Contents (Elt F) → (⟨S100000, .i1⟩ : BufTy).Contents (Elt F)),
    unary main_v3 main_v4 (broadcastInDim S100000x1 ![0] bcast_S100000_S100000x1_0 : (⟨S100000, .i1⟩ : BufTy).Contents (Elt F) → (⟨S100000x1, .i1⟩ : BufTy).Contents (Elt F)),
    TRef.unary (TRef.of (T := ⟨S100000x1, .i1⟩) main_v4) (TRef.of (T := ⟨S100000x128, .i1⟩) main_call0_v0) (broadcastInDim S100000x128 ![0, 1] bcast_S100000x1_S100000x128_0_1),
    TRef.unary (TRef.of (T := ⟨S1x128, .f32⟩) main_arg4) (TRef.of (T := ⟨S100000x128, .f32⟩) main_call0_v1) (broadcastInDim S100000x128 ![0, 1] bcast_S1x128_S100000x128_0_1),
    TRef.ternary (TRef.of (T := ⟨S100000x128, .i1⟩) main_call0_v0) (TRef.of (T := ⟨S100000x128, .f32⟩) main_call0_v1) (TRef.of (T := ⟨S100000x128, .f32⟩) main_v0) (TRef.of (T := ⟨S100000x128, .f32⟩) main_v5) select,
    unary main_arg1 main_v6 ((extractStridedSlice S1x1600000 ![0, 0] · slices_S2x1600000_S1x1600000_0_0) : (⟨S2x1600000, .i32⟩ : BufTy).Contents (Elt F) → (⟨S1x1600000, .i32⟩ : BufTy).Contents (Elt F)),
    reshape main_v6 main_v7 rfl shapeCasts_S1x1600000_S1600000,
    nullary main_v8 (iotaInDim S100000 32 0),
    binary main_v7 main_v8 main_v9 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    reshape main_v10 main_v11 rfl shapeCasts_S1x1600000_S1600000,
    nullary main_v12 (iotaInDim S100000 32 0),
    binary main_v11 main_v12 main_v13 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The buffers window 1 writes. -/
abbrev p1_W : List (Ref sig .tc) :=
  [main_v0, main_v1, main_c, main_v2, main_v3, main_v4, main_call0_v0, main_call0_v1, main_v5, main_v6, main_v7, main_v8, main_v9, main_v10, main_v11, main_v12, main_v13]
theorem p1_writes : (p1 : List (HloOp τ sig (Elt F))).Forall fun op =>
    op.writes ⊆ (p1_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 2: operations 17 to 53 of the program. -/
abbrev p2 : List (HloOp τ sig (Elt F)) :=
  [ nullary main_cst (constant S_ .f32 0x3F800000#32),
    unary main_cst main_v14 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v15 (broadcastInDim S100000 ![] bcast_S_S100000 : (⟨S_, .f32⟩ : BufTy).Contents (Elt F) → (⟨S100000, .f32⟩ : BufTy).Contents (Elt F)),
    unary main_v13 main_v16 (broadcastInDim S1700000x1 ![0] bcast_S1700000_S1700000x1_0 : (⟨S1700000, .i32⟩ : BufTy).Contents (Elt F) → (⟨S1700000x1, .i32⟩ : BufTy).Contents (Elt F)),
    ternary main_v15 main_v16 main_v14 main_v17 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v18 (broadcastInDim S100000 ![] bcast_S_S100000 : (⟨S_, .f32⟩ : BufTy).Contents (Elt F) → (⟨S100000, .f32⟩ : BufTy).Contents (Elt F)),
    binary main_v17 main_v18 main_v19 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v20 (broadcastInDim S100000 ![] bcast_S_S100000 : (⟨S_, .f32⟩ : BufTy).Contents (Elt F) → (⟨S100000, .f32⟩ : BufTy).Contents (Elt F)),
    binary main_v17 main_v20 main_v21 (maximumf : (⟨S100000, .f32⟩ : BufTy).Contents (Elt F) → (⟨S100000, .f32⟩ : BufTy).Contents (Elt F) → (⟨S100000, .f32⟩ : BufTy).Contents (Elt F)),
    unary main_v21 main_v22 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v19) (TRef.of (T := ⟨S100000, .f32⟩) main_v22) (TRef.of (T := ⟨S100000, .f32⟩) main_call1_v1) (TRef.of (T := ⟨S100000, .f32⟩) main_v23) select,
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v9 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v9 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v9 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v23 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v13 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v13 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v13 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v23 main_v36 main_v37 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v30 main_v37 main_v38 (mulf : (⟨S1700000, .f32⟩ : BufTy).Contents (Elt F) → (⟨S1700000, .f32⟩ : BufTy).Contents (Elt F) → (⟨S1700000, .f32⟩ : BufTy).Contents (Elt F)),
    binary main_v5 main_arg5 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers window 2 writes. -/
abbrev p2_W : List (Ref sig .tc) :=
  [main_cst, main_v14, main_cst_0, main_v15, main_v16, main_v17, main_cst_1, main_v18, main_v19, main_cst_2, main_v20, main_v21, main_v22, main_cst_3, main_call1_v0, main_call1_v1, main_v23, main_c_4, main_v24, main_v25, main_c_5, main_v26, main_v27, main_v28, main_v29, main_v30, main_c_6, main_v31, main_v32, main_c_7, main_v33, main_v34, main_v35, main_v36, main_v37, main_v38, main_v39]
theorem p2_writes : (p2 : List (HloOp τ sig (Elt F))).Forall fun op =>
    op.writes ⊆ (p2_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 3: operations 54 to 69 of the program. -/
abbrev p3 : List (HloOp τ sig (Elt F)) :=
  [ nullary main_c_8 (constantI S_ 32 0#32),
    unary main_c_8 main_v40 (broadcastInDim S1700000 ![] bcast_S_S1700000 : (⟨S_, .i32⟩ : BufTy).Contents (Elt F) → (⟨S1700000, .i32⟩ : BufTy).Contents (Elt F)),
    binary main_v9 main_v40 main_v41 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v42 (broadcastInDim S1700000 ![] bcast_S_S1700000 : (⟨S_, .i32⟩ : BufTy).Contents (Elt F) → (⟨S1700000, .i32⟩ : BufTy).Contents (Elt F)),
    binary main_v9 main_v42 main_v43 (addi : (⟨S1700000, .i32⟩ : BufTy).Contents (Elt F) → (⟨S1700000, .i32⟩ : BufTy).Contents (Elt F) → (⟨S1700000, .i32⟩ : BufTy).Contents (Elt F)),
    ternary main_v41 main_v43 main_v9 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v44 main_v45 (broadcastInDim S1700000x1 ![0] bcast_S1700000_S1700000x1_0 : (⟨S1700000, .i32⟩ : BufTy).Contents (Elt F) → (⟨S1700000x1, .i32⟩ : BufTy).Contents (Elt F)),
    binary main_v39 main_v45 main_v46 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v38 main_v47 (broadcastInDim S1700000x1 ![0] bcast_S1700000_S1700000x1_0 : (⟨S1700000, .f32⟩ : BufTy).Contents (Elt F) → (⟨S1700000x1, .f32⟩ : BufTy).Contents (Elt F)),
    unary main_v47 main_v48 (broadcastInDim S1700000x128 ![0, 1] bcast_S1700000x1_S1700000x128_0_1 : (⟨S1700000x1, .f32⟩ : BufTy).Contents (Elt F) → (⟨S1700000x128, .f32⟩ : BufTy).Contents (Elt F)),
    binary main_v46 main_v48 main_v49 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v50 (broadcastInDim S100000x128 ![] bcast_S_S100000x128 : (⟨S_, .f32⟩ : BufTy).Contents (Elt F) → (⟨S100000x128, .f32⟩ : BufTy).Contents (Elt F)),
    unary main_v13 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The buffers window 3 writes. -/
abbrev p3_W : List (Ref sig .tc) :=
  [main_c_8, main_v40, main_v41, main_c_9, main_v42, main_v43, main_v44, main_v45, main_v46, main_v47, main_v48, main_v49, main_cst_10, main_v50, main_v51, main_v52]
theorem p3_writes : (p3 : List (HloOp τ sig (Elt F))).Forall fun op =>
    op.writes ⊆ (p3_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 4: operations 70 to 107 of the program. -/
abbrev p4 : List (HloOp τ sig (Elt F)) :=
  [ unary main_arg6 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v55 main_cst_11 main_v56 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v59 main_v60 (broadcastInDim S100000x128 ![0, 1] bcast_S100000x1_S100000x128_0_1 : (⟨S100000x1, .f32⟩ : BufTy).Contents (Elt F) → (⟨S100000x128, .f32⟩ : BufTy).Contents (Elt F)),
    binary main_v55 main_v60 main_v61 (subf : (⟨S100000x128, .f32⟩ : BufTy).Contents (Elt F) → (⟨S100000x128, .f32⟩ : BufTy).Contents (Elt F) → (⟨S100000x128, .f32⟩ : BufTy).Contents (Elt F)),
    binary main_v61 main_v61 main_v62 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v62 main_cst_13 main_v63 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v63 main_v64 (broadcastInDim S100000x1 ![0] bcast_S100000_S100000x1_0 : (⟨S100000, .f32⟩ : BufTy).Contents (Elt F) → (⟨S100000x1, .f32⟩ : BufTy).Contents (Elt F)),
    nullary main_cst_14 (constant S_ .f32 0x43000000#32),
    unary main_cst_14 main_v65 (broadcastInDim S100000x1 ![] bcast_S_S100000x1 : (⟨S_, .f32⟩ : BufTy).Contents (Elt F) → (⟨S100000x1, .f32⟩ : BufTy).Contents (Elt F)),
    binary main_v64 main_v65 main_v66 (Host.divf : (⟨S100000x1, .f32⟩ : BufTy).Contents (Elt F) → (⟨S100000x1, .f32⟩ : BufTy).Contents (Elt F) → (⟨S100000x1, .f32⟩ : BufTy).Contents (Elt F)),
    unary main_v59 main_v67 (broadcastInDim S100000x128 ![0, 1] bcast_S100000x1_S100000x128_0_1 : (⟨S100000x1, .f32⟩ : BufTy).Contents (Elt F) → (⟨S100000x128, .f32⟩ : BufTy).Contents (Elt F)),
    binary main_v55 main_v67 main_v68 (subf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v69 (broadcastInDim S100000x1 ![] bcast_S_S100000x1 : (⟨S_, .f32⟩ : BufTy).Contents (Elt F) → (⟨S100000x1, .f32⟩ : BufTy).Contents (Elt F)),
    binary main_v66 main_v69 main_v70 (addf : (⟨S100000x1, .f32⟩ : BufTy).Contents (Elt F) → (⟨S100000x1, .f32⟩ : BufTy).Contents (Elt F) → (⟨S100000x1, .f32⟩ : BufTy).Contents (Elt F)),
    unary main_v70 main_v71 (Host.rsqrt : (⟨S100000x1, .f32⟩ : BufTy).Contents (Elt F) → (⟨S100000x1, .f32⟩ : BufTy).Contents (Elt F)),
    unary main_v71 main_v72 (broadcastInDim S100000x128 ![0, 1] bcast_S100000x1_S100000x128_0_1 : (⟨S100000x1, .f32⟩ : BufTy).Contents (Elt F) → (⟨S100000x128, .f32⟩ : BufTy).Contents (Elt F)),
    binary main_v68 main_v72 main_v73 (mulf : (⟨S100000x128, .f32⟩ : BufTy).Contents (Elt F) → (⟨S100000x128, .f32⟩ : BufTy).Contents (Elt F) → (⟨S100000x128, .f32⟩ : BufTy).Contents (Elt F)),
    unary main_arg7 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (mulf : (⟨S100000x128, .f32⟩ : BufTy).Contents (Elt F) → (⟨S100000x128, .f32⟩ : BufTy).Contents (Elt F) → (⟨S100000x128, .f32⟩ : BufTy).Contents (Elt F)),
    unary main_arg8 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    unary main_cst_16 main_v80 (broadcastInDim S100000x128 ![] bcast_S_S100000x128 : (⟨S_, .f32⟩ : BufTy).Contents (Elt F) → (⟨S100000x128, .f32⟩ : BufTy).Contents (Elt F)),
    binary main_v79 main_v80 main_v81 (cmpf .oge : (⟨S100000x128, .f32⟩ : BufTy).Contents (Elt F) → (⟨S100000x128, .f32⟩ : BufTy).Contents (Elt F) → (⟨S100000x128, .i1⟩ : BufTy).Contents (Elt F)),
    unary main_arg9 main_v82 (broadcastInDim S100000x128 ![] bcast_S_S100000x128 : (⟨S_, .f32⟩ : BufTy).Contents (Elt F) → (⟨S100000x128, .f32⟩ : BufTy).Contents (Elt F)),
    binary main_v82 main_v79 main_v83 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v81) (TRef.of (T := ⟨S100000x128, .f32⟩) main_v79) (TRef.of (T := ⟨S100000x128, .f32⟩) main_v83) (TRef.of (T := ⟨S100000x128, .f32⟩) main_v84) select ]
/-- The buffers window 4 writes. -/
abbrev p4_W : List (Ref sig .tc) :=
  [main_v53, main_v54, main_v55, main_cst_11, main_v56, main_v57, main_cst_12, main_v58, main_v59, main_v60, main_v61, main_v62, main_cst_13, main_v63, main_v64, main_cst_14, main_v65, main_v66, main_v67, main_v68, main_cst_15, main_v69, main_v70, main_v71, main_v72, main_v73, main_v74, main_v75, main_v76, main_v77, main_v78, main_v79, main_cst_16, main_v80, main_v81, main_v82, main_v83, main_v84]
theorem p4_writes : (p4 : List (HloOp τ sig (Elt F))).Forall fun op =>
    op.writes ⊆ (p4_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 5: operations 108 to 115 of the program. -/
abbrev p5 : List (HloOp τ sig (Elt F)) :=
  [ unary main_arg1 main_v85 ((extractStridedSlice S1x1600000 ![0, 0] · slices_S2x1600000_S1x1600000_0_0) : (⟨S2x1600000, .i32⟩ : BufTy).Contents (Elt F) → (⟨S1x1600000, .i32⟩ : BufTy).Contents (Elt F)),
    reshape main_v85 main_v86 rfl shapeCasts_S1x1600000_S1600000,
    nullary main_v87 (iotaInDim S100000 32 0),
    binary main_v86 main_v87 main_v88 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v89 ((extractStridedSlice S1x1600000 ![1, 0] · slices_S2x1600000_S1x1600000_1_0) : (⟨S2x1600000, .i32⟩ : BufTy).Contents (Elt F) → (⟨S1x1600000, .i32⟩ : BufTy).Contents (Elt F)),
    reshape main_v89 main_v90 rfl shapeCasts_S1x1600000_S1600000,
    nullary main_v91 (iotaInDim S100000 32 0),
    binary main_v90 main_v91 main_v92 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The buffers window 5 writes. -/
abbrev p5_W : List (Ref sig .tc) :=
  [main_v85, main_v86, main_v87, main_v88, main_v89, main_v90, main_v91, main_v92]
theorem p5_writes : (p5 : List (HloOp τ sig (Elt F))).Forall fun op =>
    op.writes ⊆ (p5_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 6: operations 116 to 152 of the program. -/
abbrev p6 : List (HloOp τ sig (Elt F)) :=
  [ nullary main_cst_17 (constant S_ .f32 0x3F800000#32),
    unary main_cst_17 main_v93 (broadcastInDim S1700000 ![] bcast_S_S1700000 : (⟨S_, .f32⟩ : BufTy).Contents (Elt F) → (⟨S1700000, .f32⟩ : BufTy).Contents (Elt F)),
    nullary main_cst_18 (constant S_ .f32 0x00000000#32),
    unary main_cst_18 main_v94 (broadcastInDim S100000 ![] bcast_S_S100000 : (⟨S_, .f32⟩ : BufTy).Contents (Elt F) → (⟨S100000, .f32⟩ : BufTy).Contents (Elt F)),
    unary main_v92 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_19 (constant S_ .f32 0x00000000#32),
    unary main_cst_19 main_v97 (broadcastInDim S100000 ![] bcast_S_S100000 : (⟨S_, .f32⟩ : BufTy).Contents (Elt F) → (⟨S100000, .f32⟩ : BufTy).Contents (Elt F)),
    binary main_v96 main_v97 main_v98 (cmpf .ogt : (⟨S100000, .f32⟩ : BufTy).Contents (Elt F) → (⟨S100000, .f32⟩ : BufTy).Contents (Elt F) → (⟨S100000, .i1⟩ : BufTy).Contents (Elt F)),
    nullary main_cst_20 (constant S_ .f32 0x3F800000#32),
    unary main_cst_20 main_v99 (broadcastInDim S100000 ![] bcast_S_S100000 : (⟨S_, .f32⟩ : BufTy).Contents (Elt F) → (⟨S100000, .f32⟩ : BufTy).Contents (Elt F)),
    binary main_v96 main_v99 main_v100 (maximumf : (⟨S100000, .f32⟩ : BufTy).Contents (Elt F) → (⟨S100000, .f32⟩ : BufTy).Contents (Elt F) → (⟨S100000, .f32⟩ : BufTy).Contents (Elt F)),
    unary main_v100 main_v101 (Host.rsqrt : (⟨S100000, .f32⟩ : BufTy).Contents (Elt F) → (⟨S100000, .f32⟩ : BufTy).Contents (Elt F)),
    nullary main_cst_21 (constant S_ .f32 0x00000000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v98) (TRef.of (T := ⟨S100000, .f32⟩) main_v101) (TRef.of (T := ⟨S100000, .f32⟩) main_call3_v1) (TRef.of (T := ⟨S100000, .f32⟩) main_v102) select,
    nullary main_c_22 (constantI S_ 32 0#32),
    unary main_c_22 main_v103 (broadcastInDim S1700000 ![] bcast_S_S1700000 : (⟨S_, .i32⟩ : BufTy).Contents (Elt F) → (⟨S1700000, .i32⟩ : BufTy).Contents (Elt F)),
    binary main_v88 main_v103 main_v104 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v105 (broadcastInDim S1700000 ![] bcast_S_S1700000 : (⟨S_, .i32⟩ : BufTy).Contents (Elt F) → (⟨S1700000, .i32⟩ : BufTy).Contents (Elt F)),
    binary main_v88 main_v105 main_v106 (addi : (⟨S1700000, .i32⟩ : BufTy).Contents (Elt F) → (⟨S1700000, .i32⟩ : BufTy).Contents (Elt F) → (⟨S1700000, .i32⟩ : BufTy).Contents (Elt F)),
    ternary main_v104 main_v106 main_v88 main_v107 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v107 main_v108 (broadcastInDim S1700000x1 ![0] bcast_S1700000_S1700000x1_0 : (⟨S1700000, .i32⟩ : BufTy).Contents (Elt F) → (⟨S1700000x1, .i32⟩ : BufTy).Contents (Elt F)),
    binary main_v102 main_v108 main_v109 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_24 (constantI S_ 32 0#32),
    unary main_c_24 main_v110 (broadcastInDim S1700000 ![] bcast_S_S1700000 : (⟨S_, .i32⟩ : BufTy).Contents (Elt F) → (⟨S1700000, .i32⟩ : BufTy).Contents (Elt F)),
    binary main_v92 main_v110 main_v111 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v112 (broadcastInDim S1700000 ![] bcast_S_S1700000 : (⟨S_, .i32⟩ : BufTy).Contents (Elt F) → (⟨S1700000, .i32⟩ : BufTy).Contents (Elt F)),
    binary main_v92 main_v112 main_v113 (addi : (⟨S1700000, .i32⟩ : BufTy).Contents (Elt F) → (⟨S1700000, .i32⟩ : BufTy).Contents (Elt F) → (⟨S1700000, .i32⟩ : BufTy).Contents (Elt F)),
    ternary main_v111 main_v113 main_v92 main_v114 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v114 main_v115 (broadcastInDim S1700000x1 ![0] bcast_S1700000_S1700000x1_0 : (⟨S1700000, .i32⟩ : BufTy).Contents (Elt F) → (⟨S1700000x1, .i32⟩ : BufTy).Contents (Elt F)),
    binary main_v102 main_v115 main_v116 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v109 main_v116 main_v117 (mulf : (⟨S1700000, .f32⟩ : BufTy).Contents (Elt F) → (⟨S1700000, .f32⟩ : BufTy).Contents (Elt F) → (⟨S1700000, .f32⟩ : BufTy).Contents (Elt F)),
    binary main_v84 main_arg10 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers window 6 writes. -/
abbrev p6_W : List (Ref sig .tc) :=
  [main_cst_17, main_v93, main_cst_18, main_v94, main_v95, main_v96, main_cst_19, main_v97, main_v98, main_cst_20, main_v99, main_v100, main_v101, main_cst_21, main_call3_v0, main_call3_v1, main_v102, main_c_22, main_v103, main_v104, main_c_23, main_v105, main_v106, main_v107, main_v108, main_v109, main_c_24, main_v110, main_v111, main_c_25, main_v112, main_v113, main_v114, main_v115, main_v116, main_v117, main_v118]
theorem p6_writes : (p6 : List (HloOp τ sig (Elt F))).Forall fun op =>
    op.writes ⊆ (p6_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 7: operations 153 to 168 of the program. -/
abbrev p7 : List (HloOp τ sig (Elt F)) :=
  [ nullary main_c_26 (constantI S_ 32 0#32),
    unary main_c_26 main_v119 (broadcastInDim S1700000 ![] bcast_S_S1700000 : (⟨S_, .i32⟩ : BufTy).Contents (Elt F) → (⟨S1700000, .i32⟩ : BufTy).Contents (Elt F)),
    binary main_v88 main_v119 main_v120 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v121 (broadcastInDim S1700000 ![] bcast_S_S1700000 : (⟨S_, .i32⟩ : BufTy).Contents (Elt F) → (⟨S1700000, .i32⟩ : BufTy).Contents (Elt F)),
    binary main_v88 main_v121 main_v122 (addi : (⟨S1700000, .i32⟩ : BufTy).Contents (Elt F) → (⟨S1700000, .i32⟩ : BufTy).Contents (Elt F) → (⟨S1700000, .i32⟩ : BufTy).Contents (Elt F)),
    ternary main_v120 main_v122 main_v88 main_v123 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v123 main_v124 (broadcastInDim S1700000x1 ![0] bcast_S1700000_S1700000x1_0 : (⟨S1700000, .i32⟩ : BufTy).Contents (Elt F) → (⟨S1700000x1, .i32⟩ : BufTy).Contents (Elt F)),
    binary main_v118 main_v124 main_v125 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v117 main_v126 (broadcastInDim S1700000x1 ![0] bcast_S1700000_S1700000x1_0 : (⟨S1700000, .f32⟩ : BufTy).Contents (Elt F) → (⟨S1700000x1, .f32⟩ : BufTy).Contents (Elt F)),
    unary main_v126 main_v127 (broadcastInDim S1700000x128 ![0, 1] bcast_S1700000x1_S1700000x128_0_1 : (⟨S1700000x1, .f32⟩ : BufTy).Contents (Elt F) → (⟨S1700000x128, .f32⟩ : BufTy).Contents (Elt F)),
    binary main_v125 main_v127 main_v128 (mulf : (⟨S1700000x128, .f32⟩ : BufTy).Contents (Elt F) → (⟨S1700000x128, .f32⟩ : BufTy).Contents (Elt F) → (⟨S1700000x128, .f32⟩ : BufTy).Contents (Elt F)),
    nullary main_cst_28 (constant S_ .f32 0x00000000#32),
    unary main_cst_28 main_v129 (broadcastInDim S100000x128 ![] bcast_S_S100000x128 : (⟨S_, .f32⟩ : BufTy).Contents (Elt F) → (⟨S100000x128, .f32⟩ : BufTy).Contents (Elt F)),
    unary main_v92 main_v130 (broadcastInDim S1700000x1 ![0] bcast_S1700000_S1700000x1_0 : (⟨S1700000, .i32⟩ : BufTy).Contents (Elt F) → (⟨S1700000x1, .i32⟩ : BufTy).Contents (Elt F)),
    ternary main_v129 main_v130 main_v128 main_v131 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The buffers window 7 writes. -/
abbrev p7_W : List (Ref sig .tc) :=
  [main_c_26, main_v119, main_v120, main_c_27, main_v121, main_v122, main_v123, main_v124, main_v125, main_v126, main_v127, main_v128, main_cst_28, main_v129, main_v130, main_v131]
theorem p7_writes : (p7 : List (HloOp τ sig (Elt F))).Forall fun op =>
    op.writes ⊆ (p7_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 8: operations 169 to 206 of the program. -/
abbrev p8 : List (HloOp τ sig (Elt F)) :=
  [ unary main_arg11 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x00000000#32),
    binary main_v134 main_cst_29 main_v135 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v135 main_v136 (broadcastInDim S100000x1 ![0] bcast_S100000_S100000x1_0 : (⟨S100000, .f32⟩ : BufTy).Contents (Elt F) → (⟨S100000x1, .f32⟩ : BufTy).Contents (Elt F)),
    nullary main_cst_30 (constant S_ .f32 0x43000000#32),
    unary main_cst_30 main_v137 (broadcastInDim S100000x1 ![] bcast_S_S100000x1 : (⟨S_, .f32⟩ : BufTy).Contents (Elt F) → (⟨S100000x1, .f32⟩ : BufTy).Contents (Elt F)),
    binary main_v136 main_v137 main_v138 (Host.divf : (⟨S100000x1, .f32⟩ : BufTy).Contents (Elt F) → (⟨S100000x1, .f32⟩ : BufTy).Contents (Elt F) → (⟨S100000x1, .f32⟩ : BufTy).Contents (Elt F)),
    unary main_v138 main_v139 (broadcastInDim S100000x128 ![0, 1] bcast_S100000x1_S100000x128_0_1 : (⟨S100000x1, .f32⟩ : BufTy).Contents (Elt F) → (⟨S100000x128, .f32⟩ : BufTy).Contents (Elt F)),
    binary main_v134 main_v139 main_v140 (subf : (⟨S100000x128, .f32⟩ : BufTy).Contents (Elt F) → (⟨S100000x128, .f32⟩ : BufTy).Contents (Elt F) → (⟨S100000x128, .f32⟩ : BufTy).Contents (Elt F)),
    binary main_v140 main_v140 main_v141 (mulf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x00000000#32),
    binary main_v141 main_cst_31 main_v142 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v142 main_v143 (broadcastInDim S100000x1 ![0] bcast_S100000_S100000x1_0 : (⟨S100000, .f32⟩ : BufTy).Contents (Elt F) → (⟨S100000x1, .f32⟩ : BufTy).Contents (Elt F)),
    nullary main_cst_32 (constant S_ .f32 0x43000000#32),
    unary main_cst_32 main_v144 (broadcastInDim S100000x1 ![] bcast_S_S100000x1 : (⟨S_, .f32⟩ : BufTy).Contents (Elt F) → (⟨S100000x1, .f32⟩ : BufTy).Contents (Elt F)),
    binary main_v143 main_v144 main_v145 (Host.divf : (⟨S100000x1, .f32⟩ : BufTy).Contents (Elt F) → (⟨S100000x1, .f32⟩ : BufTy).Contents (Elt F) → (⟨S100000x1, .f32⟩ : BufTy).Contents (Elt F)),
    unary main_v138 main_v146 (broadcastInDim S100000x128 ![0, 1] bcast_S100000x1_S100000x128_0_1 : (⟨S100000x1, .f32⟩ : BufTy).Contents (Elt F) → (⟨S100000x128, .f32⟩ : BufTy).Contents (Elt F)),
    binary main_v134 main_v146 main_v147 (subf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x3727C5AC#32),
    unary main_cst_33 main_v148 (broadcastInDim S100000x1 ![] bcast_S_S100000x1 : (⟨S_, .f32⟩ : BufTy).Contents (Elt F) → (⟨S100000x1, .f32⟩ : BufTy).Contents (Elt F)),
    binary main_v145 main_v148 main_v149 (addf : (⟨S100000x1, .f32⟩ : BufTy).Contents (Elt F) → (⟨S100000x1, .f32⟩ : BufTy).Contents (Elt F) → (⟨S100000x1, .f32⟩ : BufTy).Contents (Elt F)),
    unary main_v149 main_v150 (Host.rsqrt : (⟨S100000x1, .f32⟩ : BufTy).Contents (Elt F) → (⟨S100000x1, .f32⟩ : BufTy).Contents (Elt F)),
    unary main_v150 main_v151 (broadcastInDim S100000x128 ![0, 1] bcast_S100000x1_S100000x128_0_1 : (⟨S100000x1, .f32⟩ : BufTy).Contents (Elt F) → (⟨S100000x128, .f32⟩ : BufTy).Contents (Elt F)),
    binary main_v147 main_v151 main_v152 (mulf : (⟨S100000x128, .f32⟩ : BufTy).Contents (Elt F) → (⟨S100000x128, .f32⟩ : BufTy).Contents (Elt F) → (⟨S100000x128, .f32⟩ : BufTy).Contents (Elt F)),
    unary main_arg12 main_v153 (broadcastInDim S1x128 ![1] bcast_S128_S1x128_1 : (⟨S128, .f32⟩ : BufTy).Contents (Elt F) → (⟨S1x128, .f32⟩ : BufTy).Contents (Elt F)),
    unary main_v153 main_v154 (broadcastInDim S100000x128 ![0, 1] bcast_S1x128_S100000x128_0_1 : (⟨S1x128, .f32⟩ : BufTy).Contents (Elt F) → (⟨S100000x128, .f32⟩ : BufTy).Contents (Elt F)),
    binary main_v152 main_v154 main_v155 (mulf : (⟨S100000x128, .f32⟩ : BufTy).Contents (Elt F) → (⟨S100000x128, .f32⟩ : BufTy).Contents (Elt F) → (⟨S100000x128, .f32⟩ : BufTy).Contents (Elt F)),
    unary main_arg13 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v155 main_v157 main_v158 (addf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x00000000#32),
    unary main_cst_34 main_v159 (broadcastInDim S100000x128 ![] bcast_S_S100000x128 : (⟨S_, .f32⟩ : BufTy).Contents (Elt F) → (⟨S100000x128, .f32⟩ : BufTy).Contents (Elt F)),
    binary main_v158 main_v159 main_v160 (cmpf .oge : (⟨S100000x128, .f32⟩ : BufTy).Contents (Elt F) → (⟨S100000x128, .f32⟩ : BufTy).Contents (Elt F) → (⟨S100000x128, .i1⟩ : BufTy).Contents (Elt F)),
    unary main_arg9 main_v161 (broadcastInDim S100000x128 ![] bcast_S_S100000x128 : (⟨S_, .f32⟩ : BufTy).Contents (Elt F) → (⟨S100000x128, .f32⟩ : BufTy).Contents (Elt F)),
    binary main_v161 main_v158 main_v162 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v160) (TRef.of (T := ⟨S100000x128, .f32⟩) main_v158) (TRef.of (T := ⟨S100000x128, .f32⟩) main_v162) (TRef.of (T := ⟨S100000x128, .f32⟩) main_v163) select ]
/-- The buffers window 8 writes. -/
abbrev p8_W : List (Ref sig .tc) :=
  [main_v132, main_v133, main_v134, main_cst_29, main_v135, main_v136, main_cst_30, main_v137, main_v138, main_v139, main_v140, main_v141, main_cst_31, main_v142, main_v143, main_cst_32, main_v144, main_v145, main_v146, main_v147, main_cst_33, main_v148, main_v149, main_v150, main_v151, main_v152, main_v153, main_v154, main_v155, main_v156, main_v157, main_v158, main_cst_34, main_v159, main_v160, main_v161, main_v162, main_v163]
theorem p8_writes : (p8 : List (HloOp τ sig (Elt F))).Forall fun op =>
    op.writes ⊆ (p8_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-- Window 9: operations 207 to 210 of the program. -/
abbrev p9 : List (HloOp τ sig (Elt F)) :=
  [ binary main_v163 main_arg14 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v164 main_v166 main_v167 (addf : (⟨S100000x128, .f32⟩ : BufTy).Contents (Elt F) → (⟨S100000x128, .f32⟩ : BufTy).Contents (Elt F) → (⟨S100000x128, .f32⟩ : BufTy).Contents (Elt F)) ]
/-- The buffers window 9 writes. -/
abbrev p9_W : List (Ref sig .tc) :=
  [main_v164, main_v165, main_v166, main_v167]
theorem p9_writes : (p9 : List (HloOp τ sig (Elt F))).Forall fun op =>
    op.writes ⊆ (p9_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)

/-! ## The buffers' contents after each window, from any contents `V0` -/

section Windows

variable (V0 : Valuation τ sig (Elt F))

/-- The buffers' contents after the first 1 window. -/
def val1 : Valuation τ sig (Elt F) := after p1 V0
/-- A buffer window 1 does not write keeps its contents through it. -/
theorem val1_keep (r : Ref sig .tc) (h : r ∉ p1_W) :
    val1 V0 (Proc.devRef .tc r) = V0 (Proc.devRef .tc r) :=
  after_of_writes_sub p1 _ p1_writes h

/-- The buffers' contents after the first 2 windows. -/
def val2 : Valuation τ sig (Elt F) := after p2 (val1 V0)
/-- A buffer window 2 does not write keeps its contents through it. -/
theorem val2_keep (r : Ref sig .tc) (h : r ∉ p2_W) :
    val2 V0 (Proc.devRef .tc r) = (val1 V0) (Proc.devRef .tc r) :=
  after_of_writes_sub p2 _ p2_writes h

/-- The buffers' contents after the first 3 windows. -/
def val3 : Valuation τ sig (Elt F) := after p3 (val2 V0)
/-- A buffer window 3 does not write keeps its contents through it. -/
theorem val3_keep (r : Ref sig .tc) (h : r ∉ p3_W) :
    val3 V0 (Proc.devRef .tc r) = (val2 V0) (Proc.devRef .tc r) :=
  after_of_writes_sub p3 _ p3_writes h

/-- The buffers' contents after the first 4 windows. -/
def val4 : Valuation τ sig (Elt F) := after p4 (val3 V0)
/-- A buffer window 4 does not write keeps its contents through it. -/
theorem val4_keep (r : Ref sig .tc) (h : r ∉ p4_W) :
    val4 V0 (Proc.devRef .tc r) = (val3 V0) (Proc.devRef .tc r) :=
  after_of_writes_sub p4 _ p4_writes h

/-- The buffers' contents after the first 5 windows. -/
def val5 : Valuation τ sig (Elt F) := after p5 (val4 V0)
/-- A buffer window 5 does not write keeps its contents through it. -/
theorem val5_keep (r : Ref sig .tc) (h : r ∉ p5_W) :
    val5 V0 (Proc.devRef .tc r) = (val4 V0) (Proc.devRef .tc r) :=
  after_of_writes_sub p5 _ p5_writes h

/-- The buffers' contents after the first 6 windows. -/
def val6 : Valuation τ sig (Elt F) := after p6 (val5 V0)
/-- A buffer window 6 does not write keeps its contents through it. -/
theorem val6_keep (r : Ref sig .tc) (h : r ∉ p6_W) :
    val6 V0 (Proc.devRef .tc r) = (val5 V0) (Proc.devRef .tc r) :=
  after_of_writes_sub p6 _ p6_writes h

/-- The buffers' contents after the first 7 windows. -/
def val7 : Valuation τ sig (Elt F) := after p7 (val6 V0)
/-- A buffer window 7 does not write keeps its contents through it. -/
theorem val7_keep (r : Ref sig .tc) (h : r ∉ p7_W) :
    val7 V0 (Proc.devRef .tc r) = (val6 V0) (Proc.devRef .tc r) :=
  after_of_writes_sub p7 _ p7_writes h

/-- The buffers' contents after the first 8 windows. -/
def val8 : Valuation τ sig (Elt F) := after p8 (val7 V0)
/-- A buffer window 8 does not write keeps its contents through it. -/
theorem val8_keep (r : Ref sig .tc) (h : r ∉ p8_W) :
    val8 V0 (Proc.devRef .tc r) = (val7 V0) (Proc.devRef .tc r) :=
  after_of_writes_sub p8 _ p8_writes h

/-- The buffers' contents after the first 9 windows. -/
def val9 : Valuation τ sig (Elt F) := after p9 (val8 V0)
/-- A buffer window 9 does not write keeps its contents through it. -/
theorem val9_keep (r : Ref sig .tc) (h : r ∉ p9_W) :
    val9 V0 (Proc.devRef .tc r) = (val8 V0) (Proc.devRef .tc r) :=
  after_of_writes_sub p9 _ p9_writes h

end Windows

/-- A buffer no window writes: an argument of the program. -/
def Kept (r : Ref sig .tc) : Prop :=
  r ∉ p1_W ∧ r ∉ p2_W ∧ r ∉ p3_W ∧ r ∉ p4_W ∧ r ∉ p5_W ∧ r ∉ p6_W ∧ r ∉ p7_W ∧ r ∉ p8_W ∧ r ∉ p9_W

instance (r : Ref sig .tc) : Decidable (Kept r) := by unfold Kept; infer_instance

section Values

variable (V0 : Valuation τ sig (Elt F))

/-! ### An argument keeps its launch contents through every window -/
theorem val1_arg (r : Ref sig .tc) (h : Kept r) : val1 V0 (Proc.devRef .tc r) = V0 (Proc.devRef .tc r) :=
  val1_keep V0 r h.1
theorem val2_arg (r : Ref sig .tc) (h : Kept r) : val2 V0 (Proc.devRef .tc r) = V0 (Proc.devRef .tc r) :=
  (val2_keep V0 r h.2.1).trans (val1_arg V0 r h)
theorem val3_arg (r : Ref sig .tc) (h : Kept r) : val3 V0 (Proc.devRef .tc r) = V0 (Proc.devRef .tc r) :=
  (val3_keep V0 r h.2.2.1).trans (val2_arg V0 r h)
theorem val4_arg (r : Ref sig .tc) (h : Kept r) : val4 V0 (Proc.devRef .tc r) = V0 (Proc.devRef .tc r) :=
  (val4_keep V0 r h.2.2.2.1).trans (val3_arg V0 r h)
theorem val5_arg (r : Ref sig .tc) (h : Kept r) : val5 V0 (Proc.devRef .tc r) = V0 (Proc.devRef .tc r) :=
  (val5_keep V0 r h.2.2.2.2.1).trans (val4_arg V0 r h)
theorem val6_arg (r : Ref sig .tc) (h : Kept r) : val6 V0 (Proc.devRef .tc r) = V0 (Proc.devRef .tc r) :=
  (val6_keep V0 r h.2.2.2.2.2.1).trans (val5_arg V0 r h)
theorem val7_arg (r : Ref sig .tc) (h : Kept r) : val7 V0 (Proc.devRef .tc r) = V0 (Proc.devRef .tc r) :=
  (val7_keep V0 r h.2.2.2.2.2.2.1).trans (val6_arg V0 r h)
theorem val8_arg (r : Ref sig .tc) (h : Kept r) : val8 V0 (Proc.devRef .tc r) = V0 (Proc.devRef .tc r) :=
  (val8_keep V0 r h.2.2.2.2.2.2.2.1).trans (val7_arg V0 r h)

/-! ### Each window's new values are the program's stages of the arguments -/

set_option maxHeartbeats 4000000 in
theorem val1_v5 : val1 V0 (Proc.devRef .tc main_v5) = val_main_v5 (F := F) (V0 (Proc.devRef .tc main_arg0)) (V0 (Proc.devRef .tc main_arg2)) (V0 (Proc.devRef .tc main_arg3)) (V0 (Proc.devRef .tc main_arg4)) := by
  unfold val1
  after_results_simp
  rfl

set_option maxHeartbeats 4000000 in
theorem val1_v9 : val1 V0 (Proc.devRef .tc main_v9) = val_main_v9 (F := F) (V0 (Proc.devRef .tc main_arg1)) := by
  unfold val1
  after_results_simp
  rfl

set_option maxHeartbeats 4000000 in
theorem val1_v13 : val1 V0 (Proc.devRef .tc main_v13) = val_main_v13 (F := F) (V0 (Proc.devRef .tc main_arg1)) := by
  unfold val1
  after_results_simp
  rfl

theorem val2_v9 : val2 V0 (Proc.devRef .tc main_v9) = val_main_v9 (F := F) (V0 (Proc.devRef .tc main_arg1)) :=
  (val2_keep V0 main_v9 (by decide)).trans (val1_v9 V0)

theorem val2_v13 : val2 V0 (Proc.devRef .tc main_v13) = val_main_v13 (F := F) (V0 (Proc.devRef .tc main_arg1)) :=
  (val2_keep V0 main_v13 (by decide)).trans (val1_v13 V0)

set_option maxHeartbeats 4000000 in
theorem val2_v38 : val2 V0 (Proc.devRef .tc main_v38) = val_main_v38 (F := F) (V0 (Proc.devRef .tc main_arg1)) := by
  unfold val2
  after_results_simp
  rw [val1_v13 V0,
    val1_v9 V0]
  rfl

set_option maxHeartbeats 4000000 in
theorem val2_v39 : val2 V0 (Proc.devRef .tc main_v39) = val_main_v39 (F := F) (V0 (Proc.devRef .tc main_arg0)) (V0 (Proc.devRef .tc main_arg2)) (V0 (Proc.devRef .tc main_arg3)) (V0 (Proc.devRef .tc main_arg4)) (V0 (Proc.devRef .tc main_arg5)) := by
  unfold val2
  after_results_simp
  rw [val1_arg V0 main_arg5 (by decide),
    val1_v5 V0]
  rfl

set_option maxHeartbeats 4000000 in
theorem val3_v52 : val3 V0 (Proc.devRef .tc main_v52) = val_main_v52 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val3
  after_results_simp
  rw [val2_v38 V0,
    val2_v9 V0,
    val2_v39 V0,
    val2_v13 V0]
  rfl

set_option maxHeartbeats 4000000 in
theorem val4_v84 : val4 V0 (Proc.devRef .tc main_v84) = val_main_v84 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val4
  after_results_simp
  rw [val3_arg V0 main_arg9 (by decide),
    val3_arg V0 main_arg8 (by decide),
    val3_arg V0 main_arg7 (by decide),
    val3_arg V0 main_arg6 (by decide),
    val3_v52 V0]
  rfl

theorem val5_v84 : val5 V0 (Proc.devRef .tc main_v84) = val_main_v84 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val5_keep V0 main_v84 (by decide)).trans (val4_v84 V0)

set_option maxHeartbeats 4000000 in
theorem val5_v88 : val5 V0 (Proc.devRef .tc main_v88) = val_main_v88 (F := F) (V0 (Proc.devRef .tc main_arg1)) := by
  unfold val5
  after_results
  rw [val4_arg V0 main_arg1 (by decide)]
  rfl

set_option maxHeartbeats 4000000 in
theorem val5_v92 : val5 V0 (Proc.devRef .tc main_v92) = val_main_v92 (F := F) (V0 (Proc.devRef .tc main_arg1)) := by
  unfold val5
  after_results
  rw [val4_arg V0 main_arg1 (by decide)]
  rfl

theorem val6_v88 : val6 V0 (Proc.devRef .tc main_v88) = val_main_v88 (F := F) (V0 (Proc.devRef .tc main_arg1)) :=
  (val6_keep V0 main_v88 (by decide)).trans (val5_v88 V0)

theorem val6_v92 : val6 V0 (Proc.devRef .tc main_v92) = val_main_v92 (F := F) (V0 (Proc.devRef .tc main_arg1)) :=
  (val6_keep V0 main_v92 (by decide)).trans (val5_v92 V0)

set_option maxHeartbeats 4000000 in
theorem val6_v117 : val6 V0 (Proc.devRef .tc main_v117) = val_main_v117 (F := F) (V0 (Proc.devRef .tc main_arg1)) := by
  unfold val6
  after_results_simp
  rw [val5_v92 V0,
    val5_v88 V0]
  rfl

set_option maxHeartbeats 4000000 in
theorem val6_v118 : val6 V0 (Proc.devRef .tc main_v118) = val_main_v118 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val6
  after_results_simp
  rw [val5_arg V0 main_arg10 (by decide),
    val5_v84 V0]
  rfl

set_option maxHeartbeats 4000000 in
theorem val7_v131 : val7 V0 (Proc.devRef .tc main_v131) = val_main_v131 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val7
  after_results_simp
  rw [val6_v117 V0,
    val6_v88 V0,
    val6_v118 V0,
    val6_v92 V0]
  rfl

set_option maxHeartbeats 4000000 in
theorem val8_v163 : val8 V0 (Proc.devRef .tc main_v163) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val8
  after_results_simp
  rw [val7_arg V0 main_arg9 (by decide),
    val7_arg V0 main_arg13 (by decide),
    val7_arg V0 main_arg12 (by decide),
    val7_arg V0 main_arg11 (by decide),
    val7_v131 V0]
  rfl

set_option maxHeartbeats 4000000 in
theorem val9_v167 : val9 V0 (Proc.devRef .tc main_v167) = val_main_v167 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val9
  after_results_simp
  rw [val8_arg V0 main_arg15 (by decide),
    val8_arg V0 main_arg14 (by decide),
    val8_v163 V0]
  rfl

end Values

/-! ## The whole program -/

set_option maxRecDepth 8192 in
/-- The program's operations are the nine windows, in order. -/
theorem ops_eq : (Cert.ReferenceIdeal.ValueP.ops : List (HloOp τ sig (Elt F)))
    = p1 ++ (p2 ++ (p3 ++ (p4 ++ (p5 ++ (p6 ++ (p7 ++ (p8 ++ p9))))))) := rfl

/-- After all the operations the buffers hold what they hold after the ninth window. -/
theorem after_ops (V0 : Valuation τ sig (Elt F)) :
    after (Cert.ReferenceIdeal.ValueP.ops (F := F)) V0 = val9 V0 := by
  rw [ops_eq]
  simp only [after_append]
  rfl

/-- The result buffer, after the operations have run from the launch contents, holds the network's last stage of
    the sixteen arguments' launch contents. -/
theorem ref_fold (m : (ℓ : Loc nD τ sig) → Buf (Elt Ideal) ℓ) (c : Dev nD) :
    after (Cert.ReferenceIdeal.ValueP.ops (F := Ideal)) (launchContents m c) (Proc.devRef .tc main_v167)
      = Cert.ReferenceIdeal.ReadP.val_main_v167 (F := Ideal)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15)) :=
  (congrFun (after_ops (launchContents m c)) _).trans (val9_v167 (launchContents m c))

end Cert.GcnRefFold

end
-- ==== Proof.lean ====
/-
  A two-layer graph network on 100000 nodes with 128 features: the tiled program against the plain one.

  The program under proof encodes the node features (a product with a weight matrix, with a decoder token put in
  place of the masked rows), applies twice a graph convolution (a product with a weight matrix; the rows gathered
  along the edges, scaled by the symmetric degree weights and summed into the edges' target rows; a bias; the
  normalisation of every row by its own mean and variance with scale and shift; a leaky rectifier) and projects the
  result with a last weight matrix and bias.  It computes the dense steps in six launches that each treat 4000 rows at
  a time, and the gathering and summing along the edges by host operations between the launches; the reference computes
  everything by host operations on whole arrays.

  Over the extended reals the two agree entry by entry.  Every dense step acts on one row at a time, so computing
  it block by block over a partition of the rows gives the whole-array step; the masked blend `m * token + (1 - m) * y`
  with `m` 0 or 1 is the reference's selection; the row sums and matrix products are the same finite sums; the steps
  along the edges are the same operations in both programs.  The claim's five parts:
  the three programs run to the end without fault and leave their arguments alone (the two tiled programs by their
  generated frame proofs, the reference by its run); the idealized tiled program differs from the printed one by no
  rewrite; and the idealized tiled program and the idealized reference end with equal results.
-/
import proofs.«150129_j46978352284504_1_alg».proof.Defs
import proofs.«150129_j46978352284504_1_alg».proof.Proof.Gen.Kernel
import proofs.«150129_j46978352284504_1_alg».proof.Proof.Gen.Kernel.Skeleton
import proofs.«150129_j46978352284504_1_alg».proof.Proof.Gen.Kernel.Launch
import proofs.«150129_j46978352284504_1_alg».proof.Proof.Gen.Kernel.Points
import proofs.«150129_j46978352284504_1_alg».proof.Proof.Gen.Kernel.Frame
import proofs.«150129_j46978352284504_1_alg».proof.Proof.Gen.KernelIdeal
import proofs.«150129_j46978352284504_1_alg».proof.Proof.Gen.KernelIdeal.Skeleton
import proofs.«150129_j46978352284504_1_alg».proof.Proof.Gen.KernelIdeal.Launch
import proofs.«150129_j46978352284504_1_alg».proof.Proof.Gen.KernelIdeal.Points
import proofs.«150129_j46978352284504_1_alg».proof.Proof.Gen.KernelIdeal.Frame
import proofs.«150129_j46978352284504_1_alg».proof.Proof.Gen.ReferenceIdeal
import proofs.«150129_j46978352284504_1_alg».proof.Proof.Gen.Pre_finite_inputs
import proofs.«150129_j46978352284504_1_alg».proof.Proof.RefRunP
import proofs.«150129_j46978352284504_1_alg».proof.Proof.RefReadP
import proofs.«150129_j46978352284504_1_alg».proof.Proof.GcnRun
import proofs.«150129_j46978352284504_1_alg».proof.Proof.GcnChain
import proofs.«150129_j46978352284504_1_alg».proof.Proof.GcnRefFold
import Idealize.ShloMosaic.Adequacy
import Idealize.ShloMosaic.Init

noncomputable section

namespace Cert.Proof

open Idealize.ShloMosaic Idealize.ShloMosaic.TcCoe Idealize.SL.Sem

/-- The word-level tiled program runs to the end and leaves its arguments alone. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- So does the reference: its run, with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both idealized programs end with the reference's last stage of the (shared) argument arrays in their result
    array: the tiled one by following its twelve segments, the reference by folding its operations. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v167 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (Cert.GcnChain.result_eq m ρ c), (h c).2⟩)
      (Cert.GcnRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15⟩ := hagree c
    rw [Cert.GcnRefFold.ref_fold m' c, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
